-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v104)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v104) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v115) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S1250000x2 : Shape := ⟨2, ![1250000, 2]⟩
abbrev S1250000 : Shape := ⟨1, ![1250000]⟩
abbrev S256x64 : Shape := ⟨2, ![256, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1250000 : S_.BroadcastsInDim S1250000 (![] : Fin 0 → Fin S1250000.rank)
  reducesTo_S1250000_S_d0 : S1250000.ReducesTo [0] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  main_v18

def fn {F : FTy → Type} [FloatOps F] (main_arg0 : FVec F S100000x64 .f32) (main_arg1 : IVec S1250000x2 32) (main_arg2 : FVec F S1250000 .f32) (main_arg3 : FVec F S256x64 .f32) (main_arg4 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S1250000 .f32 := Host.absf main_arg2
  let main_cst_0 : FVec F S_ .f32 := constant S_ .f32 0x7F800000#32
  let main_v5 : FVec F S1250000 .f32 := broadcastInDim S1250000 ![] bcast_S_S1250000 main_cst_0
  let main_v6 : IVec S1250000 1 := cmpf .olt main_v4 main_v5
  let main_c_1 : IVec S_ 1 := constantI S_ 1 1#1
  let main_v7 : IVec S_ 1 := (fun x v => Host.reduce IntOp.andi x v reducesTo_S1250000_S_d0 h_S_) main_v6 main_c_1
  let main_v8 : IVec S_ 1 := andi main_v3 main_v7
  let main_v9 : FVec F S256x64 .f32 := Host.absf main_arg3
  let main_cst_2 : FVec F S_ .f32 := constant S_ .f32 0x7F800000#32
  let main_v10 : FVec F S256x64 .f32 := broadcastInDim S256x64 ![] bcast_S_S256x64 main_cst_2
  let main_v11 : IVec S256x64 1 := cmpf .olt main_v9 main_v10
  let main_c_3 : IVec S_ 1 := constantI S_ 1 1#1
  let main_v12 : IVec S_ 1 := (fun x v => Host.reduce IntOp.andi x v reducesTo_S256x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_v13 main_v16
-- ==== Kernel.lean ====
abbrev S100000x64 : Shape := ⟨2, ![100000, 64]⟩
abbrev S1250000x2 : Shape := ⟨2, ![1250000, 2]⟩
abbrev S1250000 : Shape := ⟨1, ![1250000]⟩
abbrev S256x64 : Shape := ⟨2, ![256, 64]⟩
abbrev S64 : Shape := ⟨1, ![64]⟩
abbrev S1250000x1 : Shape := ⟨2, ![1250000, 1]⟩
abbrev S_ : Shape := ⟨0, ![]⟩
abbrev S100000 : Shape := ⟨1, ![100000]⟩
abbrev S1250000x64 : Shape := ⟨2, ![1250000, 64]⟩
abbrev S100000x1 : Shape := ⟨2, ![100000, 1]⟩
abbrev S2000x64 : Shape := ⟨2, ![2000, 64]⟩
abbrev S64x64 : Shape := ⟨2, ![64, 64]⟩
abbrev S1x64 : Shape := ⟨2, ![1, 64]⟩

abbrev nBuf : Space → Nat
  | .hbm => 131
  | .vmem => 36
  | .smem => 0
  | _ => 0

abbrev hbmTy0_0 (i : Nat) : BufTy := match i % 128 with
  | 0 => ⟨S100000x64, .f32⟩
  | 1 => ⟨S1250000x2, .i32⟩
  | 2 => ⟨S1250000, .f32⟩
  | 3 => ⟨S256x64, .f32⟩
  | 4 => ⟨S64, .f32⟩
  | 5 => ⟨S1250000x1, .i32⟩
  | 6 => ⟨S1250000, .i32⟩
  | 7 => ⟨S1250000x1, .i32⟩
  | 8 => ⟨S1250000, .i32⟩
  | 9 => ⟨S_, .f32⟩
  | 10 => ⟨S100000, .f32⟩
  | 11 => ⟨S1250000x1, .i32⟩
  | 12 => ⟨S100000, .f32⟩
  | 13 => ⟨S_, .f32⟩
  | 14 => ⟨S100000, .f32⟩
  | 15 => ⟨S1250000x1, .i32⟩
  | 16 => ⟨S100000, .f32⟩
  | 17 => ⟨S100000, .f32⟩
  | 18 => ⟨S_, .f32⟩
  | 19 => ⟨S100000, .f32⟩
  | 20 => ⟨S100000, .f32⟩
  | 21 => ⟨S_, .f32⟩
  | 22 => ⟨S100000, .f32⟩
  | 23 => ⟨S100000, .f32⟩
  | 24 => ⟨S100000, .f32⟩
  | 25 => ⟨S_, .f32⟩
  | 26 => ⟨S100000, .f32⟩
  | 27 => ⟨S100000, .f32⟩
  | 28 => ⟨S_, .f32⟩
  | 29 => ⟨S100000, .f32⟩
  | 30 => ⟨S100000, .f32⟩
  | 31 => ⟨S_, .i32⟩
  | 32 => ⟨S1250000, .i32⟩
  | 33 => ⟨S1250000, .i1⟩
  | 34 => ⟨S_, .i32⟩
  | 35 => ⟨S1250000, .i32⟩
  | 36 => ⟨S1250000, .i32⟩
  | 37 => ⟨S1250000, .i32⟩
  | 38 => ⟨S1250000x1, .i32⟩
  | 39 => ⟨S1250000x64, .f32⟩
  | 40 => ⟨S_, .i32⟩
  | 41 => ⟨S1250000, .i32⟩
  | 42 => ⟨S1250000, .i1⟩
  | 43 => ⟨S_, .i32⟩
  | 44 => ⟨S1250000, .i32⟩
  | 45 => ⟨S1250000, .i32⟩
  | 46 => ⟨S1250000, .i32⟩
  | 47 => ⟨S1250000x1, .i32⟩
  | 48 => ⟨S1250000, .f32⟩
  | 49 => ⟨S1250000x1, .f32⟩
  | 50 => ⟨S1250000x64, .f32⟩
  | 51 => ⟨S1250000x64, .f32⟩
  | 52 => ⟨S1250000x1, .f32⟩
  | 53 => ⟨S1250000x64, .f32⟩
  | 54 => ⟨S1250000x64, .f32⟩
  | 55 => ⟨S_, .f32⟩
  | 56 => ⟨S100000x64, .f32⟩
  | 57 => ⟨S1250000x1, .i32⟩
  | 58 => ⟨S100000x64, .f32⟩
  | 59 => ⟨S100000x64, .f32⟩
  | 60 => ⟨S100000x1, .f32⟩
  | 61 => ⟨S100000x64, .f32⟩
  | 62 => ⟨S100000x64, .f32⟩
  | 63 => ⟨S100000x64, .f32⟩
  | 64 => ⟨S_, .i32⟩
  | 65 => ⟨S1250000, .i32⟩
  | 66 => ⟨S1250000, .i1⟩
  | 67 => ⟨S_, .i32⟩
  | 68 => ⟨S1250000, .i32⟩
  | 69 => ⟨S1250000, .i32⟩
  | 70 => ⟨S1250000, .i32⟩
  | 71 => ⟨S1250000x1, .i32⟩
  | 72 => ⟨S1250000x64, .f32⟩
  | 73 => ⟨S_, .i32⟩
  | 74 => ⟨S1250000, .i32⟩
  | 75 => ⟨S1250000, .i1⟩
  | 76 => ⟨S_, .i32⟩
  | 77 => ⟨S1250000, .i32⟩
  | 78 => ⟨S1250000, .i32⟩
  | 79 => ⟨S1250000, .i32⟩
  | 80 => ⟨S1250000x1, .i32⟩
  | 81 => ⟨S1250000, .f32⟩
  | 82 => ⟨S1250000x1, .f32⟩
  | 83 => ⟨S1250000x64, .f32⟩
  | 84 => ⟨S1250000x64, .f32⟩
  | 85 => ⟨S1250000x1, .f32⟩
  | 86 => ⟨S1250000x64, .f32⟩
  | 87 => ⟨S1250000x64, .f32⟩
  | 88 => ⟨S_, .f32⟩
  | 89 => ⟨S100000x64, .f32⟩
  | 90 => ⟨S1250000x1, .i32⟩
  | 91 => ⟨S100000x64, .f32⟩
  | 92 => ⟨S100000x64, .f32⟩
  | 93 => ⟨S100000x1, .f32⟩
  | 94 => ⟨S100000x64, .f32⟩
  | 95 => ⟨S100000x64, .f32⟩
  | 96 => ⟨S100000x64, .f32⟩
  | 97 => ⟨S_, .i32⟩
  | 98 => ⟨S1250000, .i32⟩
  | 99 => ⟨S1250000, .i1⟩
  | 100 => ⟨S_, .i32⟩
  | 101 => ⟨S1250000, .i32⟩
  | 102 => ⟨S1250000, .i32⟩
  | 103 => ⟨S1250000, .i32⟩
  | 104 => ⟨S1250000x1, .i32⟩
  | 105 => ⟨S1250000x64, .f32⟩
  | 106 => ⟨S_, .i32⟩
  | 107 => ⟨S1250000, .i32⟩
  | 108 => ⟨S1250000, .i1⟩
  | 109 => ⟨S_, .i32⟩
  | 110 => ⟨S1250000, .i32⟩
  | 111 => ⟨S1250000, .i32⟩
  | 112 => ⟨S1250000, .i32⟩
  | 113 => ⟨S1250000x1, .i32⟩
  | 114 => ⟨S1250000, .f32⟩
  | 115 => ⟨S1250000x1, .f32⟩
  | 116 => ⟨S1250000x64, .f32⟩
  | 117 => ⟨S1250000x64, .f32⟩
  | 118 => ⟨S1250000x1, .f32⟩
  | 119 => ⟨S1250000x64, .f32⟩
  | 120 => ⟨S1250000x64, .f32⟩
  | 121 => ⟨S_, .f32⟩
  | 122 => ⟨S100000x64, .f32⟩
  | 123 => ⟨S1250000x1, .i32⟩
  | 124 => ⟨S100000x64, .f32⟩
  | 125 => ⟨S100000x64, .f32⟩
  | 126 => ⟨S100000x1, .f32⟩
  | 127 => ⟨S100000x64, .f32⟩
  | _ => ⟨S100000x64, .f32⟩

abbrev hbmTy0_1 (i : Nat) : BufTy := match i % 128 with
  | 0 => ⟨S100000x64, .f32⟩
  | 1 => ⟨S100000x64, .f32⟩
  | 2 => ⟨S100000x64, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | .local _ .vmem, ⟨0, _⟩ => ⟨S2000x64, .f32⟩
  | .local _ .vmem, ⟨1, _⟩ => ⟨S2000x64, .f32⟩
  | .local _ .vmem, ⟨2, _⟩ => ⟨S2000x64, .f32⟩
  | .local _ .vmem, ⟨3, _⟩ => ⟨S2000x64, .f32⟩
  | .local _ .vmem, ⟨4, _⟩ => ⟨S2000x64, .f32⟩
  | .local _ .vmem, ⟨5, _⟩ => ⟨S2000x64, .f32⟩
  | .local _ .vmem, ⟨6, _⟩ => ⟨S2000x64, .f32⟩
  | .local _ .vmem, ⟨7, _⟩ => ⟨S2000x64, .f32⟩
  | .local _ .vmem, ⟨8, _⟩ => ⟨S2000x64, .f32⟩
  | .local _ .vmem, ⟨9, _⟩ => ⟨S2000x64, .f32⟩
  | .local _ .vmem, ⟨10, _⟩ => ⟨S2000x64, .f32⟩
  | .local _ .vmem, ⟨11, _⟩ => ⟨S2000x64, .f32⟩
  | .local _ .vmem, ⟨12, _⟩ => ⟨S2000x64, .f32⟩
  | .local _ .vmem, ⟨13, _⟩ => ⟨S2000x64, .f32⟩
  | .local _ .vmem, ⟨14, _⟩ => ⟨S2000x64, .f32⟩
  | .local _ .vmem, ⟨15, _⟩ => ⟨S2000x64, .f32⟩
  | .local _ .vmem, ⟨16, _⟩ => ⟨S2000x64, .f32⟩
  | .local _ .vmem, ⟨17, _⟩ => ⟨S2000x64, .f32⟩
  | .local _ .vmem, ⟨18, _⟩ => ⟨S2000x64, .f32⟩
  | .local _ .vmem, ⟨19, _⟩ => ⟨S2000x64, .f32⟩
  | .local _ .vmem, ⟨20, _⟩ => ⟨S2000x64, .f32⟩
  | .local _ .vmem, ⟨21, _⟩ => ⟨S2000x64, .f32⟩
  | .local _ .vmem, ⟨22, _⟩ => ⟨S2000x64, .f32⟩
  | .local _ .vmem, ⟨23, _⟩ => ⟨S2000x64, .f32⟩
  | .local _ .vmem, ⟨24, _⟩ => ⟨S2000x64, .f32⟩
  | .local _ .vmem, ⟨25, _⟩ => ⟨S2000x64, .f32⟩
  | .local _ .vmem, ⟨26, _⟩ => ⟨S2000x64, .f32⟩
  | .local _ .vmem, ⟨27, _⟩ => ⟨S2000x64, .f32⟩
  | .local _ .vmem, ⟨28, _⟩ => ⟨S2000x64, .f32⟩
  | .local _ .vmem, ⟨29, _⟩ => ⟨S2000x64, .f32⟩
  | .local _ .vmem, ⟨30, _⟩ => ⟨S2000x64, .f32⟩
  | .local _ .vmem, ⟨31, _⟩ => ⟨S2000x64, .f32⟩
  | .local _ .vmem, ⟨32, _⟩ => ⟨S256x64, .f32⟩
  | .local _ .vmem, ⟨33, _⟩ => ⟨S64, .f32⟩
  | .local _ .vmem, ⟨34, _⟩ => ⟨S2000x64, .f32⟩
  | .local _ .vmem, ⟨35, _⟩ => ⟨S2000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_c : Ref sig .tc := ⟨.hbm, 31, rfl⟩
abbrev main_v20 : Ref sig .tc := ⟨.hbm, 32, rfl⟩
abbrev main_v21 : Ref sig .tc := ⟨.hbm, 33, rfl⟩
abbrev main_c_5 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_c_6 : Ref sig .tc := ⟨.hbm, 40, rfl⟩
abbrev main_v27 : Ref sig .tc := ⟨.hbm, 41, rfl⟩
abbrev main_v28 : Ref sig .tc := ⟨.hbm, 42, rfl⟩
abbrev main_c_7 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_8 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_c_9 : Ref sig .tc := ⟨.hbm, 64, rfl⟩
abbrev main_v48 : Ref sig .tc := ⟨.hbm, 65, rfl⟩
abbrev main_v49 : Ref sig .tc := ⟨.hbm, 66, rfl⟩
abbrev main_c_10 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_c_11 : Ref sig .tc := ⟨.hbm, 73, rfl⟩
abbrev main_v55 : Ref sig .tc := ⟨.hbm, 74, rfl⟩
abbrev main_v56 : Ref sig .tc := ⟨.hbm, 75, rfl⟩
abbrev main_c_12 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_cst_13 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_c_14 : Ref sig .tc := ⟨.hbm, 97, rfl⟩
abbrev main_v76 : Ref sig .tc := ⟨.hbm, 98, rfl⟩
abbrev main_v77 : Ref sig .tc := ⟨.hbm, 99, rfl⟩
abbrev main_c_15 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_c_16 : Ref sig .tc := ⟨.hbm, 106, rfl⟩
abbrev main_v83 : Ref sig .tc := ⟨.hbm, 107, rfl⟩
abbrev main_v84 : Ref sig .tc := ⟨.hbm, 108, rfl⟩
abbrev main_c_17 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_cst_18 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev main_v103 : Ref sig .tc := ⟨.hbm, 129, rfl⟩
abbrev main_v104 : Ref sig .tc := ⟨.hbm, 130, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc2_stg3_0 : Ref sig .tc := ⟨.vmem, 22, rfl⟩
abbrev cc2_stg3_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg1_1 : Ref sig .tc := ⟨.vmem, 27, rfl⟩
abbrev cc3_stg2_0 : Ref sig .tc := ⟨.vmem, 28, rfl⟩
abbrev cc3_stg2_1 : Ref sig .tc := ⟨.vmem, 29, rfl⟩
abbrev cc3_stg3_0 : Ref sig .tc := ⟨.vmem, 30, rfl⟩
abbrev cc3_stg3_1 : Ref sig .tc := ⟨.vmem, 31, rfl⟩
abbrev cc3_stg4_0 : Ref sig .tc := ⟨.vmem, 32, rfl⟩
abbrev cc3_stg5_0 : Ref sig .tc := ⟨.vmem, 33, rfl⟩
abbrev cc3_stg6_0 : Ref sig .tc := ⟨.vmem, 34, rfl⟩
abbrev cc3_stg6_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc2_sem3_0 : DmaSem sig := 22
abbrev cc2_sem3_1 : DmaSem sig := 23
abbrev cc3_sem0_0 : DmaSem sig := 24
abbrev cc3_sem0_1 : DmaSem sig := 25
abbrev cc3_sem1_0 : DmaSem sig := 26
abbrev cc3_sem1_1 : DmaSem sig := 27
abbrev cc3_sem2_0 : DmaSem sig := 28
abbrev cc3_sem2_1 : DmaSem sig := 29
abbrev cc3_sem3_0 : DmaSem sig := 30
abbrev cc3_sem3_1 : DmaSem sig := 31
abbrev cc3_sem4_0 : DmaSem sig := 32
abbrev cc3_sem5_0 : DmaSem sig := 33
abbrev cc3_sem6_0 : DmaSem sig := 34
abbrev cc3_sem6_1 : DmaSem sig := 35

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S2000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S2000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 1 → Memref sig .tc .vmem S256x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S64 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S2000x64 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

class Facts₀ : Prop where
  slices_S1250000x2_S1250000x1_0_0 : S1250000x2.Slices ![0, 0] S1250000x1
  shapeCasts_S1250000x1_S1250000 : S1250000x1.ShapeCasts S1250000
  slices_S1250000x2_S1250000x1_0_1 : S1250000x2.Slices ![0, 1] S1250000x1
  bcast_S_S100000 : S_.BroadcastsInDim S100000 (![] : Fin 0 → Fin S100000.rank)
  bcast_S1250000_S1250000x1_0 : S1250000.BroadcastsInDim S1250000x1 (![0] : Fin 1 → Fin S1250000x1.rank)
  bcast_S_S1250000 : S_.BroadcastsInDim S1250000 (![] : Fin 0 → Fin S1250000.rank)
  bcast_S1250000x1_S1250000x64_0_1 : S1250000x1.BroadcastsInDim S1250000x64 (![0, 1] : Fin 2 → Fin S1250000x64.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  inb_S256x64_S256x64_0_0 : ∀ a, (![0, 0] : Fin 2 → Nat) a + S256x64.size a ≤ S256x64.size a
  h_S256x64 : 0 < S256x64.numel
  bitsLt_bf16_f32 : FTy.bits .bf16 < FTy.bits .f32
  slices_S256x64_o0_0_S64x64 : S256x64.Slices ![0, 0] S64x64
  slices_S256x64_o64_0_S64x64 : S256x64.Slices ![64, 0] S64x64
  slices_S256x64_o128_0_S64x64 : S256x64.Slices ![128, 0] S64x64
  slices_S256x64_o192_0_S64x64 : S256x64.Slices ![192, 0] S64x64
  inb_S64_S64_0 : ∀ a, (![0] : Fin 1 → Nat) a + S64.size a ≤ S64.size a
  h_S64 : 0 < S64.numel
  shapeCasts_S64_S1x64 : S64.ShapeCasts S1x64
  broadcasts_S1x64_S2000x64 : S1x64.Broadcasts S2000x64
  scatter_S100000_S1250000x1_S1250000_n_0_0_1_wf : ScatterDims.WF S100000 S1250000x1 S1250000 [] [0] [0] 1
  gather_S100000x64_S1250000x1_S1250000x64_1_0_n_n_0_1_164_wf : GatherDims.WF S100000x64 S1250000x1 S1250000x64 [1] [0] [] [0] [] 1 ![1, 64]
  gather_S100000_S1250000x1_S1250000_n_0_n_n_0_1_1_wf : GatherDims.WF S100000 S1250000x1 S1250000 [] [0] [] [0] [] 1 ![1]
  scatter_S100000x64_S1250000x1_S1250000x64_1_0_0_1_wf : ScatterDims.WF S100000x64 S1250000x1 S1250000x64 [1] [0] [0] 1
  dot_S2000x64_S64x64_S2000x64_1_0_0_1_n_n_wf : DotDims.WF S2000x64 S64x64 S2000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x64.size a ≤ S100000x64.size a
  hwx0_0 : ∀ i : grid0.Coords, EltTy.bits .f32 = 32 ∨ (Rect.block (s := S100000x64) S2000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x64.size a ≤ S100000x64.size a
  hwx0_1 : ∀ i : grid0.Coords, EltTy.bits .f32 = 32 ∨ (Rect.block (s := S100000x64) S2000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x64.size a ≤ S100000x64.size a
  hwx0_2 : ∀ i : grid0.Coords, EltTy.bits .f32 = 32 ∨ (Rect.block (s := S100000x64) S2000x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x64.size a ≤ S100000x64.size a
  hwx0_3 : ∀ i : grid0.Coords, EltTy.bits .f32 = 32 ∨ (Rect.block (s := S100000x64) S2000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S100000x64.size a
  hwx1_0 : ∀ i : grid1.Coords, EltTy.bits .f32 = 32 ∨ (Rect.block (s := S100000x64) S2000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x64.size a ≤ S100000x64.size a
  hwx1_1 : ∀ i : grid1.Coords, EltTy.bits .f32 = 32 ∨ (Rect.block (s := S100000x64) S2000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x64.size a ≤ S100000x64.size a
  hwx1_2 : ∀ i : grid1.Coords, EltTy.bits .f32 = 32 ∨ (Rect.block (s := S100000x64) S2000x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x64.size a ≤ S100000x64.size a
  hwx1_3 : ∀ i : grid1.Coords, EltTy.bits .f32 = 32 ∨ (Rect.block (s := S100000x64) S2000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x64.size a ≤ S100000x64.size a
  hwx2_0 : ∀ i : grid2.Coords, EltTy.bits .f32 = 32 ∨ (Rect.block (s := S100000x64) S2000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x64.size a ≤ S100000x64.size a
  hwx2_1 : ∀ i : grid2.Coords, EltTy.bits .f32 = 32 ∨ (Rect.block (s := S100000x64) S2000x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x64.size a ≤ S100000x64.size a
  hwx2_2 : ∀ i : grid2.Coords, EltTy.bits .f32 = 32 ∨ (Rect.block (s := S100000x64) S2000x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x64.size a ≤ S100000x64.size a
  hwx2_3 : ∀ i : grid2.Coords, EltTy.bits .f32 = 32 ∨ (Rect.block (s := S100000x64) S2000x64.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x64.size a ≤ S100000x64.size a
  hwx3_0 : ∀ i : grid3.Coords, EltTy.bits .f32 = 32 ∨ (Rect.block (s := S100000x64) S2000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x64.size a ≤ S100000x64.size a
  hwx3_1 : ∀ i : grid3.Coords, EltTy.bits .f32 = 32 ∨ (Rect.block (s := S100000x64) S2000x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x64.size a ≤ S100000x64.size a
  hwx3_2 : ∀ i : grid3.Coords, EltTy.bits .f32 = 32 ∨ (Rect.block (s := S100000x64) S2000x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2000x64.size a ≤ S100000x64.size a
  hwx3_3 : ∀ i : grid3.Coords, EltTy.bits .f32 = 32 ∨ (Rect.block (s := S100000x64) S2000x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S256x64.size a ≤ S256x64.size a
  hwx3_4 : ∀ i : grid3.Coords, EltTy.bits .f32 = 32 ∨ (Rect.block (s := S256x64) S256x64.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S64.size a ≤ S64.size a
  hwx3_5 : ∀ i : grid3.Coords, EltTy.bits .f32 = 32 ∨ (Rect.block (s := S64) S64.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S2000x64.size a ≤ S100000x64.size a
  hwx3_6 : ∀ i : grid3.Coords, EltTy.bits .f32 = 32 ∨ (Rect.block (s := S100000x64) S2000x64.size (cc3_transform_6 i) (hinb3_6 i)).WholeWords (EltTy.packing .f32)

variable [Facts₀]

def scatter_S100000_S1250000x1_S1250000_n_0_0_1 : ScatterDims S100000 S1250000x1 S1250000 where
  updateWindowDims := []
  insertedWindowDims := [0]
  scatterDimsToOperandDims := [0]
  indexVectorDim := 1
  wf := scatter_S100000_S1250000x1_S1250000_n_0_0_1_wf
def gather_S100000x64_S1250000x1_S1250000x64_1_0_n_n_0_1_164 : GatherDims S100000x64 S1250000x1 S1250000x64 where
  offsetDims := [1]
  collapsedSliceDims := [0]
  operandBatchingDims := []
  startIndicesBatchingDims := []
  startIndexMap := [0]
  indexVectorDim := 1
  sliceSizes := ![1, 64]
  wf := gather_S100000x64_S1250000x1_S1250000x64_1_0_n_n_0_1_164_wf
def gather_S100000_S1250000x1_S1250000_n_0_n_n_0_1_1 : GatherDims S100000 S1250000x1 S1250000 where
  offsetDims := []
  collapsedSliceDims := [0]
  operandBatchingDims := []
  startIndicesBatchingDims := []
  startIndexMap := [0]
  indexVectorDim := 1
  sliceSizes := ![1]
  wf := gather_S100000_S1250000x1_S1250000_n_0_n_n_0_1_1_wf
def scatter_S100000x64_S1250000x1_S1250000x64_1_0_0_1 : ScatterDims S100000x64 S1250000x1 S1250000x64 where
  updateWindowDims := [1]
  insertedWindowDims := [0]
  scatterDimsToOperandDims := [0]
  indexVectorDim := 1
  wf := scatter_S100000x64_S1250000x1_S1250000x64_1_0_0_1_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf

abbrev win0_0 : Pipeline.Window sig grid0 :=
  Pipeline.Window.ofSpec (Memref.whole main_arg0) S2000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v46) S2000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S2000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v47) S2000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v47) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v74) S2000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg0) S2000x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v75) S2000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v75) S2000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v102) S2000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v47) S2000x64.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v103) S2000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_arg0) S2000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v47) S2000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v75) S2000x64.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v103) S2000x64.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_arg3) S256x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_arg4) S64.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v104) S2000x64.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

class Facts : Prop extends Facts₀ where

variable [Facts]
-- ==== ReferenceIdeal.lean ====
abbrev S100000x64 : Shape := ⟨2, ![100000, 64]⟩
abbrev S1250000x2 : Shape := ⟨2, ![1250000, 2]⟩
abbrev S1250000 : Shape := ⟨1, ![1250000]⟩
abbrev S256x64 : Shape := ⟨2, ![256, 64]⟩
abbrev S64 : Shape := ⟨1, ![64]⟩
abbrev S1250000x1 : Shape := ⟨2, ![1250000, 1]⟩
abbrev S_ : Shape := ⟨0, ![]⟩
abbrev S100000 : Shape := ⟨1, ![100000]⟩
abbrev S1250000x64 : Shape := ⟨2, ![1250000, 64]⟩
abbrev S100000x1 : Shape := ⟨2, ![100000, 1]⟩
abbrev S100000x256 : Shape := ⟨2, ![100000, 256]⟩
abbrev S1x64 : Shape := ⟨2, ![1, 64]⟩

abbrev nBuf : Space → Nat
  | .hbm => 146
  | .vmem => 0
  | .smem => 0
  | _ => 0

abbrev hbmTy0_0 (i : Nat) : BufTy := match i % 128 with
  | 0 => ⟨S100000x64, .f32⟩
  | 1 => ⟨S1250000x2, .i32⟩
  | 2 => ⟨S1250000, .f32⟩
  | 3 => ⟨S256x64, .f32⟩
  | 4 => ⟨S64, .f32⟩
  | 5 => ⟨S1250000x1, .i32⟩
  | 6 => ⟨S1250000, .i32⟩
  | 7 => ⟨S1250000x1, .i32⟩
  | 8 => ⟨S1250000, .i32⟩
  | 9 => ⟨S_, .f32⟩
  | 10 => ⟨S100000, .f32⟩
  | 11 => ⟨S1250000x1, .i32⟩
  | 12 => ⟨S100000, .f32⟩
  | 13 => ⟨S_, .f32⟩
  | 14 => ⟨S100000, .f32⟩
  | 15 => ⟨S1250000x1, .i32⟩
  | 16 => ⟨S100000, .f32⟩
  | 17 => ⟨S100000, .f32⟩
  | 18 => ⟨S_, .f32⟩
  | 19 => ⟨S100000, .f32⟩
  | 20 => ⟨S100000, .f32⟩
  | 21 => ⟨S_, .f32⟩
  | 22 => ⟨S100000, .f32⟩
  | 23 => ⟨S100000, .f32⟩
  | 24 => ⟨S100000, .f32⟩
  | 25 => ⟨S_, .f32⟩
  | 26 => ⟨S100000, .f32⟩
  | 27 => ⟨S100000, .f32⟩
  | 28 => ⟨S_, .f32⟩
  | 29 => ⟨S100000, .f32⟩
  | 30 => ⟨S100000, .f32⟩
  | 31 => ⟨S_, .i32⟩
  | 32 => ⟨S1250000, .i32⟩
  | 33 => ⟨S1250000, .i1⟩
  | 34 => ⟨S_, .i32⟩
  | 35 => ⟨S1250000, .i32⟩
  | 36 => ⟨S1250000, .i32⟩
  | 37 => ⟨S1250000, .i32⟩
  | 38 => ⟨S1250000x1, .i32⟩
  | 39 => ⟨S1250000x64, .f32⟩
  | 40 => ⟨S_, .i32⟩
  | 41 => ⟨S1250000, .i32⟩
  | 42 => ⟨S1250000, .i1⟩
  | 43 => ⟨S_, .i32⟩
  | 44 => ⟨S1250000, .i32⟩
  | 45 => ⟨S1250000, .i32⟩
  | 46 => ⟨S1250000, .i32⟩
  | 47 => ⟨S1250000x1, .i32⟩
  | 48 => ⟨S1250000, .f32⟩
  | 49 => ⟨S1250000x1, .f32⟩
  | 50 => ⟨S1250000x64, .f32⟩
  | 51 => ⟨S1250000x64, .f32⟩
  | 52 => ⟨S1250000x1, .f32⟩
  | 53 => ⟨S1250000x64, .f32⟩
  | 54 => ⟨S1250000x64, .f32⟩
  | 55 => ⟨S_, .f32⟩
  | 56 => ⟨S100000x64, .f32⟩
  | 57 => ⟨S1250000x1, .i32⟩
  | 58 => ⟨S100000x64, .f32⟩
  | 59 => ⟨S100000x64, .f32⟩
  | 60 => ⟨S100000x1, .f32⟩
  | 61 => ⟨S100000x64, .f32⟩
  | 62 => ⟨S100000x64, .f32⟩
  | 63 => ⟨S100000x64, .f32⟩
  | 64 => ⟨S_, .i32⟩
  | 65 => ⟨S1250000, .i32⟩
  | 66 => ⟨S1250000, .i1⟩
  | 67 => ⟨S_, .i32⟩
  | 68 => ⟨S1250000, .i32⟩
  | 69 => ⟨S1250000, .i32⟩
  | 70 => ⟨S1250000, .i32⟩
  | 71 => ⟨S1250000x1, .i32⟩
  | 72 => ⟨S1250000x64, .f32⟩
  | 73 => ⟨S_, .i32⟩
  | 74 => ⟨S1250000, .i32⟩
  | 75 => ⟨S1250000, .i1⟩
  | 76 => ⟨S_, .i32⟩
  | 77 => ⟨S1250000, .i32⟩
  | 78 => ⟨S1250000, .i32⟩
  | 79 => ⟨S1250000, .i32⟩
  | 80 => ⟨S1250000x1, .i32⟩
  | 81 => ⟨S1250000, .f32⟩
  | 82 => ⟨S1250000x1, .f32⟩
  | 83 => ⟨S1250000x64, .f32⟩
  | 84 => ⟨S1250000x64, .f32⟩
  | 85 => ⟨S1250000x1, .f32⟩
  | 86 => ⟨S1250000x64, .f32⟩
  | 87 => ⟨S1250000x64, .f32⟩
  | 88 => ⟨S_, .f32⟩
  | 89 => ⟨S100000x64, .f32⟩
  | 90 => ⟨S1250000x1, .i32⟩
  | 91 => ⟨S100000x64, .f32⟩
  | 92 => ⟨S100000x64, .f32⟩
  | 93 => ⟨S100000x1, .f32⟩
  | 94 => ⟨S100000x64, .f32⟩
  | 95 => ⟨S100000x64, .f32⟩
  | 96 => ⟨S100000x64, .f32⟩
  | 97 => ⟨S_, .f32⟩
  | 98 => ⟨S100000x64, .f32⟩
  | 99 => ⟨S100000x64, .f32⟩
  | 100 => ⟨S100000x64, .f32⟩
  | 101 => ⟨S_, .i32⟩
  | 102 => ⟨S1250000, .i32⟩
  | 103 => ⟨S1250000, .i1⟩
  | 104 => ⟨S_, .i32⟩
  | 105 => ⟨S1250000, .i32⟩
  | 106 => ⟨S1250000, .i32⟩
  | 107 => ⟨S1250000, .i32⟩
  | 108 => ⟨S1250000x1, .i32⟩
  | 109 => ⟨S1250000x64, .f32⟩
  | 110 => ⟨S_, .i32⟩
  | 111 => ⟨S1250000, .i32⟩
  | 112 => ⟨S1250000, .i1⟩
  | 113 => ⟨S_, .i32⟩
  | 114 => ⟨S1250000, .i32⟩
  | 115 => ⟨S1250000, .i32⟩
  | 116 => ⟨S1250000, .i32⟩
  | 117 => ⟨S1250000x1, .i32⟩
  | 118 => ⟨S1250000, .f32⟩
  | 119 => ⟨S1250000x1, .f32⟩
  | 120 => ⟨S1250000x64, .f32⟩
  | 121 => ⟨S1250000x64, .f32⟩
  | 122 => ⟨S1250000x1, .f32⟩
  | 123 => ⟨S1250000x64, .f32⟩
  | 124 => ⟨S1250000x64, .f32⟩
  | 125 => ⟨S_, .f32⟩
  | 126 => ⟨S100000x64, .f32⟩
  | 127 => ⟨S1250000x1, .i32⟩
  | _ => ⟨S100000x64, .f32⟩

abbrev hbmTy0_1 (i : Nat) : BufTy := match i % 128 with
  | 0 => ⟨S100000x64, .f32⟩
  | 1 => ⟨S100000x64, .f32⟩
  | 2 => ⟨S100000x1, .f32⟩
  | 3 => ⟨S100000x64, .f32⟩
  | 4 => ⟨S100000x64, .f32⟩
  | 5 => ⟨S100000x64, .f32⟩
  | 6 => ⟨S_, .f32⟩
  | 7 => ⟨S100000x64, .f32⟩
  | 8 => ⟨S100000x64, .f32⟩
  | 9 => ⟨S100000x64, .f32⟩
  | 10 => ⟨S100000x256, .f32⟩
  | 11 => ⟨S100000x64, .f32⟩
  | 12 => ⟨S1x64, .f32⟩
  | 13 => ⟨S100000x64, .f32⟩
  | 14 => ⟨S100000x64, .f32⟩
  | 15 => ⟨S_, .f32⟩
  | 16 => ⟨S100000x64, .f32⟩
  | 17 => ⟨S100000x64, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_c : Ref sig .tc := ⟨.hbm, 31, rfl⟩
abbrev main_v20 : Ref sig .tc := ⟨.hbm, 32, rfl⟩
abbrev main_v21 : Ref sig .tc := ⟨.hbm, 33, rfl⟩
abbrev main_c_5 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_c_6 : Ref sig .tc := ⟨.hbm, 40, rfl⟩
abbrev main_v27 : Ref sig .tc := ⟨.hbm, 41, rfl⟩
abbrev main_v28 : Ref sig .tc := ⟨.hbm, 42, rfl⟩
abbrev main_c_7 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_8 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_c_9 : Ref sig .tc := ⟨.hbm, 64, rfl⟩
abbrev main_v48 : Ref sig .tc := ⟨.hbm, 65, rfl⟩
abbrev main_v49 : Ref sig .tc := ⟨.hbm, 66, rfl⟩
abbrev main_c_10 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_c_11 : Ref sig .tc := ⟨.hbm, 73, rfl⟩
abbrev main_v55 : Ref sig .tc := ⟨.hbm, 74, rfl⟩
abbrev main_v56 : Ref sig .tc := ⟨.hbm, 75, rfl⟩
abbrev main_c_12 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_cst_13 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_cst_14 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_c_15 : Ref sig .tc := ⟨.hbm, 101, rfl⟩
abbrev main_v79 : Ref sig .tc := ⟨.hbm, 102, rfl⟩
abbrev main_v80 : Ref sig .tc := ⟨.hbm, 103, rfl⟩
abbrev main_c_16 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_c_17 : Ref sig .tc := ⟨.hbm, 110, rfl⟩
abbrev main_v86 : Ref sig .tc := ⟨.hbm, 111, rfl⟩
abbrev main_v87 : Ref sig .tc := ⟨.hbm, 112, rfl⟩
abbrev main_c_18 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_cst_19 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩
abbrev main_v104 : Ref sig .tc := ⟨.hbm, 131, rfl⟩
abbrev main_v105 : Ref sig .tc := ⟨.hbm, 132, rfl⟩
abbrev main_v106 : Ref sig .tc := ⟨.hbm, 133, rfl⟩
abbrev main_cst_20 : Ref sig .tc := ⟨.hbm, 134, rfl⟩
abbrev main_v107 : Ref sig .tc := ⟨.hbm, 135, rfl⟩
abbrev main_v108 : Ref sig .tc := ⟨.hbm, 136, rfl⟩
abbrev main_v109 : Ref sig .tc := ⟨.hbm, 137, rfl⟩
abbrev main_v110 : Ref sig .tc := ⟨.hbm, 138, rfl⟩
abbrev main_v111 : Ref sig .tc := ⟨.hbm, 139, rfl⟩
abbrev main_v112 : Ref sig .tc := ⟨.hbm, 140, rfl⟩
abbrev main_v113 : Ref sig .tc := ⟨.hbm, 141, rfl⟩
abbrev main_v114 : Ref sig .tc := ⟨.hbm, 142, rfl⟩
abbrev main_call0_cst : Ref sig .tc := ⟨.hbm, 143, rfl⟩
abbrev main_call0_v0 : Ref sig .tc := ⟨.hbm, 144, rfl⟩
abbrev main_v115 : Ref sig .tc := ⟨.hbm, 145, rfl⟩

abbrev nD : Nat := 1
abbrev τ : Topo := Topo.v7x

variable {F : FTy → Type} [FloatOps F]

class Facts₀ : Prop where
  slices_S1250000x2_S1250000x1_0_0 : S1250000x2.Slices ![0, 0] S1250000x1
  shapeCasts_S1250000x1_S1250000 : S1250000x1.ShapeCasts S1250000
  slices_S1250000x2_S1250000x1_0_1 : S1250000x2.Slices ![0, 1] S1250000x1
  bcast_S_S100000 : S_.BroadcastsInDim S100000 (![] : Fin 0 → Fin S100000.rank)
  bcast_S1250000_S1250000x1_0 : S1250000.BroadcastsInDim S1250000x1 (![0] : Fin 1 → Fin S1250000x1.rank)
  bcast_S_S1250000 : S_.BroadcastsInDim S1250000 (![] : Fin 0 → Fin S1250000.rank)
  bcast_S1250000x1_S1250000x64_0_1 : S1250000x1.BroadcastsInDim S1250000x64 (![0, 1] : Fin 2 → Fin S1250000x64.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  concatenates_S100000x64_S100000x64_S100000x64_S100000x64_S100000x256_d1 : Shape.Concatenates [S100000x64, S100000x64, S100000x64, S100000x64] S100000x256 1
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1250000x1_S1250000_n_0_0_1_wf : ScatterDims.WF S100000 S1250000x1 S1250000 [] [0] [0] 1
  gather_S100000x64_S1250000x1_S1250000x64_1_0_n_n_0_1_164_wf : GatherDims.WF S100000x64 S1250000x1 S1250000x64 [1] [0] [] [0] [] 1 ![1, 64]
  gather_S100000_S1250000x1_S1250000_n_0_n_n_0_1_1_wf : GatherDims.WF S100000 S1250000x1 S1250000 [] [0] [] [0] [] 1 ![1]
  scatter_S100000x64_S1250000x1_S1250000x64_1_0_0_1_wf : ScatterDims.WF S100000x64 S1250000x1 S1250000x64 [1] [0] [0] 1
  dot_S100000x256_S256x64_S100000x64_1_0_0_1_n_n_wf : DotDims.WF S100000x256 S256x64 S100000x64 [1] [0] [0] [1] [] []

variable [Facts₀]

def scatter_S100000_S1250000x1_S1250000_n_0_0_1 : ScatterDims S100000 S1250000x1 S1250000 where
  updateWindowDims := []
  insertedWindowDims := [0]
  scatterDimsToOperandDims := [0]
  indexVectorDim := 1
  wf := scatter_S100000_S1250000x1_S1250000_n_0_0_1_wf
def gather_S100000x64_S1250000x1_S1250000x64_1_0_n_n_0_1_164 : GatherDims S100000x64 S1250000x1 S1250000x64 where
  offsetDims := [1]
  collapsedSliceDims := [0]
  operandBatchingDims := []
  startIndicesBatchingDims := []
  startIndexMap := [0]
  indexVectorDim := 1
  sliceSizes := ![1, 64]
  wf := gather_S100000x64_S1250000x1_S1250000x64_1_0_n_n_0_1_164_wf
def gather_S100000_S1250000x1_S1250000_n_0_n_n_0_1_1 : GatherDims S100000 S1250000x1 S1250000 where
  offsetDims := []
  collapsedSliceDims := [0]
  operandBatchingDims := []
  startIndicesBatchingDims := []
  startIndexMap := [0]
  indexVectorDim := 1
  sliceSizes := ![1]
  wf := gather_S100000_S1250000x1_S1250000_n_0_n_n_0_1_1_wf
def scatter_S100000x64_S1250000x1_S1250000x64_1_0_0_1 : ScatterDims S100000x64 S1250000x1 S1250000x64 where
  updateWindowDims := [1]
  insertedWindowDims := [0]
  scatterDimsToOperandDims := [0]
  indexVectorDim := 1
  wf := scatter_S100000x64_S1250000x1_S1250000x64_1_0_0_1_wf
def dot_S100000x256_S256x64_S100000x64_1_0_0_1_n_n : DotDims S100000x256 S256x64 S100000x64 where
  lhsContracting := [1]
  rhsContracting := [0]
  lhsNonContracting := [0]
  rhsNonContracting := [1]
  lhsBatch := []
  rhsBatch := []
  wf := dot_S100000x256_S256x64_S100000x64_1_0_0_1_n_n_wf

class Facts : Prop extends Facts₀ where

variable [Facts]
-- ==== Proof.BRegion0.lean ====
/-
  Region 0: the Chebyshev combine step, out = α·(prev1 + prop) + β·prev2, row block by row block.
  The grid has 50 points; at point t every window's block is rows 2000·t … 2000·t + 1999 of its array.
  Each input window's buffer holds that block of the array as the region found it; the body adds and scales
  the three blocks entry by entry and stores the result over the whole output block.
-/
import proofs.«123016_j5669356834169_1_alg».proof.Proof.Gen.Kernel.Launch
import proofs.«123016_j5669356834169_1_alg».proof.Proof.Gen.Kernel.Skeleton
import proofs.«123016_j5669356834169_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the region is entered
variable (V : (c : Dev nD) → (b : Ref sig .tc) → Buf (Elt F) ((c : Thread nD τ).loc b))

/-- Window `w`'s block at point `t`: the rows of its array, as the region found it, that the point works on. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's buffer holds its block at every point, whether the point fetched it or the block index stood still. -/
theorem holds0_0 {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)

/-- Input window 1's buffer holds its block at every point, whether the point fetched it or the block index stood still. -/
theorem holds0_1 {c : Dev nD} (dat : Dat τ (Elt F) Unit ℕ (UR sig nD τ) ℕ cfg0 c) (hA : dat.A 1 = V c (Pipeline.arrRef spec0 1))
    (hafter : ∀ t, dat.after 1 t = blk0 V c 1 t) (t : Fin cfg0.N) (d) : dat.before 1 t d = blk0 V c 1 t :=
  (dat.before_in_eq_fetched 1 rfl (fun _ => rfl) (fun _ _ _ => rfl) (fun t => by rw [hafter]; unfold Dat.blockOf blk0; rw [hA]; try rfl) t d).trans
    (by unfold Dat.fetched Dat.blockOf blk0; rw [hA]; try rfl)

/-- Input window 2's buffer holds its block at every point, whether the point fetched it or the block index stood still. -/
theorem holds0_2 {c : Dev nD} (dat : Dat τ (Elt F) Unit ℕ (UR sig nD τ) ℕ cfg0 c) (hA : dat.A 2 = V c (Pipeline.arrRef spec0 2))
    (hafter : ∀ t, dat.after 2 t = blk0 V c 2 t) (t : Fin cfg0.N) (d) : dat.before 2 t d = blk0 V c 2 t :=
  (dat.before_in_eq_fetched 2 rfl (fun _ => rfl) (fun _ _ _ => rfl) (fun t => by rw [hafter]; unfold Dat.blockOf blk0; rw [hA]; try rfl) t d).trans
    (by unfold Dat.fetched Dat.blockOf blk0; rw [hA]; try rfl)

/-- The whole 2000×64 block as a rectangle: every load and the one store of the body go through it. -/
abbrev whole0 : Rect S2000x64 := Rect.unit (s := S2000x64) ![0, 0] S2000x64.size inb_S2000x64_S2000x64_0_0

/-- What the body leaves in the output buffer: its one store, over the whole block, of the combine of the three input blocks. -/
def res0 (x0 x1 x2 : Vec F S2000x64 .f32) : Vec F S2000x64 .f32 :=
  View.canon [⟨whole0, k0_pay1 (View.ld x0 whole0) (View.ld x1 whole0) (View.ld x2 whole0)⟩]

/-- The one store covers the block. -/
theorem covers0 (p : Vec F S2000x64 .f32) (y : S2000x64.Idx) :
    ∃ pc ∈ ([⟨whole0, p⟩] : List (View.Piece (Elt F) S2000x64 .f32)), y ∈ pc.1.set :=
  View.cover_of_tiled [⟨whole0, p⟩] S2000x64.size (by rfl) y

set_option maxHeartbeats 1000000 in
/-- The body on whole buffers: the three inputs at `x0 x1 x2`, the output at anything; it ends with the inputs as they were
    and the output at `res0 x0 x1 x2`. -/
theorem runs0 (c : Dev nD) (E : Set ℕ) (i : grid0.Coords)
    (a1 : Memref sig .tc .vmem S2000x64 .f32) (h1 : a1.IsWhole) (a2 : Memref sig .tc .vmem S2000x64 .f32) (h2 : a2.IsWhole)
    (a3 : Memref sig .tc .vmem S2000x64 .f32) (h3 : a3.IsWhole) (a4 : Memref sig .tc .vmem S2000x64 .f32) (h4 : a4.IsWhole)
    (x0 x1 x2 : Vec F S2000x64 .f32) (K : PUnit → sProp 𝕄) :
    iprop(owns (c : Thread nD τ) a1 fullShare x0 ∗ owns (c : Thread nD τ) a2 fullShare x1 ∗ owns (c : Thread nD τ) a3 fullShare x2
        ∗ (∃ d, owns (c : Thread nD τ) a4 fullShare d)
        ∗ (iprop(owns (c : Thread nD τ) a1 fullShare x0 ∗ owns (c : Thread nD τ) a2 fullShare x1 ∗ owns (c : Thread nD τ) a3 fullShare x2
            ∗ owns (c : Thread nD τ) a4 fullShare (res0 x0 x1 x2)) -∗ K ⟨⟩))
      ⊢ wp frame (wpE (defs₀ (F := F)) Variants.none c none) E (cc0__combine_kernel i a1 h1 a2 h2 a3 h3 a4 h4) K := by
  simp only [cc0__combine_kernel_eq_skeleton]; unfold cc0__combine_kernel_skel
  unfold owns
  iintro ⟨⟨%f1, %hf1, H1⟩, ⟨%f2, %hf2, H2⟩, ⟨%f3, %hf3, H3⟩, ⟨%d4, %f4, -, H4⟩, Hk⟩
  subst hf1; subst hf2; subst hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (covers0 _)

/-- The proof data of pipeline 0 on core `c`: the arrays as found; after the body each input buffer at its block and the
    output buffer at the combine of the three blocks; the scoped rest and the generator register untouched; nothing owed.
    Windows 0 and 2 read ONE array, so each holds half of it. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => res0 (blk0 V c 0 t) (blk0 V c 1 t) (blk0 V c 2 t)
  Φ _ := Pipeline.ΦA spec0 c
  q w := match w with
    | ⟨0, _⟩ => fullShare.left
    | ⟨1, _⟩ => fullShare
    | ⟨2, _⟩ => fullShare.right
    | ⟨3, _⟩ => fullShare
  owed _ := 0

theorem dat0_A (c : Dev nD) (w : Fin cfg0.W) : (dat0 V c).A w = V c (Pipeline.arrRef spec0 w) := by
  dsimp only [dat0]
theorem dat0_after0 (c : Dev nD) (t : Fin cfg0.N) : (dat0 V c).after 0 t = blk0 V c 0 t := by dsimp only [dat0]
theorem dat0_after1 (c : Dev nD) (t : Fin cfg0.N) : (dat0 V c).after 1 t = blk0 V c 1 t := by dsimp only [dat0]
theorem dat0_after2 (c : Dev nD) (t : Fin cfg0.N) : (dat0 V c).after 2 t = blk0 V c 2 t := by dsimp only [dat0]
theorem dat0_after3 (c : Dev nD) (t : Fin cfg0.N) :
    (dat0 V c).after 3 t = res0 (blk0 V c 0 t) (blk0 V c 1 t) (blk0 V c 2 t) := by dsimp only [dat0]

theorem dat0_before0 (c : Dev nD) (t : Fin cfg0.N) (d) : (dat0 V c).before 0 t d = blk0 V c 0 t :=
  holds0_0 V (dat0 V c) (dat0_A V c 0) (dat0_after0 V c) t d
theorem dat0_before1 (c : Dev nD) (t : Fin cfg0.N) (d) : (dat0 V c).before 1 t d = blk0 V c 1 t :=
  holds0_1 V (dat0 V c) (dat0_A V c 1) (dat0_after1 V c) t d
theorem dat0_before2 (c : Dev nD) (t : Fin cfg0.N) (d) : (dat0 V c).before 2 t d = blk0 V c 2 t :=
  holds0_2 V (dat0 V c) (dat0_A V c 2) (dat0_after2 V c) t d

/-- What the body is called with at point `t`, the windows one by one, -/
def given0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it hands back. -/
def left0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the input buffers hold their blocks, so `runs0` applies; the invariant and what the core owes pass through. -/
theorem body0 (c : Dev nD) (t : Fin cfg0.N) :
    given0 V c t ⊢ wp frame (wpE (defs₀ (F := F)) Variants.none c none) Set.univ (bodyAt0 t) (fun _ => left0 V c t) := by
  unfold given0 left0 bodyAt0
  simp only [dat0_before0, dat0_before1, dat0_before2]
  rw [show (dat0 V c).Φ t.succ = (dat0 V c).Φ t.castSucc from rfl,
    show (dat0 V c).owesAt () t.succ = (dat0 V c).owesAt () t.castSucc from rfl,
    dat0_after0, dat0_after1, dat0_after2, dat0_after3]
  iintro ⟨HΦ, Ho, ⟨%d0, H0⟩, ⟨%d1, H1⟩, ⟨%d2, H2⟩, ⟨%d3, H3⟩⟩
  iapply (runs0 c Set.univ _ _ _ _ _ _ _ _ _ (blk0 V c 0 t) (blk0 V c 1 t) (blk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem obligation0 (c : Dev nD) : BodyObligation (dat0 (F := F) V c) (defs₀ (F := F)) Variants.none () Set.univ := fun t => by
  rw [bigSep_W0, bigSep_W0]
  exact body0 V c t

end Cert.Kernel.Frm

end
-- ==== Proof.BShare0.lean ====
/-
  Region 0 reads ONE array, the node features, through two of its windows (as the first and as the third operand of
  the combine step). The core holds that array once, whole; the two windows each take half of it, read side by side,
  and give the halves back at the end, where they are one whole array again because both hold the same contents.
-/
import proofs.«123016_j5669356834169_1_alg».proof.Proof.BRegion0

set_option maxRecDepth 16384

noncomputable section

namespace Cert.Kernel.Frm

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The three buffers behind region 0's four windows: the features (twice), the propagated table, the output. -/
theorem arrs0 : Finset.univ.image (Pipeline.arrRef spec0) = ({main_arg0, main_v46, main_v47} : Finset (Ref sig .tc)) := by decide

/-- The three buffers, each whole at the full share, ARE region 0's four windowed arrays at the same contents: the
    features' buffer is its left half (window 0) beside its right half (window 2). -/
theorem arrays0_iff (c : Dev nD) (Vc : (b : Ref sig .tc) → Buf (Elt F) ((c : Thread nD τ).loc b))
    (G : (w : Fin cfg0.W) → Buf (Elt F) ((cfg0.win w).arr.view.loc (c : Thread nD τ)))
    (h0 : G 0 = Vc main_arg0) (h1 : G 1 = Vc main_v46) (h2 : G 2 = Vc main_arg0) (h3 : G 3 = Vc main_v47) :
    (Pipeline.arrBufs spec0 c Vc : sProp 𝕄) ⊣⊢ (dat0 V c).arrays G := by
  unfold Pipeline.arrBufs Pipeline.Dat.arrays
  rw [arrs0, bigSep_insert (by decide), bigSep_insert (by decide), bigSep_singleton, bigSep_W0,
    (arr_whole0 0).set_eq_univ, (arr_whole0 1).set_eq_univ, (arr_whole0 3).set_eq_univ, h0, h1, h2, h3]
  show iprop((((c : Thread nD τ).loc main_arg0) ↦{fullShare} Vc main_arg0) ∗ (((c : Thread nD τ).loc main_v46) ↦{fullShare} Vc main_v46)
      ∗ (((c : Thread nD τ).loc main_v47) ↦{fullShare} Vc main_v47))
    ⊣⊢ iprop((((c : Thread nD τ).loc main_arg0) ↦{fullShare.left} Vc main_arg0) ∗ (((c : Thread nD τ).loc main_v46) ↦{fullShare} Vc main_v46)
    ∗ (((c : Thread nD τ).loc main_arg0) ↦{fullShare.right} Vc main_arg0) ∗ (((c : Thread nD τ).loc main_v47) ↦{fullShare} Vc main_v47))
  constructor
  · iintro ⟨Ha, Hb, Hc⟩
    ihave H := (pointsTo_share (PosShare.mem_left_op_right fullShare)).1 $$ Ha
    icases H with ⟨Hl, Hr⟩
    isplitl [Hl]; · iexact Hl
    isplitl [Hb]; · iexact Hb
    isplitl [Hr]; · iexact Hr
    iexact Hc
  · iintro ⟨Hl, Hb, Hr, Hc⟩
    isplitl [Hl Hr]
    · iapply (pointsTo_share (PosShare.mem_left_op_right fullShare)).2
      isplitl [Hl]; · iexact Hl
      iexact Hr
    isplitl [Hb]; · iexact Hb
    iexact Hc

end Cert.Kernel.Frm

end
-- ==== Proof.BRegion1.lean ====
/-
  Region 1: the Chebyshev combine step, out = α·(prev1 + prop) + β·prev2, row block by row block.
  The grid has 50 points; at point t every window's block is rows 2000·t … 2000·t + 1999 of its array.
  Each input window's buffer holds that block of the array as the region found it; the body adds and scales
  the three blocks entry by entry and stores the result over the whole output block.
-/
import proofs.«123016_j5669356834169_1_alg».proof.Proof.Gen.Kernel.Launch
import proofs.«123016_j5669356834169_1_alg».proof.Proof.Gen.Kernel.Skeleton
import proofs.«123016_j5669356834169_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the region is entered
variable (V : (c : Dev nD) → (b : Ref sig .tc) → Buf (Elt F) ((c : Thread nD τ).loc b))

/-- Window `w`'s block at point `t`: the rows of its array, as the region found it, that the point works on. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's buffer holds its block at every point, whether the point fetched it or the block index stood still. -/
theorem holds1_0 {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)

/-- Input window 1's buffer holds its block at every point, whether the point fetched it or the block index stood still. -/
theorem holds1_1 {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)

/-- Input window 2's buffer holds its block at every point, whether the point fetched it or the block index stood still. -/
theorem holds1_2 {c : Dev nD} (dat : Dat τ (Elt F) Unit ℕ (UR sig nD τ) ℕ cfg1 c) (hA : dat.A 2 = V c (Pipeline.arrRef spec1 2))
    (hafter : ∀ t, dat.after 2 t = blk1 V c 2 t) (t : Fin cfg1.N) (d) : dat.before 2 t d = blk1 V c 2 t :=
  (dat.before_in_eq_fetched 2 rfl (fun _ => rfl) (fun _ _ _ => rfl) (fun t => by rw [hafter]; unfold Dat.blockOf blk1; rw [hA]; try rfl) t d).trans
    (by unfold Dat.fetched Dat.blockOf blk1; rw [hA]; try rfl)

/-- The whole 2000×64 block as a rectangle: every load and the one store of the body go through it. -/
abbrev whole1 : Rect S2000x64 := Rect.unit (s := S2000x64) ![0, 0] S2000x64.size inb_S2000x64_S2000x64_0_0

/-- What the body leaves in the output buffer: its one store, over the whole block, of the combine of the three input blocks. -/
def res1 (x0 x1 x2 : Vec F S2000x64 .f32) : Vec F S2000x64 .f32 :=
  View.canon [⟨whole1, k1_pay1 (View.ld x0 whole1) (View.ld x1 whole1) (View.ld x2 whole1)⟩]

/-- The one store covers the block. -/
theorem covers1 (p : Vec F S2000x64 .f32) (y : S2000x64.Idx) :
    ∃ pc ∈ ([⟨whole1, p⟩] : List (View.Piece (Elt F) S2000x64 .f32)), y ∈ pc.1.set :=
  View.cover_of_tiled [⟨whole1, p⟩] S2000x64.size (by rfl) y

set_option maxHeartbeats 1000000 in
/-- The body on whole buffers: the three inputs at `x0 x1 x2`, the output at anything; it ends with the inputs as they were
    and the output at `res1 x0 x1 x2`. -/
theorem runs1 (c : Dev nD) (E : Set ℕ) (i : grid1.Coords)
    (a1 : Memref sig .tc .vmem S2000x64 .f32) (h1 : a1.IsWhole) (a2 : Memref sig .tc .vmem S2000x64 .f32) (h2 : a2.IsWhole)
    (a3 : Memref sig .tc .vmem S2000x64 .f32) (h3 : a3.IsWhole) (a4 : Memref sig .tc .vmem S2000x64 .f32) (h4 : a4.IsWhole)
    (x0 x1 x2 : Vec F S2000x64 .f32) (K : PUnit → sProp 𝕄) :
    iprop(owns (c : Thread nD τ) a1 fullShare x0 ∗ owns (c : Thread nD τ) a2 fullShare x1 ∗ owns (c : Thread nD τ) a3 fullShare x2
        ∗ (∃ d, owns (c : Thread nD τ) a4 fullShare d)
        ∗ (iprop(owns (c : Thread nD τ) a1 fullShare x0 ∗ owns (c : Thread nD τ) a2 fullShare x1 ∗ owns (c : Thread nD τ) a3 fullShare x2
            ∗ owns (c : Thread nD τ) a4 fullShare (res1 x0 x1 x2)) -∗ K ⟨⟩))
      ⊢ wp frame (wpE (defs₀ (F := F)) Variants.none c none) E (cc1__combine_kernel i a1 h1 a2 h2 a3 h3 a4 h4) K := by
  simp only [cc1__combine_kernel_eq_skeleton]; unfold cc1__combine_kernel_skel
  unfold owns
  iintro ⟨⟨%f1, %hf1, H1⟩, ⟨%f2, %hf2, H2⟩, ⟨%f3, %hf3, H3⟩, ⟨%d4, %f4, -, H4⟩, Hk⟩
  subst hf1; subst hf2; subst hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (covers1 _)

/-- The proof data of pipeline 1 on core `c`: the arrays as found; after the body each input buffer at its block and the
    output buffer at the combine of the three blocks; the scoped rest and the generator register untouched; nothing owed. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => res1 (blk1 V c 0 t) (blk1 V c 1 t) (blk1 V c 2 t)
  Φ _ := Pipeline.ΦA spec1 c
  q w := fullShare
  owed _ := 0

theorem dat1_A (c : Dev nD) (w : Fin cfg1.W) : (dat1 V c).A w = V c (Pipeline.arrRef spec1 w) := by
  dsimp only [dat1]
theorem dat1_after0 (c : Dev nD) (t : Fin cfg1.N) : (dat1 V c).after 0 t = blk1 V c 0 t := by dsimp only [dat1]
theorem dat1_after1 (c : Dev nD) (t : Fin cfg1.N) : (dat1 V c).after 1 t = blk1 V c 1 t := by dsimp only [dat1]
theorem dat1_after2 (c : Dev nD) (t : Fin cfg1.N) : (dat1 V c).after 2 t = blk1 V c 2 t := by dsimp only [dat1]
theorem dat1_after3 (c : Dev nD) (t : Fin cfg1.N) :
    (dat1 V c).after 3 t = res1 (blk1 V c 0 t) (blk1 V c 1 t) (blk1 V c 2 t) := by dsimp only [dat1]

theorem dat1_before0 (c : Dev nD) (t : Fin cfg1.N) (d) : (dat1 V c).before 0 t d = blk1 V c 0 t :=
  holds1_0 V (dat1 V c) (dat1_A V c 0) (dat1_after0 V c) t d
theorem dat1_before1 (c : Dev nD) (t : Fin cfg1.N) (d) : (dat1 V c).before 1 t d = blk1 V c 1 t :=
  holds1_1 V (dat1 V c) (dat1_A V c 1) (dat1_after1 V c) t d
theorem dat1_before2 (c : Dev nD) (t : Fin cfg1.N) (d) : (dat1 V c).before 2 t d = blk1 V c 2 t :=
  holds1_2 V (dat1 V c) (dat1_A V c 2) (dat1_after2 V c) t d

/-- What the body is called with at point `t`, the windows one by one, -/
def given1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it hands back. -/
def left1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the input buffers hold their blocks, so `runs1` applies; the invariant and what the core owes pass through. -/
theorem body1 (c : Dev nD) (t : Fin cfg1.N) :
    given1 V c t ⊢ wp frame (wpE (defs₀ (F := F)) Variants.none c none) Set.univ (bodyAt1 t) (fun _ => left1 V c t) := by
  unfold given1 left1 bodyAt1
  simp only [dat1_before0, dat1_before1, dat1_before2]
  rw [show (dat1 V c).Φ t.succ = (dat1 V c).Φ t.castSucc from rfl,
    show (dat1 V c).owesAt () t.succ = (dat1 V c).owesAt () t.castSucc from rfl,
    dat1_after0, dat1_after1, dat1_after2, dat1_after3]
  iintro ⟨HΦ, Ho, ⟨%d0, H0⟩, ⟨%d1, H1⟩, ⟨%d2, H2⟩, ⟨%d3, H3⟩⟩
  iapply (runs1 c Set.univ _ _ _ _ _ _ _ _ _ (blk1 V c 0 t) (blk1 V c 1 t) (blk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem obligation1 (c : Dev nD) : BodyObligation (dat1 (F := F) V c) (defs₀ (F := F)) Variants.none () Set.univ := fun t => by
  rw [bigSep_W1, bigSep_W1]
  exact body1 V c t

end Cert.Kernel.Frm

end
-- ==== Proof.BRegion2.lean ====
/-
  Region 2: the Chebyshev combine step, out = α·(prev1 + prop) + β·prev2, row block by row block.
  The grid has 50 points; at point t every window's block is rows 2000·t … 2000·t + 1999 of its array.
  Each input window's buffer holds that block of the array as the region found it; the body adds and scales
  the three blocks entry by entry and stores the result over the whole output block.
-/
import proofs.«123016_j5669356834169_1_alg».proof.Proof.Gen.Kernel.Launch
import proofs.«123016_j5669356834169_1_alg».proof.Proof.Gen.Kernel.Skeleton
import proofs.«123016_j5669356834169_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the region is entered
variable (V : (c : Dev nD) → (b : Ref sig .tc) → Buf (Elt F) ((c : Thread nD τ).loc b))

/-- Window `w`'s block at point `t`: the rows of its array, as the region found it, that the point works on. -/
def blk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's buffer holds its block at every point, whether the point fetched it or the block index stood still. -/
theorem holds2_0 {c : Dev nD} (dat : Dat τ (Elt F) Unit ℕ (UR sig nD τ) ℕ cfg2 c) (hA : dat.A 0 = V c (Pipeline.arrRef spec2 0))
    (hafter : ∀ t, dat.after 0 t = blk2 V c 0 t) (t : Fin cfg2.N) (d) : dat.before 0 t d = blk2 V c 0 t :=
  (dat.before_in_eq_fetched 0 rfl (fun _ => rfl) (fun _ _ _ => rfl) (fun t => by rw [hafter]; unfold Dat.blockOf blk2; rw [hA]; try rfl) t d).trans
    (by unfold Dat.fetched Dat.blockOf blk2; rw [hA]; try rfl)

/-- Input window 1's buffer holds its block at every point, whether the point fetched it or the block index stood still. -/
theorem holds2_1 {c : Dev nD} (dat : Dat τ (Elt F) Unit ℕ (UR sig nD τ) ℕ cfg2 c) (hA : dat.A 1 = V c (Pipeline.arrRef spec2 1))
    (hafter : ∀ t, dat.after 1 t = blk2 V c 1 t) (t : Fin cfg2.N) (d) : dat.before 1 t d = blk2 V c 1 t :=
  (dat.before_in_eq_fetched 1 rfl (fun _ => rfl) (fun _ _ _ => rfl) (fun t => by rw [hafter]; unfold Dat.blockOf blk2; rw [hA]; try rfl) t d).trans
    (by unfold Dat.fetched Dat.blockOf blk2; rw [hA]; try rfl)

/-- Input window 2's buffer holds its block at every point, whether the point fetched it or the block index stood still. -/
theorem holds2_2 {c : Dev nD} (dat : Dat τ (Elt F) Unit ℕ (UR sig nD τ) ℕ cfg2 c) (hA : dat.A 2 = V c (Pipeline.arrRef spec2 2))
    (hafter : ∀ t, dat.after 2 t = blk2 V c 2 t) (t : Fin cfg2.N) (d) : dat.before 2 t d = blk2 V c 2 t :=
  (dat.before_in_eq_fetched 2 rfl (fun _ => rfl) (fun _ _ _ => rfl) (fun t => by rw [hafter]; unfold Dat.blockOf blk2; rw [hA]; try rfl) t d).trans
    (by unfold Dat.fetched Dat.blockOf blk2; rw [hA]; try rfl)

/-- The whole 2000×64 block as a rectangle: every load and the one store of the body go through it. -/
abbrev whole2 : Rect S2000x64 := Rect.unit (s := S2000x64) ![0, 0] S2000x64.size inb_S2000x64_S2000x64_0_0

/-- What the body leaves in the output buffer: its one store, over the whole block, of the combine of the three input blocks. -/
def res2 (x0 x1 x2 : Vec F S2000x64 .f32) : Vec F S2000x64 .f32 :=
  View.canon [⟨whole2, k2_pay1 (View.ld x0 whole2) (View.ld x1 whole2) (View.ld x2 whole2)⟩]

/-- The one store covers the block. -/
theorem covers2 (p : Vec F S2000x64 .f32) (y : S2000x64.Idx) :
    ∃ pc ∈ ([⟨whole2, p⟩] : List (View.Piece (Elt F) S2000x64 .f32)), y ∈ pc.1.set :=
  View.cover_of_tiled [⟨whole2, p⟩] S2000x64.size (by rfl) y

set_option maxHeartbeats 1000000 in
/-- The body on whole buffers: the three inputs at `x0 x1 x2`, the output at anything; it ends with the inputs as they were
    and the output at `res2 x0 x1 x2`. -/
theorem runs2 (c : Dev nD) (E : Set ℕ) (i : grid2.Coords)
    (a1 : Memref sig .tc .vmem S2000x64 .f32) (h1 : a1.IsWhole) (a2 : Memref sig .tc .vmem S2000x64 .f32) (h2 : a2.IsWhole)
    (a3 : Memref sig .tc .vmem S2000x64 .f32) (h3 : a3.IsWhole) (a4 : Memref sig .tc .vmem S2000x64 .f32) (h4 : a4.IsWhole)
    (x0 x1 x2 : Vec F S2000x64 .f32) (K : PUnit → sProp 𝕄) :
    iprop(owns (c : Thread nD τ) a1 fullShare x0 ∗ owns (c : Thread nD τ) a2 fullShare x1 ∗ owns (c : Thread nD τ) a3 fullShare x2
        ∗ (∃ d, owns (c : Thread nD τ) a4 fullShare d)
        ∗ (iprop(owns (c : Thread nD τ) a1 fullShare x0 ∗ owns (c : Thread nD τ) a2 fullShare x1 ∗ owns (c : Thread nD τ) a3 fullShare x2
            ∗ owns (c : Thread nD τ) a4 fullShare (res2 x0 x1 x2)) -∗ K ⟨⟩))
      ⊢ wp frame (wpE (defs₀ (F := F)) Variants.none c none) E (cc2__combine_kernel i a1 h1 a2 h2 a3 h3 a4 h4) K := by
  simp only [cc2__combine_kernel_eq_skeleton]; unfold cc2__combine_kernel_skel
  unfold owns
  iintro ⟨⟨%f1, %hf1, H1⟩, ⟨%f2, %hf2, H2⟩, ⟨%f3, %hf3, H3⟩, ⟨%d4, %f4, -, H4⟩, Hk⟩
  subst hf1; subst hf2; subst hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (covers2 _)

/-- The proof data of pipeline 2 on core `c`: the arrays as found; after the body each input buffer at its block and the
    output buffer at the combine of the three blocks; the scoped rest and the generator register untouched; nothing owed. -/
def dat2 (c : Dev nD) : Dat τ (Elt F) Unit ℕ (UR sig nD τ) ℕ cfg2 c where
  A w := V c (Pipeline.arrRef spec2 w)
  after w t := match w with
    | ⟨0, _⟩ => blk2 V c 0 t
    | ⟨1, _⟩ => blk2 V c 1 t
    | ⟨2, _⟩ => blk2 V c 2 t
    | ⟨3, _⟩ => res2 (blk2 V c 0 t) (blk2 V c 1 t) (blk2 V c 2 t)
  Φ _ := Pipeline.ΦA spec2 c
  q w := fullShare
  owed _ := 0

theorem dat2_A (c : Dev nD) (w : Fin cfg2.W) : (dat2 V c).A w = V c (Pipeline.arrRef spec2 w) := by
  dsimp only [dat2]
theorem dat2_after0 (c : Dev nD) (t : Fin cfg2.N) : (dat2 V c).after 0 t = blk2 V c 0 t := by dsimp only [dat2]
theorem dat2_after1 (c : Dev nD) (t : Fin cfg2.N) : (dat2 V c).after 1 t = blk2 V c 1 t := by dsimp only [dat2]
theorem dat2_after2 (c : Dev nD) (t : Fin cfg2.N) : (dat2 V c).after 2 t = blk2 V c 2 t := by dsimp only [dat2]
theorem dat2_after3 (c : Dev nD) (t : Fin cfg2.N) :
    (dat2 V c).after 3 t = res2 (blk2 V c 0 t) (blk2 V c 1 t) (blk2 V c 2 t) := by dsimp only [dat2]

theorem dat2_before0 (c : Dev nD) (t : Fin cfg2.N) (d) : (dat2 V c).before 0 t d = blk2 V c 0 t :=
  holds2_0 V (dat2 V c) (dat2_A V c 0) (dat2_after0 V c) t d
theorem dat2_before1 (c : Dev nD) (t : Fin cfg2.N) (d) : (dat2 V c).before 1 t d = blk2 V c 1 t :=
  holds2_1 V (dat2 V c) (dat2_A V c 1) (dat2_after1 V c) t d
theorem dat2_before2 (c : Dev nD) (t : Fin cfg2.N) (d) : (dat2 V c).before 2 t d = blk2 V c 2 t :=
  holds2_2 V (dat2 V c) (dat2_A V c 2) (dat2_after2 V c) t d

/-- What the body is called with at point `t`, the windows one by one, -/
def given2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it hands back. -/
def left2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the input buffers hold their blocks, so `runs2` applies; the invariant and what the core owes pass through. -/
theorem body2 (c : Dev nD) (t : Fin cfg2.N) :
    given2 V c t ⊢ wp frame (wpE (defs₀ (F := F)) Variants.none c none) Set.univ (bodyAt2 t) (fun _ => left2 V c t) := by
  unfold given2 left2 bodyAt2
  simp only [dat2_before0, dat2_before1, dat2_before2]
  rw [show (dat2 V c).Φ t.succ = (dat2 V c).Φ t.castSucc from rfl,
    show (dat2 V c).owesAt () t.succ = (dat2 V c).owesAt () t.castSucc from rfl,
    dat2_after0, dat2_after1, dat2_after2, dat2_after3]
  iintro ⟨HΦ, Ho, ⟨%d0, H0⟩, ⟨%d1, H1⟩, ⟨%d2, H2⟩, ⟨%d3, H3⟩⟩
  iapply (runs2 c Set.univ _ _ _ _ _ _ _ _ _ (blk2 V c 0 t) (blk2 V c 1 t) (blk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem obligation2 (c : Dev nD) : BodyObligation (dat2 (F := F) V c) (defs₀ (F := F)) Variants.none () Set.univ := fun t => by
  rw [bigSep_W2, bigSep_W2]
  exact body2 V c t

end Cert.Kernel.Frm

end
-- ==== Proof.BRegion3.lean ====
/-
  Region 3: the last step, out = max(Σ of four partial products + bias, 0), row block by row block.
  The grid has 50 points; at point t the four table windows and the output window hold rows 2000·t … 2000·t + 1999,
  while the weights (256×64) and the bias (64) are whole at every point: their block index never moves, so they are
  fetched once and stay. The body multiplies each table block with its 64 rows of the weights, adds the four
  products and the bias row, and stores the positive part over the whole output block.
-/
import proofs.«123016_j5669356834169_1_alg».proof.Proof.Gen.Kernel.Launch
import proofs.«123016_j5669356834169_1_alg».proof.Proof.Gen.Kernel.Skeleton
import proofs.«123016_j5669356834169_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the region is entered
variable (V : (c : Dev nD) → (b : Ref sig .tc) → Buf (Elt F) ((c : Thread nD τ).loc b))

/-- Window `w`'s block at point `t`, read off its array as the region found it. -/
def blk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's buffer holds its block at every point, whether the point fetched it or the block index stood still. -/
theorem holds3_0 {c : Dev nD} (dat : Dat τ (Elt F) Unit ℕ (UR sig nD τ) ℕ cfg3 c) (hA : dat.A 0 = V c (Pipeline.arrRef spec3 0))
    (hafter : ∀ t, dat.after 0 t = blk3 V c 0 t) (t : Fin cfg3.N) (d) : dat.before 0 t d = blk3 V c 0 t :=
  (dat.before_in_eq_fetched 0 rfl (fun _ => rfl) (fun _ _ _ => rfl) (fun t => by rw [hafter]; unfold Dat.blockOf blk3; rw [hA]; try rfl) t d).trans
    (by unfold Dat.fetched Dat.blockOf blk3; rw [hA]; try rfl)

/-- Input window 1's buffer holds its block at every point, whether the point fetched it or the block index stood still. -/
theorem holds3_1 {c : Dev nD} (dat : Dat τ (Elt F) Unit ℕ (UR sig nD τ) ℕ cfg3 c) (hA : dat.A 1 = V c (Pipeline.arrRef spec3 1))
    (hafter : ∀ t, dat.after 1 t = blk3 V c 1 t) (t : Fin cfg3.N) (d) : dat.before 1 t d = blk3 V c 1 t :=
  (dat.before_in_eq_fetched 1 rfl (fun _ => rfl) (fun _ _ _ => rfl) (fun t => by rw [hafter]; unfold Dat.blockOf blk3; rw [hA]; try rfl) t d).trans
    (by unfold Dat.fetched Dat.blockOf blk3; rw [hA]; try rfl)

/-- Input window 2's buffer holds its block at every point, whether the point fetched it or the block index stood still. -/
theorem holds3_2 {c : Dev nD} (dat : Dat τ (Elt F) Unit ℕ (UR sig nD τ) ℕ cfg3 c) (hA : dat.A 2 = V c (Pipeline.arrRef spec3 2))
    (hafter : ∀ t, dat.after 2 t = blk3 V c 2 t) (t : Fin cfg3.N) (d) : dat.before 2 t d = blk3 V c 2 t :=
  (dat.before_in_eq_fetched 2 rfl (fun _ => rfl) (fun _ _ _ => rfl) (fun t => by rw [hafter]; unfold Dat.blockOf blk3; rw [hA]; try rfl) t d).trans
    (by unfold Dat.fetched Dat.blockOf blk3; rw [hA]; try rfl)

/-- Input window 3's buffer holds its block at every point, whether the point fetched it or the block index stood still. -/
theorem holds3_3 {c : Dev nD} (dat : Dat τ (Elt F) Unit ℕ (UR sig nD τ) ℕ cfg3 c) (hA : dat.A 3 = V c (Pipeline.arrRef spec3 3))
    (hafter : ∀ t, dat.after 3 t = blk3 V c 3 t) (t : Fin cfg3.N) (d) : dat.before 3 t d = blk3 V c 3 t :=
  (dat.before_in_eq_fetched 3 rfl (fun _ => rfl) (fun _ _ _ => rfl) (fun t => by rw [hafter]; unfold Dat.blockOf blk3; rw [hA]; try rfl) t d).trans
    (by unfold Dat.fetched Dat.blockOf blk3; rw [hA]; try rfl)

/-- Input window 4's buffer holds its block at every point, whether the point fetched it or the block index stood still. -/
theorem holds3_4 {c : Dev nD} (dat : Dat τ (Elt F) Unit ℕ (UR sig nD τ) ℕ cfg3 c) (hA : dat.A 4 = V c (Pipeline.arrRef spec3 4))
    (hafter : ∀ t, dat.after 4 t = blk3 V c 4 t) (t : Fin cfg3.N) (d) : dat.before 4 t d = blk3 V c 4 t :=
  (dat.before_in_eq_fetched 4 rfl (fun _ => rfl) (fun _ _ _ => rfl) (fun t => by rw [hafter]; unfold Dat.blockOf blk3; rw [hA]; try rfl) t d).trans
    (by unfold Dat.fetched Dat.blockOf blk3; rw [hA]; try rfl)

/-- Input window 5's buffer holds its block at every point, whether the point fetched it or the block index stood still. -/
theorem holds3_5 {c : Dev nD} (dat : Dat τ (Elt F) Unit ℕ (UR sig nD τ) ℕ cfg3 c) (hA : dat.A 5 = V c (Pipeline.arrRef spec3 5))
    (hafter : ∀ t, dat.after 5 t = blk3 V c 5 t) (t : Fin cfg3.N) (d) : dat.before 5 t d = blk3 V c 5 t :=
  (dat.before_in_eq_fetched 5 rfl (fun _ => rfl) (fun _ _ _ => rfl) (fun t => by rw [hafter]; unfold Dat.blockOf blk3; rw [hA]; try rfl) t d).trans
    (by unfold Dat.fetched Dat.blockOf blk3; rw [hA]; try rfl)

/-- The whole blocks as rectangles: every load and the one store go through them. -/
abbrev wholeT : Rect S2000x64 := Rect.unit (s := S2000x64) ![0, 0] S2000x64.size inb_S2000x64_S2000x64_0_0
abbrev wholeW : Rect S256x64 := Rect.unit (s := S256x64) ![0, 0] S256x64.size inb_S256x64_S256x64_0_0
abbrev wholeB : Rect S64 := Rect.unit (s := S64) ![0] S64.size inb_S64_S64_0

/-- What the body leaves in the output buffer: its one store, over the whole block, of the last step on the four table
    blocks, the weights and the bias. -/
def res3 (x0 x1 x2 x3 : Vec F S2000x64 .f32) (w : Vec F S256x64 .f32) (b : Vec F S64 .f32) : Vec F S2000x64 .f32 :=
  View.canon [⟨wholeT, k3_pay1 (View.ld w wholeW) (View.ld x0 wholeT) (View.ld x1 wholeT) (View.ld x2 wholeT) (View.ld x3 wholeT) (View.ld b wholeB)⟩]

/-- The one store covers the block. -/
theorem covers3 (p : Vec F S2000x64 .f32) (y : S2000x64.Idx) :
    ∃ pc ∈ ([⟨wholeT, p⟩] : List (View.Piece (Elt F) S2000x64 .f32)), y ∈ pc.1.set :=
  View.cover_of_tiled [⟨wholeT, p⟩] S2000x64.size (by rfl) y

set_option maxHeartbeats 1000000 in
/-- The body on whole buffers: the six inputs at given contents, the output at anything; it ends with the inputs as they
    were and the output at `res3` of them. -/
theorem runs3 (c : Dev nD) (E : Set ℕ) (i : grid3.Coords)
    (a1 : Memref sig .tc .vmem S2000x64 .f32) (h1 : a1.IsWhole) (a2 : Memref sig .tc .vmem S2000x64 .f32) (h2 : a2.IsWhole)
    (a3 : Memref sig .tc .vmem S2000x64 .f32) (h3 : a3.IsWhole) (a4 : Memref sig .tc .vmem S2000x64 .f32) (h4 : a4.IsWhole)
    (a5 : Memref sig .tc .vmem S256x64 .f32) (h5 : a5.IsWhole) (a6 : Memref sig .tc .vmem S64 .f32) (h6 : a6.IsWhole)
    (a7 : Memref sig .tc .vmem S2000x64 .f32) (h7 : a7.IsWhole)
    (x0 x1 x2 x3 : Vec F S2000x64 .f32) (w : Vec F S256x64 .f32) (b : Vec F S64 .f32) (K : PUnit → sProp 𝕄) :
    iprop(owns (c : Thread nD τ) a1 fullShare x0 ∗ owns (c : Thread nD τ) a2 fullShare x1 ∗ owns (c : Thread nD τ) a3 fullShare x2
        ∗ owns (c : Thread nD τ) a4 fullShare x3 ∗ owns (c : Thread nD τ) a5 fullShare w ∗ owns (c : Thread nD τ) a6 fullShare b
        ∗ (∃ d, owns (c : Thread nD τ) a7 fullShare d)
        ∗ (iprop(owns (c : Thread nD τ) a1 fullShare x0 ∗ owns (c : Thread nD τ) a2 fullShare x1 ∗ owns (c : Thread nD τ) a3 fullShare x2
            ∗ owns (c : Thread nD τ) a4 fullShare x3 ∗ owns (c : Thread nD τ) a5 fullShare w ∗ owns (c : Thread nD τ) a6 fullShare b
            ∗ owns (c : Thread nD τ) a7 fullShare (res3 x0 x1 x2 x3 w b)) -∗ K ⟨⟩))
      ⊢ wp frame (wpE (defs₀ (F := F)) Variants.none c none) E (cc3__matmul_kernel i a1 h1 a2 h2 a3 h3 a4 h4 a5 h5 a6 h6 a7 h7) K := by
  simp only [cc3__matmul_kernel_eq_skeleton]; unfold cc3__matmul_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf1; subst hf2; subst hf3; subst hf4; subst hf5; subst hf6
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (covers3 _)

/-- The proof data of pipeline 3 on core `c`: the arrays as found; after the body each input buffer at its block and the
    output buffer at the last step on the blocks; the scoped rest and the generator register untouched; nothing owed. -/
def dat3 (c : Dev nD) : Dat τ (Elt F) Unit ℕ (UR sig nD τ) ℕ cfg3 c where
  A w := V c (Pipeline.arrRef spec3 w)
  after w t := match w with
    | ⟨0, _⟩ => blk3 V c 0 t
    | ⟨1, _⟩ => blk3 V c 1 t
    | ⟨2, _⟩ => blk3 V c 2 t
    | ⟨3, _⟩ => blk3 V c 3 t
    | ⟨4, _⟩ => blk3 V c 4 t
    | ⟨5, _⟩ => blk3 V c 5 t
    | ⟨6, _⟩ => res3 (blk3 V c 0 t) (blk3 V c 1 t) (blk3 V c 2 t) (blk3 V c 3 t) (blk3 V c 4 t) (blk3 V c 5 t)
  Φ _ := Pipeline.ΦA spec3 c
  q _ := fullShare
  owed _ := 0

theorem dat3_A (c : Dev nD) (w : Fin cfg3.W) : (dat3 V c).A w = V c (Pipeline.arrRef spec3 w) := by
  dsimp only [dat3]
theorem dat3_after0 (c : Dev nD) (t : Fin cfg3.N) : (dat3 V c).after 0 t = blk3 V c 0 t := by dsimp only [dat3]
theorem dat3_after1 (c : Dev nD) (t : Fin cfg3.N) : (dat3 V c).after 1 t = blk3 V c 1 t := by dsimp only [dat3]
theorem dat3_after2 (c : Dev nD) (t : Fin cfg3.N) : (dat3 V c).after 2 t = blk3 V c 2 t := by dsimp only [dat3]
theorem dat3_after3 (c : Dev nD) (t : Fin cfg3.N) : (dat3 V c).after 3 t = blk3 V c 3 t := by dsimp only [dat3]
theorem dat3_after4 (c : Dev nD) (t : Fin cfg3.N) : (dat3 V c).after 4 t = blk3 V c 4 t := by dsimp only [dat3]
theorem dat3_after5 (c : Dev nD) (t : Fin cfg3.N) : (dat3 V c).after 5 t = blk3 V c 5 t := by dsimp only [dat3]
theorem dat3_after6 (c : Dev nD) (t : Fin cfg3.N) :
    (dat3 V c).after 6 t = res3 (blk3 V c 0 t) (blk3 V c 1 t) (blk3 V c 2 t) (blk3 V c 3 t) (blk3 V c 4 t) (blk3 V c 5 t) := by dsimp only [dat3]

theorem dat3_before0 (c : Dev nD) (t : Fin cfg3.N) (d) : (dat3 V c).before 0 t d = blk3 V c 0 t :=
  holds3_0 V (dat3 V c) (dat3_A V c 0) (dat3_after0 V c) t d
theorem dat3_before1 (c : Dev nD) (t : Fin cfg3.N) (d) : (dat3 V c).before 1 t d = blk3 V c 1 t :=
  holds3_1 V (dat3 V c) (dat3_A V c 1) (dat3_after1 V c) t d
theorem dat3_before2 (c : Dev nD) (t : Fin cfg3.N) (d) : (dat3 V c).before 2 t d = blk3 V c 2 t :=
  holds3_2 V (dat3 V c) (dat3_A V c 2) (dat3_after2 V c) t d
theorem dat3_before3 (c : Dev nD) (t : Fin cfg3.N) (d) : (dat3 V c).before 3 t d = blk3 V c 3 t :=
  holds3_3 V (dat3 V c) (dat3_A V c 3) (dat3_after3 V c) t d
theorem dat3_before4 (c : Dev nD) (t : Fin cfg3.N) (d) : (dat3 V c).before 4 t d = blk3 V c 4 t :=
  holds3_4 V (dat3 V c) (dat3_A V c 4) (dat3_after4 V c) t d
theorem dat3_before5 (c : Dev nD) (t : Fin cfg3.N) (d) : (dat3 V c).before 5 t d = blk3 V c 5 t :=
  holds3_5 V (dat3 V c) (dat3_A V c 5) (dat3_after5 V c) t d

/-- What the body is called with at point `t`, the windows one by one, -/
def given3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d)))

/-- and what it hands back. -/
def left3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t))

/-- The body at any point: the input buffers hold their blocks, so `runs3` applies; the invariant and what the core owes pass through. -/
theorem body3 (c : Dev nD) (t : Fin cfg3.N) :
    given3 V c t ⊢ wp frame (wpE (defs₀ (F := F)) Variants.none c none) Set.univ (bodyAt3 t) (fun _ => left3 V c t) := by
  unfold given3 left3 bodyAt3
  simp only [dat3_before0, dat3_before1, dat3_before2, dat3_before3, dat3_before4, dat3_before5]
  rw [show (dat3 V c).Φ t.succ = (dat3 V c).Φ t.castSucc from rfl,
    show (dat3 V c).owesAt () t.succ = (dat3 V c).owesAt () t.castSucc from rfl,
    dat3_after0, dat3_after1, dat3_after2, dat3_after3, dat3_after4, dat3_after5, dat3_after6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (runs3 c Set.univ _ _ _ _ _ _ _ _ _ _ _ _ _ _ _ (blk3 V c 0 t) (blk3 V c 1 t) (blk3 V c 2 t) (blk3 V c 3 t) (blk3 V c 4 t) (blk3 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline's body obligation, at every point. -/
theorem obligation3 (c : Dev nD) : BodyObligation (dat3 (F := F) V c) (defs₀ (F := F)) Variants.none () Set.univ := fun t => by
  rw [bigSep_W3, bigSep_W3]
  exact body3 V c t

end Cert.Kernel.Frm

end
-- ==== Proof.BRun.lean ====
/-
  The whole program as a run: three stretches of host operations (the graph propagation of a node table) alternate with
  the three combine kernels, and the last kernel follows. What each core's buffers hold between two items is written down
  once (`B0` … `B7`): the launch contents, then each host stretch applied, then each kernel's output array at what its
  50 write-backs leave. Every weakly fair execution ends, nothing faults, the five argument arrays end as launched and the
  result array ends at what the last kernel's write-backs leave.
-/
import proofs.«123016_j5669356834169_1_alg».proof.Proof.BShare0
import proofs.«123016_j5669356834169_1_alg».proof.Proof.BRegion1
import proofs.«123016_j5669356834169_1_alg».proof.Proof.BRegion2
import proofs.«123016_j5669356834169_1_alg».proof.Proof.BRegion3
import proofs.«123016_j5669356834169_1_alg».proof.Proof.Gen.Kernel.Regions

set_option maxRecDepth 16384

noncomputable section

namespace Cert.Kernel.Frm

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the buffers hold between two items -/

/-- At launch. -/
abbrev B0 (c : Dev nD) : Valuation τ sig (Elt F) := fun b => m (c, b)
/-- After the first host stretch: the degrees, their inverse roots, and the propagation of the features. -/
abbrev B1 (c : Dev nD) : Valuation τ sig (Elt F) := StableHlo.after hostOps0 (B0 m c)
abbrev T1 : (c : Dev nD) → (b : Ref sig .tc) → Buf (Elt F) ((c : Thread nD τ).loc b) := fun c b => B1 m c b
/-- After the first combine kernel: its output array at what its write-backs leave. -/
def B2 (c : Dev nD) : Valuation τ sig (Elt F) := Function.update (B1 m c) main_v47 ((dat0 (T1 m) c).arrAt 3 cfg0.N)
abbrev T2 : (c : Dev nD) → (b : Ref sig .tc) → Buf (Elt F) ((c : Thread nD τ).loc b) := fun c b => B2 m c b
/-- After the second host stretch: the propagation of the first new table. -/
abbrev B3 (c : Dev nD) : Valuation τ sig (Elt F) := StableHlo.after hostOps1 (B2 m c)
abbrev T3 : (c : Dev nD) → (b : Ref sig .tc) → Buf (Elt F) ((c : Thread nD τ).loc b) := fun c b => B3 m c b
/-- After the second combine kernel. -/
def B4 (c : Dev nD) : Valuation τ sig (Elt F) := Function.update (B3 m c) main_v75 ((dat1 (T3 m) c).arrAt 3 cfg1.N)
abbrev T4 : (c : Dev nD) → (b : Ref sig .tc) → Buf (Elt F) ((c : Thread nD τ).loc b) := fun c b => B4 m c b
/-- After the third host stretch: the propagation of the second new table. -/
abbrev B5 (c : Dev nD) : Valuation τ sig (Elt F) := StableHlo.after hostOps2 (B4 m c)
abbrev T5 : (c : Dev nD) → (b : Ref sig .tc) → Buf (Elt F) ((c : Thread nD τ).loc b) := fun c b => B5 m c b
/-- After the third combine kernel. -/
def B6 (c : Dev nD) : Valuation τ sig (Elt F) := Function.update (B5 m c) main_v103 ((dat2 (T5 m) c).arrAt 3 cfg2.N)
abbrev T6 : (c : Dev nD) → (b : Ref sig .tc) → Buf (Elt F) ((c : Thread nD τ).loc b) := fun c b => B6 m c b
/-- After the last kernel: the result array. -/
def B7 (c : Dev nD) : Valuation τ sig (Elt F) := Function.update (B6 m c) main_v104 ((dat3 (T6 m) c).arrAt 6 cfg3.N)
abbrev T7 : (c : Dev nD) → (b : Ref sig .tc) → Buf (Elt F) ((c : Thread nD τ).loc b) := fun c b => B7 m c b

/-! ## A kernel changes its output array and nothing else -/

theorem B2_of (c : Dev nD) (r : Ref sig .tc) (h : r ≠ main_v47) : B2 m c r = B1 m c r := by
  unfold B2; exact Function.update_of_ne (StableHlo.devRef_ne_of_ne h) _ _
theorem B2_at (c : Dev nD) : B2 m c main_v47 = (dat0 (T1 m) c).arrAt 3 cfg0.N := by
  unfold B2; exact Function.update_self _ _ _
theorem B4_of (c : Dev nD) (r : Ref sig .tc) (h : r ≠ main_v75) : B4 m c r = B3 m c r := by
  unfold B4; exact Function.update_of_ne (StableHlo.devRef_ne_of_ne h) _ _
theorem B4_at (c : Dev nD) : B4 m c main_v75 = (dat1 (T3 m) c).arrAt 3 cfg1.N := by
  unfold B4; exact Function.update_self _ _ _
theorem B6_of (c : Dev nD) (r : Ref sig .tc) (h : r ≠ main_v103) : B6 m c r = B5 m c r := by
  unfold B6; exact Function.update_of_ne (StableHlo.devRef_ne_of_ne h) _ _
theorem B6_at (c : Dev nD) : B6 m c main_v103 = (dat2 (T5 m) c).arrAt 3 cfg2.N := by
  unfold B6; exact Function.update_self _ _ _
theorem B7_of (c : Dev nD) (r : Ref sig .tc) (h : r ≠ main_v104) : B7 m c r = B6 m c r := by
  unfold B7; exact Function.update_of_ne (StableHlo.devRef_ne_of_ne h) _ _
theorem B7_at (c : Dev nD) : B7 m c main_v104 = (dat3 (T6 m) c).arrAt 6 cfg3.N := by
  unfold B7; exact Function.update_self _ _ _

/-- A host stretch leaves every buffer it does not write. -/
theorem B1_of (c : Dev nD) (r : Ref sig .tc) (h : r ∉ hostOps0_W) : B1 m c r = B0 m c r :=
  StableHlo.after_of_writes_sub hostOps0 _ hostOps0_writes h
theorem B3_of (c : Dev nD) (r : Ref sig .tc) (h : r ∉ hostOps1_W) : B3 m c r = B2 m c r :=
  StableHlo.after_of_writes_sub hostOps1 _ hostOps1_writes h
theorem B5_of (c : Dev nD) (r : Ref sig .tc) (h : r ∉ hostOps2_W) : B5 m c r = B4 m c r :=
  StableHlo.after_of_writes_sub hostOps2 _ hostOps2_writes h

/-- An argument array reaches the end as launched: no host operation writes it and no kernel has it as an output. -/
theorem B7_arg (c : Dev nD) (r : Ref sig .tc) (h7 : r ≠ main_v104) (h6 : r ≠ main_v103) (h5 : r ∉ hostOps2_W) (h4 : r ≠ main_v75)
    (h3 : r ∉ hostOps1_W) (h2 : r ≠ main_v47) (h1 : r ∉ hostOps0_W) : B7 m c r = m ((c : Thread nD τ).loc r) :=
  (B7_of m c r h7).trans <| (B6_of m c r h6).trans <| (B5_of m c r h5).trans <| (B4_of m c r h4).trans <|
    (B3_of m c r h3).trans <| (B2_of m c r h2).trans <| (B1_of m c r h1).trans rfl

/-! ## What a kernel with distinct arrays leaves: its arrays at the exit contents, every other buffer as entered -/

theorem left_arrays1 (c : Dev nD) (w : Fin cfg1.W) : (dat1 (T3 m) c).arrAt w cfg1.N = T4 m c (Pipeline.arrRef spec1 w) :=
  match w with
  | ⟨0, _⟩ => ((dat1 (T3 m) c).arrAt_in 0 rfl _).trans ((dat1_A (T3 m) c 0).trans (B4_of m c main_v47 (by decide)).symm)
  | ⟨1, _⟩ => ((dat1 (T3 m) c).arrAt_in 1 rfl _).trans ((dat1_A (T3 m) c 1).trans (B4_of m c main_v74 (by decide)).symm)
  | ⟨2, _⟩ => ((dat1 (T3 m) c).arrAt_in 2 rfl _).trans ((dat1_A (T3 m) c 2).trans (B4_of m c main_arg0 (by decide)).symm)
  | ⟨3, _⟩ => (B4_at m c).symm
theorem left_rest1 (c : Dev nD) : ∀ b, b ∉ Finset.univ.image (Pipeline.arrRef spec1) → T4 m c b = T3 m c b :=
  fun b hb => B4_of m c b fun e => hb (Finset.mem_image.mpr ⟨3, Finset.mem_univ _, e.symm⟩)

theorem left_arrays2 (c : Dev nD) (w : Fin cfg2.W) : (dat2 (T5 m) c).arrAt w cfg2.N = T6 m c (Pipeline.arrRef spec2 w) :=
  match w with
  | ⟨0, _⟩ => ((dat2 (T5 m) c).arrAt_in 0 rfl _).trans ((dat2_A (T5 m) c 0).trans (B6_of m c main_v75 (by decide)).symm)
  | ⟨1, _⟩ => ((dat2 (T5 m) c).arrAt_in 1 rfl _).trans ((dat2_A (T5 m) c 1).trans (B6_of m c main_v102 (by decide)).symm)
  | ⟨2, _⟩ => ((dat2 (T5 m) c).arrAt_in 2 rfl _).trans ((dat2_A (T5 m) c 2).trans (B6_of m c main_v47 (by decide)).symm)
  | ⟨3, _⟩ => (B6_at m c).symm
theorem left_rest2 (c : Dev nD) : ∀ b, b ∉ Finset.univ.image (Pipeline.arrRef spec2) → T6 m c b = T5 m c b :=
  fun b hb => B6_of m c b fun e => hb (Finset.mem_image.mpr ⟨3, Finset.mem_univ _, e.symm⟩)

theorem left_arrays3 (c : Dev nD) (w : Fin cfg3.W) : (dat3 (T6 m) c).arrAt w cfg3.N = T7 m c (Pipeline.arrRef spec3 w) :=
  match w with
  | ⟨0, _⟩ => ((dat3 (T6 m) c).arrAt_in 0 rfl _).trans ((dat3_A (T6 m) c 0).trans (B7_of m c main_arg0 (by decide)).symm)
  | ⟨1, _⟩ => ((dat3 (T6 m) c).arrAt_in 1 rfl _).trans ((dat3_A (T6 m) c 1).trans (B7_of m c main_v47 (by decide)).symm)
  | ⟨2, _⟩ => ((dat3 (T6 m) c).arrAt_in 2 rfl _).trans ((dat3_A (T6 m) c 2).trans (B7_of m c main_v75 (by decide)).symm)
  | ⟨3, _⟩ => ((dat3 (T6 m) c).arrAt_in 3 rfl _).trans ((dat3_A (T6 m) c 3).trans (B7_of m c main_v103 (by decide)).symm)
  | ⟨4, _⟩ => ((dat3 (T6 m) c).arrAt_in 4 rfl _).trans ((dat3_A (T6 m) c 4).trans (B7_of m c main_arg3 (by decide)).symm)
  | ⟨5, _⟩ => ((dat3 (T6 m) c).arrAt_in 5 rfl _).trans ((dat3_A (T6 m) c 5).trans (B7_of m c main_arg4 (by decide)).symm)
  | ⟨6, _⟩ => (B7_at m c).symm
theorem left_rest3 (c : Dev nD) : ∀ b, b ∉ Finset.univ.image (Pipeline.arrRef spec3) → T7 m c b = T6 m c b :=
  fun b hb => B7_of m c b fun e => hb (Finset.mem_image.mpr ⟨6, Finset.mem_univ _, e.symm⟩)

/-! ## The proof data family and what rides along -/

/-- Every pipeline's proof data, each at the contents its region is entered from. -/
def pdats : (p : Fin 4) → (c : Dev nD) → Dat τ (Elt F) Unit ℕ (UR sig nD τ) ℕ (Pipeline.pin (pcfgs (F := F)) adm p) c
  | ⟨0, _⟩ => fun c => dat0 (T1 m) c
  | ⟨1, _⟩ => fun c => dat1 (T3 m) c
  | ⟨2, _⟩ => fun c => dat2 (T5 m) c
  | ⟨3, _⟩ => fun c => dat3 (T6 m) c
abbrev 𝒱₀ : Variants := Variants.none
/-- No core owes another anything. -/
abbrev L : GSem nD τ sig → Finset Unit := fun _ => ∅
abbrev lv : GSem nD τ sig → Unit → ℕ := fun _ _ => 0
/-- Beside the buffers, through every item: the core's generator register at some state, and nothing owed. -/
abbrev R (c : Dev nD) : sProp 𝕄 := iprop((∃ r, prngReg c r) ∗ ∃ W, owes (c : Thread nD τ) (0 : CellTallies nD τ sig Unit) W)
/-- A host stretch as an item, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last state, the `owes` apart. -/
abbrev Tₙ (c : Dev nD) : sProp 𝕄 := iprop(StableHlo.held (c : Thread nD τ) (Pipeline.ucRefs τ sig) (B7 m c) ∗ ∃ r, prngReg c r)

/-! ## Region 0, whose windows share the features' array -/

/-- Entry: the core's unscoped buffers are region 0's arrays — the features' buffer in two halves — and the rest. -/
theorem enter0 (c : Dev nD) : (StableHlo.held (c : Thread nD τ) (Pipeline.ucRefs τ sig) (B1 m c) : sProp 𝕄)
    ⊢ iprop((dat0 (T1 m) c).arrays ((dat0 (T1 m) c).arrAt · 0) ∗ Pipeline.unscopedRest spec0 c (T1 m c)) := by
  rw [← Pipeline.unscopedBufs_held c (B1 m c), Pipeline.unscopedBufs_split₀ cfgs 0 (by decide) c (T1 m c)]
  exact sep_mono (arrays0_iff (T1 m) c (T1 m c) _ (dat0_A (T1 m) c 0) (dat0_A (T1 m) c 1) (dat0_A (T1 m) c 2) (dat0_A (T1 m) c 3)).1 .rfl

/-- Exit: the arrays, the output's at what the write-backs left, and the rest are the core's unscoped buffers again. -/
theorem exit0 (c : Dev nD) : iprop((dat0 (T1 m) c).arrays ((dat0 (T1 m) c).arrAt · cfg0.N) ∗ Pipeline.unscopedRest spec0 c (T1 m c))
    ⊢ (StableHlo.held (c : Thread nD τ) (Pipeline.ucRefs τ sig) (B2 m c) : sProp 𝕄) := by
  rw [← Pipeline.unscopedBufs_held c (B2 m c), Pipeline.unscopedBufs_split₀ cfgs 0 (by decide) c (T2 m c)]
  refine sep_mono (arrays0_iff (T1 m) c (T2 m c) _
    (((dat0 (T1 m) c).arrAt_in 0 rfl _).trans ((dat0_A (T1 m) c 0).trans (B2_of m c main_arg0 (by decide)).symm))
    (((dat0 (T1 m) c).arrAt_in 1 rfl _).trans ((dat0_A (T1 m) c 1).trans (B2_of m c main_v46 (by decide)).symm))
    (((dat0 (T1 m) c).arrAt_in 2 rfl _).trans ((dat0_A (T1 m) c 2).trans (B2_of m c main_arg0 (by decide)).symm))
    (B2_at m c).symm).2 (Entails.of_eq ?_)
  unfold Pipeline.unscopedRest
  exact bigSep_congr fun b hb => by
    rw [show T2 m c b = T1 m c b from B2_of m c b fun e => (Finset.mem_sdiff.mp hb).2 (Finset.mem_image.mpr ⟨3, Finset.mem_univ _, e.symm⟩)]

set_option backward.isDefEq.respectTransparency.types false in
/-- Region 0: entered from the buffers at `B1`, left at `B2`. -/
def reg0 : Pipeline.RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := (obligation0 (T1 m) c).loose
  hwaits := Pipeline.hwaits_of_owed_zero _ _ _ _ L lv 0 fun _ _ => rfl
  pre c := iprop(StableHlo.held (c : Thread nD τ) (Pipeline.ucRefs τ sig) (B1 m c) ∗ R c)
  post c := iprop(StableHlo.held (c : Thread nD τ) (Pipeline.ucRefs τ sig) (B2 m c) ∗ R c)
  X c := iprop(∃ r, prngReg c r)
  Y c := iprop(∃ r, prngReg c r)
  Z c := Pipeline.unscopedRest (Ix := Unit) (Name := ℕ) (U := UR sig nD τ) (Lvl := ℕ) spec0 c (T1 m c)
  hentry c := by
    rw [Pipeline.ownSems0_none]
    have hsplit := enter0 m c
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin : iprop((pdats m 0 c).arrays ((pdats m 0 c).arrAt · cfg0.N)
          ∗ Pipeline.unscopedRest (Ix := Unit) (Name := ℕ) (U := UR sig nD τ) (Lvl := ℕ) spec0 c (T1 m c))
        ⊢ (StableHlo.held (c : Thread nD τ) (Pipeline.ucRefs τ sig) (B2 m c) : sProp 𝕄) := exit0 m c
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

/-! ## Regions 1, 2, 3: distinct arrays -/

set_option backward.isDefEq.respectTransparency.types false in
/-- Region 1: entered from the buffers at `B3`, left at `B4`. Its arrays are taken out of the core's unscoped buffers at
    entry and put back at exit, the output's at what the write-backs leave; the generator register goes into the
    kernel's invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (obligation1 (T3 m) c).loose
  hwaits := Pipeline.hwaits_of_owed_zero _ _ _ _ L lv 1 fun _ _ => rfl
  pre c := iprop(StableHlo.held (c : Thread nD τ) (Pipeline.ucRefs τ sig) (B3 m c) ∗ R c)
  post c := iprop(StableHlo.held (c : Thread nD τ) (Pipeline.ucRefs τ sig) (B4 m c) ∗ R c)
  X c := iprop(∃ r, prngReg c r)
  Y c := iprop(∃ r, prngReg c r)
  Z c := Pipeline.unscopedRest (Ix := Unit) (Name := ℕ) (U := UR sig nD τ) (Lvl := ℕ) spec1 c (T3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (T3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (T3 m c) (T4 m c) ((pdats m 1 c).arrAt · cfg1.N) (left_arrays1 m c) (left_rest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2: entered from the buffers at `B5`, left at `B6`. Its arrays are taken out of the core's unscoped buffers at
    entry and put back at exit, the output's at what the write-backs leave; the generator register goes into the
    kernel's invariant and comes back; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (obligation2 (T5 m) c).loose
  hwaits := Pipeline.hwaits_of_owed_zero _ _ _ _ L lv 2 fun _ _ => rfl
  pre c := iprop(StableHlo.held (c : Thread nD τ) (Pipeline.ucRefs τ sig) (B5 m c) ∗ R c)
  post c := iprop(StableHlo.held (c : Thread nD τ) (Pipeline.ucRefs τ sig) (B6 m c) ∗ R c)
  X c := iprop(∃ r, prngReg c r)
  Y c := iprop(∃ r, prngReg c r)
  Z c := Pipeline.unscopedRest (Ix := Unit) (Name := ℕ) (U := UR sig nD τ) (Lvl := ℕ) spec2 c (T5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (T5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (T5 m c) (T6 m c) ((pdats m 2 c).arrAt · cfg2.N) (left_arrays2 m c) (left_rest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3: entered from the buffers at `B6`, left at `B7`. Its arrays are taken out of the core's unscoped buffers at
    entry and put back at exit, the output's at what the write-backs leave; the generator register goes into the
    kernel's invariant and comes back; nothing is owed; the kernel has no semaphore of its own. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (obligation3 (T6 m) c).loose
  hwaits := Pipeline.hwaits_of_owed_zero _ _ _ _ L lv 3 fun _ _ => rfl
  pre c := iprop(StableHlo.held (c : Thread nD τ) (Pipeline.ucRefs τ sig) (B6 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (T6 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (T6 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (T6 m c) (T7 m c) ((pdats m 3 c).arrAt · cfg3.N) (left_arrays3 m c) (left_rest3 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as items, and the run -/

/-- The program's seven items in order. -/
abbrev segs : List (Pipeline.Seg (pcfgs (F := F)) adm (pdats m) () defs₀ 𝒱₀ L lv) :=
  [ .host (hseg hostOps0 hostOps0_sub hostOps0_fresh (B0 m)),
    .region (reg0 m),
    .host (hseg hostOps1 hostOps1_sub hostOps1_fresh (B2 m)),
    .region (reg1 m),
    .host (hseg hostOps2 hostOps2_sub hostOps2_fresh (B4 m)),
    .region (reg2 m),
    .region (reg3 m) ]

/-- The printed program IS the run of the items. -/
theorem main_run (c : Dev nD) : main (F := F) c = Pipeline.Seg.run (segs m) := by
  rw [main_chain c, Pipeline.Seg.run_eq_chain]; rfl

set_option backward.isDefEq.respectTransparency.types false in
/-- THE RUN: from any memory with zero counters every weakly fair execution ends, nothing faulting, with the result array at
    what the last kernel's write-backs leave and the five argument arrays as launched. -/
theorem run_main : θ_run defs (onTc (τ := τ) (main (F := F))) ⟨m, fun _ => 0, ρ⟩ (fun r => ∀ c : Dev nD,
      r.2.mem ((c.tc : Thread nD τ).loc main_v104) = (dat3 (T6 m) c).arrAt 6 cfg3.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m c) ∗ R c)) (Tₙ := Tₙ m)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B7 m c b)
    (hfin := fun c s' => by
      iintro ⟨⟨Hh, -⟩, HSI⟩
      unfold StableHlo.held
      imodintro
      iapply (pointsTo_read_all (Pipeline.ucRefs τ sig) (fun b => (((c : Thread nD τ)).1, b)) (B7 m c) s')
      isplitl [Hh] <;> iassumption)
    (hQ := fun s h c =>
      ⟨(h c _ (mem_uc main_v104 (by decide))).trans (B7_at m c),
       (h c _ (mem_uc main_arg0 (by decide))).trans (B7_arg m c main_arg0 (by decide) (by decide) (by decide) (by decide) (by decide) (by decide) (by decide)),
       (h c _ (mem_uc main_arg1 (by decide))).trans (B7_arg m c main_arg1 (by decide) (by decide) (by decide) (by decide) (by decide) (by decide) (by decide)),
       (h c _ (mem_uc main_arg2 (by decide))).trans (B7_arg m c main_arg2 (by decide) (by decide) (by decide) (by decide) (by decide) (by decide) (by decide)),
       (h c _ (mem_uc main_arg3 (by decide))).trans (B7_arg m c main_arg3 (by decide) (by decide) (by decide) (by decide) (by decide) (by decide) (by decide)),
       (h c _ (mem_uc main_arg4 (by decide))).trans (B7_arg m c main_arg4 (by decide) (by decide) (by decide) (by decide) (by decide) (by decide) (by decide))⟩)

end Cert.Kernel.Frm

end
-- ==== Proof.IRegion0.lean ====
/-
  Region 0: the Chebyshev combine step, out = α·(prev1 + prop) + β·prev2, row block by row block.
  The grid has 50 points; at point t every window's block is rows 2000·t … 2000·t + 1999 of its array.
  Each input window's buffer holds that block of the array as the region found it; the body adds and scales
  the three blocks entry by entry and stores the result over the whole output block.
-/
import proofs.«123016_j5669356834169_1_alg».proof.Proof.Gen.KernelIdeal.Launch
import proofs.«123016_j5669356834169_1_alg».proof.Proof.Gen.KernelIdeal.Skeleton
import proofs.«123016_j5669356834169_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the region is entered
variable (V : (c : Dev nD) → (b : Ref sig .tc) → Buf (Elt F) ((c : Thread nD τ).loc b))

/-- Window `w`'s block at point `t`: the rows of its array, as the region found it, that the point works on. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's buffer holds its block at every point, whether the point fetched it or the block index stood still. -/
theorem holds0_0 {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)

/-- Input window 1's buffer holds its block at every point, whether the point fetched it or the block index stood still. -/
theorem holds0_1 {c : Dev nD} (dat : Dat τ (Elt F) Unit ℕ (UR sig nD τ) ℕ cfg0 c) (hA : dat.A 1 = V c (Pipeline.arrRef spec0 1))
    (hafter : ∀ t, dat.after 1 t = blk0 V c 1 t) (t : Fin cfg0.N) (d) : dat.before 1 t d = blk0 V c 1 t :=
  (dat.before_in_eq_fetched 1 rfl (fun _ => rfl) (fun _ _ _ => rfl) (fun t => by rw [hafter]; unfold Dat.blockOf blk0; rw [hA]; try rfl) t d).trans
    (by unfold Dat.fetched Dat.blockOf blk0; rw [hA]; try rfl)

/-- Input window 2's buffer holds its block at every point, whether the point fetched it or the block index stood still. -/
theorem holds0_2 {c : Dev nD} (dat : Dat τ (Elt F) Unit ℕ (UR sig nD τ) ℕ cfg0 c) (hA : dat.A 2 = V c (Pipeline.arrRef spec0 2))
    (hafter : ∀ t, dat.after 2 t = blk0 V c 2 t) (t : Fin cfg0.N) (d) : dat.before 2 t d = blk0 V c 2 t :=
  (dat.before_in_eq_fetched 2 rfl (fun _ => rfl) (fun _ _ _ => rfl) (fun t => by rw [hafter]; unfold Dat.blockOf blk0; rw [hA]; try rfl) t d).trans
    (by unfold Dat.fetched Dat.blockOf blk0; rw [hA]; try rfl)

/-- The whole 2000×64 block as a rectangle: every load and the one store of the body go through it. -/
abbrev whole0 : Rect S2000x64 := Rect.unit (s := S2000x64) ![0, 0] S2000x64.size inb_S2000x64_S2000x64_0_0

/-- What the body leaves in the output buffer: its one store, over the whole block, of the combine of the three input blocks. -/
def res0 (x0 x1 x2 : Vec F S2000x64 .f32) : Vec F S2000x64 .f32 :=
  View.canon [⟨whole0, k0_pay1 (View.ld x0 whole0) (View.ld x1 whole0) (View.ld x2 whole0)⟩]

/-- The one store covers the block. -/
theorem covers0 (p : Vec F S2000x64 .f32) (y : S2000x64.Idx) :
    ∃ pc ∈ ([⟨whole0, p⟩] : List (View.Piece (Elt F) S2000x64 .f32)), y ∈ pc.1.set :=
  View.cover_of_tiled [⟨whole0, p⟩] S2000x64.size (by rfl) y

set_option maxHeartbeats 1000000 in
/-- The body on whole buffers: the three inputs at `x0 x1 x2`, the output at anything; it ends with the inputs as they were
    and the output at `res0 x0 x1 x2`. -/
theorem runs0 (c : Dev nD) (E : Set ℕ) (i : grid0.Coords)
    (a1 : Memref sig .tc .vmem S2000x64 .f32) (h1 : a1.IsWhole) (a2 : Memref sig .tc .vmem S2000x64 .f32) (h2 : a2.IsWhole)
    (a3 : Memref sig .tc .vmem S2000x64 .f32) (h3 : a3.IsWhole) (a4 : Memref sig .tc .vmem S2000x64 .f32) (h4 : a4.IsWhole)
    (x0 x1 x2 : Vec F S2000x64 .f32) (K : PUnit → sProp 𝕄) :
    iprop(owns (c : Thread nD τ) a1 fullShare x0 ∗ owns (c : Thread nD τ) a2 fullShare x1 ∗ owns (c : Thread nD τ) a3 fullShare x2
        ∗ (∃ d, owns (c : Thread nD τ) a4 fullShare d)
        ∗ (iprop(owns (c : Thread nD τ) a1 fullShare x0 ∗ owns (c : Thread nD τ) a2 fullShare x1 ∗ owns (c : Thread nD τ) a3 fullShare x2
            ∗ owns (c : Thread nD τ) a4 fullShare (res0 x0 x1 x2)) -∗ K ⟨⟩))
      ⊢ wp frame (wpE (defs₀ (F := F)) Variants.none c none) E (cc0__combine_kernel i a1 h1 a2 h2 a3 h3 a4 h4) K := by
  simp only [cc0__combine_kernel_eq_skeleton]; unfold cc0__combine_kernel_skel
  unfold owns
  iintro ⟨⟨%f1, %hf1, H1⟩, ⟨%f2, %hf2, H2⟩, ⟨%f3, %hf3, H3⟩, ⟨%d4, %f4, -, H4⟩, Hk⟩
  subst hf1; subst hf2; subst hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (covers0 _)

/-- The proof data of pipeline 0 on core `c`: the arrays as found; after the body each input buffer at its block and the
    output buffer at the combine of the three blocks; the scoped rest and the generator register untouched; nothing owed.
    Windows 0 and 2 read ONE array, so each holds half of it. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => res0 (blk0 V c 0 t) (blk0 V c 1 t) (blk0 V c 2 t)
  Φ _ := Pipeline.ΦA spec0 c
  q w := match w with
    | ⟨0, _⟩ => fullShare.left
    | ⟨1, _⟩ => fullShare
    | ⟨2, _⟩ => fullShare.right
    | ⟨3, _⟩ => fullShare
  owed _ := 0

theorem dat0_A (c : Dev nD) (w : Fin cfg0.W) : (dat0 V c).A w = V c (Pipeline.arrRef spec0 w) := by
  dsimp only [dat0]
theorem dat0_after0 (c : Dev nD) (t : Fin cfg0.N) : (dat0 V c).after 0 t = blk0 V c 0 t := by dsimp only [dat0]
theorem dat0_after1 (c : Dev nD) (t : Fin cfg0.N) : (dat0 V c).after 1 t = blk0 V c 1 t := by dsimp only [dat0]
theorem dat0_after2 (c : Dev nD) (t : Fin cfg0.N) : (dat0 V c).after 2 t = blk0 V c 2 t := by dsimp only [dat0]
theorem dat0_after3 (c : Dev nD) (t : Fin cfg0.N) :
    (dat0 V c).after 3 t = res0 (blk0 V c 0 t) (blk0 V c 1 t) (blk0 V c 2 t) := by dsimp only [dat0]

theorem dat0_before0 (c : Dev nD) (t : Fin cfg0.N) (d) : (dat0 V c).before 0 t d = blk0 V c 0 t :=
  holds0_0 V (dat0 V c) (dat0_A V c 0) (dat0_after0 V c) t d
theorem dat0_before1 (c : Dev nD) (t : Fin cfg0.N) (d) : (dat0 V c).before 1 t d = blk0 V c 1 t :=
  holds0_1 V (dat0 V c) (dat0_A V c 1) (dat0_after1 V c) t d
theorem dat0_before2 (c : Dev nD) (t : Fin cfg0.N) (d) : (dat0 V c).before 2 t d = blk0 V c 2 t :=
  holds0_2 V (dat0 V c) (dat0_A V c 2) (dat0_after2 V c) t d

/-- What the body is called with at point `t`, the windows one by one, -/
def given0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it hands back. -/
def left0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the input buffers hold their blocks, so `runs0` applies; the invariant and what the core owes pass through. -/
theorem body0 (c : Dev nD) (t : Fin cfg0.N) :
    given0 V c t ⊢ wp frame (wpE (defs₀ (F := F)) Variants.none c none) Set.univ (bodyAt0 t) (fun _ => left0 V c t) := by
  unfold given0 left0 bodyAt0
  simp only [dat0_before0, dat0_before1, dat0_before2]
  rw [show (dat0 V c).Φ t.succ = (dat0 V c).Φ t.castSucc from rfl,
    show (dat0 V c).owesAt () t.succ = (dat0 V c).owesAt () t.castSucc from rfl,
    dat0_after0, dat0_after1, dat0_after2, dat0_after3]
  iintro ⟨HΦ, Ho, ⟨%d0, H0⟩, ⟨%d1, H1⟩, ⟨%d2, H2⟩, ⟨%d3, H3⟩⟩
  iapply (runs0 c Set.univ _ _ _ _ _ _ _ _ _ (blk0 V c 0 t) (blk0 V c 1 t) (blk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem obligation0 (c : Dev nD) : BodyObligation (dat0 (F := F) V c) (defs₀ (F := F)) Variants.none () Set.univ := fun t => by
  rw [bigSep_W0, bigSep_W0]
  exact body0 V c t

end Cert.KernelIdeal.Frm

end
-- ==== Proof.IShare0.lean ====
/-
  Region 0 reads ONE array, the node features, through two of its windows (as the first and as the third operand of
  the combine step). The core holds that array once, whole; the two windows each take half of it, read side by side,
  and give the halves back at the end, where they are one whole array again because both hold the same contents.
-/
import proofs.«123016_j5669356834169_1_alg».proof.Proof.IRegion0

set_option maxRecDepth 16384

noncomputable section

namespace Cert.KernelIdeal.Frm

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The three buffers behind region 0's four windows: the features (twice), the propagated table, the output. -/
theorem arrs0 : Finset.univ.image (Pipeline.arrRef spec0) = ({main_arg0, main_v46, main_v47} : Finset (Ref sig .tc)) := by decide

/-- The three buffers, each whole at the full share, ARE region 0's four windowed arrays at the same contents: the
    features' buffer is its left half (window 0) beside its right half (window 2). -/
theorem arrays0_iff (c : Dev nD) (Vc : (b : Ref sig .tc) → Buf (Elt F) ((c : Thread nD τ).loc b))
    (G : (w : Fin cfg0.W) → Buf (Elt F) ((cfg0.win w).arr.view.loc (c : Thread nD τ)))
    (h0 : G 0 = Vc main_arg0) (h1 : G 1 = Vc main_v46) (h2 : G 2 = Vc main_arg0) (h3 : G 3 = Vc main_v47) :
    (Pipeline.arrBufs spec0 c Vc : sProp 𝕄) ⊣⊢ (dat0 V c).arrays G := by
  unfold Pipeline.arrBufs Pipeline.Dat.arrays
  rw [arrs0, bigSep_insert (by decide), bigSep_insert (by decide), bigSep_singleton, bigSep_W0,
    (arr_whole0 0).set_eq_univ, (arr_whole0 1).set_eq_univ, (arr_whole0 3).set_eq_univ, h0, h1, h2, h3]
  show iprop((((c : Thread nD τ).loc main_arg0) ↦{fullShare} Vc main_arg0) ∗ (((c : Thread nD τ).loc main_v46) ↦{fullShare} Vc main_v46)
      ∗ (((c : Thread nD τ).loc main_v47) ↦{fullShare} Vc main_v47))
    ⊣⊢ iprop((((c : Thread nD τ).loc main_arg0) ↦{fullShare.left} Vc main_arg0) ∗ (((c : Thread nD τ).loc main_v46) ↦{fullShare} Vc main_v46)
    ∗ (((c : Thread nD τ).loc main_arg0) ↦{fullShare.right} Vc main_arg0) ∗ (((c : Thread nD τ).loc main_v47) ↦{fullShare} Vc main_v47))
  constructor
  · iintro ⟨Ha, Hb, Hc⟩
    ihave H := (pointsTo_share (PosShare.mem_left_op_right fullShare)).1 $$ Ha
    icases H with ⟨Hl, Hr⟩
    isplitl [Hl]; · iexact Hl
    isplitl [Hb]; · iexact Hb
    isplitl [Hr]; · iexact Hr
    iexact Hc
  · iintro ⟨Hl, Hb, Hr, Hc⟩
    isplitl [Hl Hr]
    · iapply (pointsTo_share (PosShare.mem_left_op_right fullShare)).2
      isplitl [Hl]; · iexact Hl
      iexact Hr
    isplitl [Hb]; · iexact Hb
    iexact Hc

end Cert.KernelIdeal.Frm

end
-- ==== Proof.IRegion1.lean ====
/-
  Region 1: the Chebyshev combine step, out = α·(prev1 + prop) + β·prev2, row block by row block.
  The grid has 50 points; at point t every window's block is rows 2000·t … 2000·t + 1999 of its array.
  Each input window's buffer holds that block of the array as the region found it; the body adds and scales
  the three blocks entry by entry and stores the result over the whole output block.
-/
import proofs.«123016_j5669356834169_1_alg».proof.Proof.Gen.KernelIdeal.Launch
import proofs.«123016_j5669356834169_1_alg».proof.Proof.Gen.KernelIdeal.Skeleton
import proofs.«123016_j5669356834169_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the region is entered
variable (V : (c : Dev nD) → (b : Ref sig .tc) → Buf (Elt F) ((c : Thread nD τ).loc b))

/-- Window `w`'s block at point `t`: the rows of its array, as the region found it, that the point works on. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's buffer holds its block at every point, whether the point fetched it or the block index stood still. -/
theorem holds1_0 {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)

/-- Input window 1's buffer holds its block at every point, whether the point fetched it or the block index stood still. -/
theorem holds1_1 {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)

/-- Input window 2's buffer holds its block at every point, whether the point fetched it or the block index stood still. -/
theorem holds1_2 {c : Dev nD} (dat : Dat τ (Elt F) Unit ℕ (UR sig nD τ) ℕ cfg1 c) (hA : dat.A 2 = V c (Pipeline.arrRef spec1 2))
    (hafter : ∀ t, dat.after 2 t = blk1 V c 2 t) (t : Fin cfg1.N) (d) : dat.before 2 t d = blk1 V c 2 t :=
  (dat.before_in_eq_fetched 2 rfl (fun _ => rfl) (fun _ _ _ => rfl) (fun t => by rw [hafter]; unfold Dat.blockOf blk1; rw [hA]; try rfl) t d).trans
    (by unfold Dat.fetched Dat.blockOf blk1; rw [hA]; try rfl)

/-- The whole 2000×64 block as a rectangle: every load and the one store of the body go through it. -/
abbrev whole1 : Rect S2000x64 := Rect.unit (s := S2000x64) ![0, 0] S2000x64.size inb_S2000x64_S2000x64_0_0

/-- What the body leaves in the output buffer: its one store, over the whole block, of the combine of the three input blocks. -/
def res1 (x0 x1 x2 : Vec F S2000x64 .f32) : Vec F S2000x64 .f32 :=
  View.canon [⟨whole1, k1_pay1 (View.ld x0 whole1) (View.ld x1 whole1) (View.ld x2 whole1)⟩]

/-- The one store covers the block. -/
theorem covers1 (p : Vec F S2000x64 .f32) (y : S2000x64.Idx) :
    ∃ pc ∈ ([⟨whole1, p⟩] : List (View.Piece (Elt F) S2000x64 .f32)), y ∈ pc.1.set :=
  View.cover_of_tiled [⟨whole1, p⟩] S2000x64.size (by rfl) y

set_option maxHeartbeats 1000000 in
/-- The body on whole buffers: the three inputs at `x0 x1 x2`, the output at anything; it ends with the inputs as they were
    and the output at `res1 x0 x1 x2`. -/
theorem runs1 (c : Dev nD) (E : Set ℕ) (i : grid1.Coords)
    (a1 : Memref sig .tc .vmem S2000x64 .f32) (h1 : a1.IsWhole) (a2 : Memref sig .tc .vmem S2000x64 .f32) (h2 : a2.IsWhole)
    (a3 : Memref sig .tc .vmem S2000x64 .f32) (h3 : a3.IsWhole) (a4 : Memref sig .tc .vmem S2000x64 .f32) (h4 : a4.IsWhole)
    (x0 x1 x2 : Vec F S2000x64 .f32) (K : PUnit → sProp 𝕄) :
    iprop(owns (c : Thread nD τ) a1 fullShare x0 ∗ owns (c : Thread nD τ) a2 fullShare x1 ∗ owns (c : Thread nD τ) a3 fullShare x2
        ∗ (∃ d, owns (c : Thread nD τ) a4 fullShare d)
        ∗ (iprop(owns (c : Thread nD τ) a1 fullShare x0 ∗ owns (c : Thread nD τ) a2 fullShare x1 ∗ owns (c : Thread nD τ) a3 fullShare x2
            ∗ owns (c : Thread nD τ) a4 fullShare (res1 x0 x1 x2)) -∗ K ⟨⟩))
      ⊢ wp frame (wpE (defs₀ (F := F)) Variants.none c none) E (cc1__combine_kernel i a1 h1 a2 h2 a3 h3 a4 h4) K := by
  simp only [cc1__combine_kernel_eq_skeleton]; unfold cc1__combine_kernel_skel
  unfold owns
  iintro ⟨⟨%f1, %hf1, H1⟩, ⟨%f2, %hf2, H2⟩, ⟨%f3, %hf3, H3⟩, ⟨%d4, %f4, -, H4⟩, Hk⟩
  subst hf1; subst hf2; subst hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (covers1 _)

/-- The proof data of pipeline 1 on core `c`: the arrays as found; after the body each input buffer at its block and the
    output buffer at the combine of the three blocks; the scoped rest and the generator register untouched; nothing owed. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => res1 (blk1 V c 0 t) (blk1 V c 1 t) (blk1 V c 2 t)
  Φ _ := Pipeline.ΦA spec1 c
  q w := fullShare
  owed _ := 0

theorem dat1_A (c : Dev nD) (w : Fin cfg1.W) : (dat1 V c).A w = V c (Pipeline.arrRef spec1 w) := by
  dsimp only [dat1]
theorem dat1_after0 (c : Dev nD) (t : Fin cfg1.N) : (dat1 V c).after 0 t = blk1 V c 0 t := by dsimp only [dat1]
theorem dat1_after1 (c : Dev nD) (t : Fin cfg1.N) : (dat1 V c).after 1 t = blk1 V c 1 t := by dsimp only [dat1]
theorem dat1_after2 (c : Dev nD) (t : Fin cfg1.N) : (dat1 V c).after 2 t = blk1 V c 2 t := by dsimp only [dat1]
theorem dat1_after3 (c : Dev nD) (t : Fin cfg1.N) :
    (dat1 V c).after 3 t = res1 (blk1 V c 0 t) (blk1 V c 1 t) (blk1 V c 2 t) := by dsimp only [dat1]

theorem dat1_before0 (c : Dev nD) (t : Fin cfg1.N) (d) : (dat1 V c).before 0 t d = blk1 V c 0 t :=
  holds1_0 V (dat1 V c) (dat1_A V c 0) (dat1_after0 V c) t d
theorem dat1_before1 (c : Dev nD) (t : Fin cfg1.N) (d) : (dat1 V c).before 1 t d = blk1 V c 1 t :=
  holds1_1 V (dat1 V c) (dat1_A V c 1) (dat1_after1 V c) t d
theorem dat1_before2 (c : Dev nD) (t : Fin cfg1.N) (d) : (dat1 V c).before 2 t d = blk1 V c 2 t :=
  holds1_2 V (dat1 V c) (dat1_A V c 2) (dat1_after2 V c) t d

/-- What the body is called with at point `t`, the windows one by one, -/
def given1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it hands back. -/
def left1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the input buffers hold their blocks, so `runs1` applies; the invariant and what the core owes pass through. -/
theorem body1 (c : Dev nD) (t : Fin cfg1.N) :
    given1 V c t ⊢ wp frame (wpE (defs₀ (F := F)) Variants.none c none) Set.univ (bodyAt1 t) (fun _ => left1 V c t) := by
  unfold given1 left1 bodyAt1
  simp only [dat1_before0, dat1_before1, dat1_before2]
  rw [show (dat1 V c).Φ t.succ = (dat1 V c).Φ t.castSucc from rfl,
    show (dat1 V c).owesAt () t.succ = (dat1 V c).owesAt () t.castSucc from rfl,
    dat1_after0, dat1_after1, dat1_after2, dat1_after3]
  iintro ⟨HΦ, Ho, ⟨%d0, H0⟩, ⟨%d1, H1⟩, ⟨%d2, H2⟩, ⟨%d3, H3⟩⟩
  iapply (runs1 c Set.univ _ _ _ _ _ _ _ _ _ (blk1 V c 0 t) (blk1 V c 1 t) (blk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem obligation1 (c : Dev nD) : BodyObligation (dat1 (F := F) V c) (defs₀ (F := F)) Variants.none () Set.univ := fun t => by
  rw [bigSep_W1, bigSep_W1]
  exact body1 V c t

end Cert.KernelIdeal.Frm

end
-- ==== Proof.IRegion2.lean ====
/-
  Region 2: the Chebyshev combine step, out = α·(prev1 + prop) + β·prev2, row block by row block.
  The grid has 50 points; at point t every window's block is rows 2000·t … 2000·t + 1999 of its array.
  Each input window's buffer holds that block of the array as the region found it; the body adds and scales
  the three blocks entry by entry and stores the result over the whole output block.
-/
import proofs.«123016_j5669356834169_1_alg».proof.Proof.Gen.KernelIdeal.Launch
import proofs.«123016_j5669356834169_1_alg».proof.Proof.Gen.KernelIdeal.Skeleton
import proofs.«123016_j5669356834169_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the region is entered
variable (V : (c : Dev nD) → (b : Ref sig .tc) → Buf (Elt F) ((c : Thread nD τ).loc b))

/-- Window `w`'s block at point `t`: the rows of its array, as the region found it, that the point works on. -/
def blk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's buffer holds its block at every point, whether the point fetched it or the block index stood still. -/
theorem holds2_0 {c : Dev nD} (dat : Dat τ (Elt F) Unit ℕ (UR sig nD τ) ℕ cfg2 c) (hA : dat.A 0 = V c (Pipeline.arrRef spec2 0))
    (hafter : ∀ t, dat.after 0 t = blk2 V c 0 t) (t : Fin cfg2.N) (d) : dat.before 0 t d = blk2 V c 0 t :=
  (dat.before_in_eq_fetched 0 rfl (fun _ => rfl) (fun _ _ _ => rfl) (fun t => by rw [hafter]; unfold Dat.blockOf blk2; rw [hA]; try rfl) t d).trans
    (by unfold Dat.fetched Dat.blockOf blk2; rw [hA]; try rfl)

/-- Input window 1's buffer holds its block at every point, whether the point fetched it or the block index stood still. -/
theorem holds2_1 {c : Dev nD} (dat : Dat τ (Elt F) Unit ℕ (UR sig nD τ) ℕ cfg2 c) (hA : dat.A 1 = V c (Pipeline.arrRef spec2 1))
    (hafter : ∀ t, dat.after 1 t = blk2 V c 1 t) (t : Fin cfg2.N) (d) : dat.before 1 t d = blk2 V c 1 t :=
  (dat.before_in_eq_fetched 1 rfl (fun _ => rfl) (fun _ _ _ => rfl) (fun t => by rw [hafter]; unfold Dat.blockOf blk2; rw [hA]; try rfl) t d).trans
    (by unfold Dat.fetched Dat.blockOf blk2; rw [hA]; try rfl)

/-- Input window 2's buffer holds its block at every point, whether the point fetched it or the block index stood still. -/
theorem holds2_2 {c : Dev nD} (dat : Dat τ (Elt F) Unit ℕ (UR sig nD τ) ℕ cfg2 c) (hA : dat.A 2 = V c (Pipeline.arrRef spec2 2))
    (hafter : ∀ t, dat.after 2 t = blk2 V c 2 t) (t : Fin cfg2.N) (d) : dat.before 2 t d = blk2 V c 2 t :=
  (dat.before_in_eq_fetched 2 rfl (fun _ => rfl) (fun _ _ _ => rfl) (fun t => by rw [hafter]; unfold Dat.blockOf blk2; rw [hA]; try rfl) t d).trans
    (by unfold Dat.fetched Dat.blockOf blk2; rw [hA]; try rfl)

/-- The whole 2000×64 block as a rectangle: every load and the one store of the body go through it. -/
abbrev whole2 : Rect S2000x64 := Rect.unit (s := S2000x64) ![0, 0] S2000x64.size inb_S2000x64_S2000x64_0_0

/-- What the body leaves in the output buffer: its one store, over the whole block, of the combine of the three input blocks. -/
def res2 (x0 x1 x2 : Vec F S2000x64 .f32) : Vec F S2000x64 .f32 :=
  View.canon [⟨whole2, k2_pay1 (View.ld x0 whole2) (View.ld x1 whole2) (View.ld x2 whole2)⟩]

/-- The one store covers the block. -/
theorem covers2 (p : Vec F S2000x64 .f32) (y : S2000x64.Idx) :
    ∃ pc ∈ ([⟨whole2, p⟩] : List (View.Piece (Elt F) S2000x64 .f32)), y ∈ pc.1.set :=
  View.cover_of_tiled [⟨whole2, p⟩] S2000x64.size (by rfl) y

set_option maxHeartbeats 1000000 in
/-- The body on whole buffers: the three inputs at `x0 x1 x2`, the output at anything; it ends with the inputs as they were
    and the output at `res2 x0 x1 x2`. -/
theorem runs2 (c : Dev nD) (E : Set ℕ) (i : grid2.Coords)
    (a1 : Memref sig .tc .vmem S2000x64 .f32) (h1 : a1.IsWhole) (a2 : Memref sig .tc .vmem S2000x64 .f32) (h2 : a2.IsWhole)
    (a3 : Memref sig .tc .vmem S2000x64 .f32) (h3 : a3.IsWhole) (a4 : Memref sig .tc .vmem S2000x64 .f32) (h4 : a4.IsWhole)
    (x0 x1 x2 : Vec F S2000x64 .f32) (K : PUnit → sProp 𝕄) :
    iprop(owns (c : Thread nD τ) a1 fullShare x0 ∗ owns (c : Thread nD τ) a2 fullShare x1 ∗ owns (c : Thread nD τ) a3 fullShare x2
        ∗ (∃ d, owns (c : Thread nD τ) a4 fullShare d)
        ∗ (iprop(owns (c : Thread nD τ) a1 fullShare x0 ∗ owns (c : Thread nD τ) a2 fullShare x1 ∗ owns (c : Thread nD τ) a3 fullShare x2
            ∗ owns (c : Thread nD τ) a4 fullShare (res2 x0 x1 x2)) -∗ K ⟨⟩))
      ⊢ wp frame (wpE (defs₀ (F := F)) Variants.none c none) E (cc2__combine_kernel i a1 h1 a2 h2 a3 h3 a4 h4) K := by
  simp only [cc2__combine_kernel_eq_skeleton]; unfold cc2__combine_kernel_skel
  unfold owns
  iintro ⟨⟨%f1, %hf1, H1⟩, ⟨%f2, %hf2, H2⟩, ⟨%f3, %hf3, H3⟩, ⟨%d4, %f4, -, H4⟩, Hk⟩
  subst hf1; subst hf2; subst hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (covers2 _)

/-- The proof data of pipeline 2 on core `c`: the arrays as found; after the body each input buffer at its block and the
    output buffer at the combine of the three blocks; the scoped rest and the generator register untouched; nothing owed. -/
def dat2 (c : Dev nD) : Dat τ (Elt F) Unit ℕ (UR sig nD τ) ℕ cfg2 c where
  A w := V c (Pipeline.arrRef spec2 w)
  after w t := match w with
    | ⟨0, _⟩ => blk2 V c 0 t
    | ⟨1, _⟩ => blk2 V c 1 t
    | ⟨2, _⟩ => blk2 V c 2 t
    | ⟨3, _⟩ => res2 (blk2 V c 0 t) (blk2 V c 1 t) (blk2 V c 2 t)
  Φ _ := Pipeline.ΦA spec2 c
  q w := fullShare
  owed _ := 0

theorem dat2_A (c : Dev nD) (w : Fin cfg2.W) : (dat2 V c).A w = V c (Pipeline.arrRef spec2 w) := by
  dsimp only [dat2]
theorem dat2_after0 (c : Dev nD) (t : Fin cfg2.N) : (dat2 V c).after 0 t = blk2 V c 0 t := by dsimp only [dat2]
theorem dat2_after1 (c : Dev nD) (t : Fin cfg2.N) : (dat2 V c).after 1 t = blk2 V c 1 t := by dsimp only [dat2]
theorem dat2_after2 (c : Dev nD) (t : Fin cfg2.N) : (dat2 V c).after 2 t = blk2 V c 2 t := by dsimp only [dat2]
theorem dat2_after3 (c : Dev nD) (t : Fin cfg2.N) :
    (dat2 V c).after 3 t = res2 (blk2 V c 0 t) (blk2 V c 1 t) (blk2 V c 2 t) := by dsimp only [dat2]

theorem dat2_before0 (c : Dev nD) (t : Fin cfg2.N) (d) : (dat2 V c).before 0 t d = blk2 V c 0 t :=
  holds2_0 V (dat2 V c) (dat2_A V c 0) (dat2_after0 V c) t d
theorem dat2_before1 (c : Dev nD) (t : Fin cfg2.N) (d) : (dat2 V c).before 1 t d = blk2 V c 1 t :=
  holds2_1 V (dat2 V c) (dat2_A V c 1) (dat2_after1 V c) t d
theorem dat2_before2 (c : Dev nD) (t : Fin cfg2.N) (d) : (dat2 V c).before 2 t d = blk2 V c 2 t :=
  holds2_2 V (dat2 V c) (dat2_A V c 2) (dat2_after2 V c) t d

/-- What the body is called with at point `t`, the windows one by one, -/
def given2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it hands back. -/
def left2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the input buffers hold their blocks, so `runs2` applies; the invariant and what the core owes pass through. -/
theorem body2 (c : Dev nD) (t : Fin cfg2.N) :
    given2 V c t ⊢ wp frame (wpE (defs₀ (F := F)) Variants.none c none) Set.univ (bodyAt2 t) (fun _ => left2 V c t) := by
  unfold given2 left2 bodyAt2
  simp only [dat2_before0, dat2_before1, dat2_before2]
  rw [show (dat2 V c).Φ t.succ = (dat2 V c).Φ t.castSucc from rfl,
    show (dat2 V c).owesAt () t.succ = (dat2 V c).owesAt () t.castSucc from rfl,
    dat2_after0, dat2_after1, dat2_after2, dat2_after3]
  iintro ⟨HΦ, Ho, ⟨%d0, H0⟩, ⟨%d1, H1⟩, ⟨%d2, H2⟩, ⟨%d3, H3⟩⟩
  iapply (runs2 c Set.univ _ _ _ _ _ _ _ _ _ (blk2 V c 0 t) (blk2 V c 1 t) (blk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem obligation2 (c : Dev nD) : BodyObligation (dat2 (F := F) V c) (defs₀ (F := F)) Variants.none () Set.univ := fun t => by
  rw [bigSep_W2, bigSep_W2]
  exact body2 V c t

end Cert.KernelIdeal.Frm

end
-- ==== Proof.IRegion3.lean ====
/-
  Region 3: the last step, out = max(Σ of four partial products + bias, 0), row block by row block.
  The grid has 50 points; at point t the four table windows and the output window hold rows 2000·t … 2000·t + 1999,
  while the weights (256×64) and the bias (64) are whole at every point: their block index never moves, so they are
  fetched once and stay. The body multiplies each table block with its 64 rows of the weights, adds the four
  products and the bias row, and stores the positive part over the whole output block.
-/
import proofs.«123016_j5669356834169_1_alg».proof.Proof.Gen.KernelIdeal.Launch
import proofs.«123016_j5669356834169_1_alg».proof.Proof.Gen.KernelIdeal.Skeleton
import proofs.«123016_j5669356834169_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the region is entered
variable (V : (c : Dev nD) → (b : Ref sig .tc) → Buf (Elt F) ((c : Thread nD τ).loc b))

/-- Window `w`'s block at point `t`, read off its array as the region found it. -/
def blk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's buffer holds its block at every point, whether the point fetched it or the block index stood still. -/
theorem holds3_0 {c : Dev nD} (dat : Dat τ (Elt F) Unit ℕ (UR sig nD τ) ℕ cfg3 c) (hA : dat.A 0 = V c (Pipeline.arrRef spec3 0))
    (hafter : ∀ t, dat.after 0 t = blk3 V c 0 t) (t : Fin cfg3.N) (d) : dat.before 0 t d = blk3 V c 0 t :=
  (dat.before_in_eq_fetched 0 rfl (fun _ => rfl) (fun _ _ _ => rfl) (fun t => by rw [hafter]; unfold Dat.blockOf blk3; rw [hA]; try rfl) t d).trans
    (by unfold Dat.fetched Dat.blockOf blk3; rw [hA]; try rfl)

/-- Input window 1's buffer holds its block at every point, whether the point fetched it or the block index stood still. -/
theorem holds3_1 {c : Dev nD} (dat : Dat τ (Elt F) Unit ℕ (UR sig nD τ) ℕ cfg3 c) (hA : dat.A 1 = V c (Pipeline.arrRef spec3 1))
    (hafter : ∀ t, dat.after 1 t = blk3 V c 1 t) (t : Fin cfg3.N) (d) : dat.before 1 t d = blk3 V c 1 t :=
  (dat.before_in_eq_fetched 1 rfl (fun _ => rfl) (fun _ _ _ => rfl) (fun t => by rw [hafter]; unfold Dat.blockOf blk3; rw [hA]; try rfl) t d).trans
    (by unfold Dat.fetched Dat.blockOf blk3; rw [hA]; try rfl)

/-- Input window 2's buffer holds its block at every point, whether the point fetched it or the block index stood still. -/
theorem holds3_2 {c : Dev nD} (dat : Dat τ (Elt F) Unit ℕ (UR sig nD τ) ℕ cfg3 c) (hA : dat.A 2 = V c (Pipeline.arrRef spec3 2))
    (hafter : ∀ t, dat.after 2 t = blk3 V c 2 t) (t : Fin cfg3.N) (d) : dat.before 2 t d = blk3 V c 2 t :=
  (dat.before_in_eq_fetched 2 rfl (fun _ => rfl) (fun _ _ _ => rfl) (fun t => by rw [hafter]; unfold Dat.blockOf blk3; rw [hA]; try rfl) t d).trans
    (by unfold Dat.fetched Dat.blockOf blk3; rw [hA]; try rfl)

/-- Input window 3's buffer holds its block at every point, whether the point fetched it or the block index stood still. -/
theorem holds3_3 {c : Dev nD} (dat : Dat τ (Elt F) Unit ℕ (UR sig nD τ) ℕ cfg3 c) (hA : dat.A 3 = V c (Pipeline.arrRef spec3 3))
    (hafter : ∀ t, dat.after 3 t = blk3 V c 3 t) (t : Fin cfg3.N) (d) : dat.before 3 t d = blk3 V c 3 t :=
  (dat.before_in_eq_fetched 3 rfl (fun _ => rfl) (fun _ _ _ => rfl) (fun t => by rw [hafter]; unfold Dat.blockOf blk3; rw [hA]; try rfl) t d).trans
    (by unfold Dat.fetched Dat.blockOf blk3; rw [hA]; try rfl)

/-- Input window 4's buffer holds its block at every point, whether the point fetched it or the block index stood still. -/
theorem holds3_4 {c : Dev nD} (dat : Dat τ (Elt F) Unit ℕ (UR sig nD τ) ℕ cfg3 c) (hA : dat.A 4 = V c (Pipeline.arrRef spec3 4))
    (hafter : ∀ t, dat.after 4 t = blk3 V c 4 t) (t : Fin cfg3.N) (d) : dat.before 4 t d = blk3 V c 4 t :=
  (dat.before_in_eq_fetched 4 rfl (fun _ => rfl) (fun _ _ _ => rfl) (fun t => by rw [hafter]; unfold Dat.blockOf blk3; rw [hA]; try rfl) t d).trans
    (by unfold Dat.fetched Dat.blockOf blk3; rw [hA]; try rfl)

/-- Input window 5's buffer holds its block at every point, whether the point fetched it or the block index stood still. -/
theorem holds3_5 {c : Dev nD} (dat : Dat τ (Elt F) Unit ℕ (UR sig nD τ) ℕ cfg3 c) (hA : dat.A 5 = V c (Pipeline.arrRef spec3 5))
    (hafter : ∀ t, dat.after 5 t = blk3 V c 5 t) (t : Fin cfg3.N) (d) : dat.before 5 t d = blk3 V c 5 t :=
  (dat.before_in_eq_fetched 5 rfl (fun _ => rfl) (fun _ _ _ => rfl) (fun t => by rw [hafter]; unfold Dat.blockOf blk3; rw [hA]; try rfl) t d).trans
    (by unfold Dat.fetched Dat.blockOf blk3; rw [hA]; try rfl)

/-- The whole blocks as rectangles: every load and the one store go through them. -/
abbrev wholeT : Rect S2000x64 := Rect.unit (s := S2000x64) ![0, 0] S2000x64.size inb_S2000x64_S2000x64_0_0
abbrev wholeW : Rect S256x64 := Rect.unit (s := S256x64) ![0, 0] S256x64.size inb_S256x64_S256x64_0_0
abbrev wholeB : Rect S64 := Rect.unit (s := S64) ![0] S64.size inb_S64_S64_0

/-- What the body leaves in the output buffer: its one store, over the whole block, of the last step on the four table
    blocks, the weights and the bias. -/
def res3 (x0 x1 x2 x3 : Vec F S2000x64 .f32) (w : Vec F S256x64 .f32) (b : Vec F S64 .f32) : Vec F S2000x64 .f32 :=
  View.canon [⟨wholeT, k3_pay1 (View.ld w wholeW) (View.ld x0 wholeT) (View.ld x1 wholeT) (View.ld x2 wholeT) (View.ld x3 wholeT) (View.ld b wholeB)⟩]

/-- The one store covers the block. -/
theorem covers3 (p : Vec F S2000x64 .f32) (y : S2000x64.Idx) :
    ∃ pc ∈ ([⟨wholeT, p⟩] : List (View.Piece (Elt F) S2000x64 .f32)), y ∈ pc.1.set :=
  View.cover_of_tiled [⟨wholeT, p⟩] S2000x64.size (by rfl) y

set_option maxHeartbeats 1000000 in
/-- The body on whole buffers: the six inputs at given contents, the output at anything; it ends with the inputs as they
    were and the output at `res3` of them. -/
theorem runs3 (c : Dev nD) (E : Set ℕ) (i : grid3.Coords)
    (a1 : Memref sig .tc .vmem S2000x64 .f32) (h1 : a1.IsWhole) (a2 : Memref sig .tc .vmem S2000x64 .f32) (h2 : a2.IsWhole)
    (a3 : Memref sig .tc .vmem S2000x64 .f32) (h3 : a3.IsWhole) (a4 : Memref sig .tc .vmem S2000x64 .f32) (h4 : a4.IsWhole)
    (a5 : Memref sig .tc .vmem S256x64 .f32) (h5 : a5.IsWhole) (a6 : Memref sig .tc .vmem S64 .f32) (h6 : a6.IsWhole)
    (a7 : Memref sig .tc .vmem S2000x64 .f32) (h7 : a7.IsWhole)
    (x0 x1 x2 x3 : Vec F S2000x64 .f32) (w : Vec F S256x64 .f32) (b : Vec F S64 .f32) (K : PUnit → sProp 𝕄) :
    iprop(owns (c : Thread nD τ) a1 fullShare x0 ∗ owns (c : Thread nD τ) a2 fullShare x1 ∗ owns (c : Thread nD τ) a3 fullShare x2
        ∗ owns (c : Thread nD τ) a4 fullShare x3 ∗ owns (c : Thread nD τ) a5 fullShare w ∗ owns (c : Thread nD τ) a6 fullShare b
        ∗ (∃ d, owns (c : Thread nD τ) a7 fullShare d)
        ∗ (iprop(owns (c : Thread nD τ) a1 fullShare x0 ∗ owns (c : Thread nD τ) a2 fullShare x1 ∗ owns (c : Thread nD τ) a3 fullShare x2
            ∗ owns (c : Thread nD τ) a4 fullShare x3 ∗ owns (c : Thread nD τ) a5 fullShare w ∗ owns (c : Thread nD τ) a6 fullShare b
            ∗ owns (c : Thread nD τ) a7 fullShare (res3 x0 x1 x2 x3 w b)) -∗ K ⟨⟩))
      ⊢ wp frame (wpE (defs₀ (F := F)) Variants.none c none) E (cc3__matmul_kernel i a1 h1 a2 h2 a3 h3 a4 h4 a5 h5 a6 h6 a7 h7) K := by
  simp only [cc3__matmul_kernel_eq_skeleton]; unfold cc3__matmul_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf1; subst hf2; subst hf3; subst hf4; subst hf5; subst hf6
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (covers3 _)

/-- The proof data of pipeline 3 on core `c`: the arrays as found; after the body each input buffer at its block and the
    output buffer at the last step on the blocks; the scoped rest and the generator register untouched; nothing owed. -/
def dat3 (c : Dev nD) : Dat τ (Elt F) Unit ℕ (UR sig nD τ) ℕ cfg3 c where
  A w := V c (Pipeline.arrRef spec3 w)
  after w t := match w with
    | ⟨0, _⟩ => blk3 V c 0 t
    | ⟨1, _⟩ => blk3 V c 1 t
    | ⟨2, _⟩ => blk3 V c 2 t
    | ⟨3, _⟩ => blk3 V c 3 t
    | ⟨4, _⟩ => blk3 V c 4 t
    | ⟨5, _⟩ => blk3 V c 5 t
    | ⟨6, _⟩ => res3 (blk3 V c 0 t) (blk3 V c 1 t) (blk3 V c 2 t) (blk3 V c 3 t) (blk3 V c 4 t) (blk3 V c 5 t)
  Φ _ := Pipeline.ΦA spec3 c
  q _ := fullShare
  owed _ := 0

theorem dat3_A (c : Dev nD) (w : Fin cfg3.W) : (dat3 V c).A w = V c (Pipeline.arrRef spec3 w) := by
  dsimp only [dat3]
theorem dat3_after0 (c : Dev nD) (t : Fin cfg3.N) : (dat3 V c).after 0 t = blk3 V c 0 t := by dsimp only [dat3]
theorem dat3_after1 (c : Dev nD) (t : Fin cfg3.N) : (dat3 V c).after 1 t = blk3 V c 1 t := by dsimp only [dat3]
theorem dat3_after2 (c : Dev nD) (t : Fin cfg3.N) : (dat3 V c).after 2 t = blk3 V c 2 t := by dsimp only [dat3]
theorem dat3_after3 (c : Dev nD) (t : Fin cfg3.N) : (dat3 V c).after 3 t = blk3 V c 3 t := by dsimp only [dat3]
theorem dat3_after4 (c : Dev nD) (t : Fin cfg3.N) : (dat3 V c).after 4 t = blk3 V c 4 t := by dsimp only [dat3]
theorem dat3_after5 (c : Dev nD) (t : Fin cfg3.N) : (dat3 V c).after 5 t = blk3 V c 5 t := by dsimp only [dat3]
theorem dat3_after6 (c : Dev nD) (t : Fin cfg3.N) :
    (dat3 V c).after 6 t = res3 (blk3 V c 0 t) (blk3 V c 1 t) (blk3 V c 2 t) (blk3 V c 3 t) (blk3 V c 4 t) (blk3 V c 5 t) := by dsimp only [dat3]

theorem dat3_before0 (c : Dev nD) (t : Fin cfg3.N) (d) : (dat3 V c).before 0 t d = blk3 V c 0 t :=
  holds3_0 V (dat3 V c) (dat3_A V c 0) (dat3_after0 V c) t d
theorem dat3_before1 (c : Dev nD) (t : Fin cfg3.N) (d) : (dat3 V c).before 1 t d = blk3 V c 1 t :=
  holds3_1 V (dat3 V c) (dat3_A V c 1) (dat3_after1 V c) t d
theorem dat3_before2 (c : Dev nD) (t : Fin cfg3.N) (d) : (dat3 V c).before 2 t d = blk3 V c 2 t :=
  holds3_2 V (dat3 V c) (dat3_A V c 2) (dat3_after2 V c) t d
theorem dat3_before3 (c : Dev nD) (t : Fin cfg3.N) (d) : (dat3 V c).before 3 t d = blk3 V c 3 t :=
  holds3_3 V (dat3 V c) (dat3_A V c 3) (dat3_after3 V c) t d
theorem dat3_before4 (c : Dev nD) (t : Fin cfg3.N) (d) : (dat3 V c).before 4 t d = blk3 V c 4 t :=
  holds3_4 V (dat3 V c) (dat3_A V c 4) (dat3_after4 V c) t d
theorem dat3_before5 (c : Dev nD) (t : Fin cfg3.N) (d) : (dat3 V c).before 5 t d = blk3 V c 5 t :=
  holds3_5 V (dat3 V c) (dat3_A V c 5) (dat3_after5 V c) t d

/-- What the body is called with at point `t`, the windows one by one, -/
def given3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d)))

/-- and what it hands back. -/
def left3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t))

/-- The body at any point: the input buffers hold their blocks, so `runs3` applies; the invariant and what the core owes pass through. -/
theorem body3 (c : Dev nD) (t : Fin cfg3.N) :
    given3 V c t ⊢ wp frame (wpE (defs₀ (F := F)) Variants.none c none) Set.univ (bodyAt3 t) (fun _ => left3 V c t) := by
  unfold given3 left3 bodyAt3
  simp only [dat3_before0, dat3_before1, dat3_before2, dat3_before3, dat3_before4, dat3_before5]
  rw [show (dat3 V c).Φ t.succ = (dat3 V c).Φ t.castSucc from rfl,
    show (dat3 V c).owesAt () t.succ = (dat3 V c).owesAt () t.castSucc from rfl,
    dat3_after0, dat3_after1, dat3_after2, dat3_after3, dat3_after4, dat3_after5, dat3_after6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (runs3 c Set.univ _ _ _ _ _ _ _ _ _ _ _ _ _ _ _ (blk3 V c 0 t) (blk3 V c 1 t) (blk3 V c 2 t) (blk3 V c 3 t) (blk3 V c 4 t) (blk3 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline's body obligation, at every point. -/
theorem obligation3 (c : Dev nD) : BodyObligation (dat3 (F := F) V c) (defs₀ (F := F)) Variants.none () Set.univ := fun t => by
  rw [bigSep_W3, bigSep_W3]
  exact body3 V c t

end Cert.KernelIdeal.Frm

end
-- ==== Proof.IRun.lean ====
/-
  The whole program as a run: three stretches of host operations (the graph propagation of a node table) alternate with
  the three combine kernels, and the last kernel follows. What each core's buffers hold between two items is written down
  once (`B0` … `B7`): the launch contents, then each host stretch applied, then each kernel's output array at what its
  50 write-backs leave. Every weakly fair execution ends, nothing faults, the five argument arrays end as launched and the
  result array ends at what the last kernel's write-backs leave.
-/
import proofs.«123016_j5669356834169_1_alg».proof.Proof.IShare0
import proofs.«123016_j5669356834169_1_alg».proof.Proof.IRegion1
import proofs.«123016_j5669356834169_1_alg».proof.Proof.IRegion2
import proofs.«123016_j5669356834169_1_alg».proof.Proof.IRegion3
import proofs.«123016_j5669356834169_1_alg».proof.Proof.Gen.KernelIdeal.Regions

set_option maxRecDepth 16384

noncomputable section

namespace Cert.KernelIdeal.Frm

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the buffers hold between two items -/

/-- At launch. -/
abbrev B0 (c : Dev nD) : Valuation τ sig (Elt F) := fun b => m (c, b)
/-- After the first host stretch: the degrees, their inverse roots, and the propagation of the features. -/
abbrev B1 (c : Dev nD) : Valuation τ sig (Elt F) := StableHlo.after hostOps0 (B0 m c)
abbrev T1 : (c : Dev nD) → (b : Ref sig .tc) → Buf (Elt F) ((c : Thread nD τ).loc b) := fun c b => B1 m c b
/-- After the first combine kernel: its output array at what its write-backs leave. -/
def B2 (c : Dev nD) : Valuation τ sig (Elt F) := Function.update (B1 m c) main_v47 ((dat0 (T1 m) c).arrAt 3 cfg0.N)
abbrev T2 : (c : Dev nD) → (b : Ref sig .tc) → Buf (Elt F) ((c : Thread nD τ).loc b) := fun c b => B2 m c b
/-- After the second host stretch: the propagation of the first new table. -/
abbrev B3 (c : Dev nD) : Valuation τ sig (Elt F) := StableHlo.after hostOps1 (B2 m c)
abbrev T3 : (c : Dev nD) → (b : Ref sig .tc) → Buf (Elt F) ((c : Thread nD τ).loc b) := fun c b => B3 m c b
/-- After the second combine kernel. -/
def B4 (c : Dev nD) : Valuation τ sig (Elt F) := Function.update (B3 m c) main_v75 ((dat1 (T3 m) c).arrAt 3 cfg1.N)
abbrev T4 : (c : Dev nD) → (b : Ref sig .tc) → Buf (Elt F) ((c : Thread nD τ).loc b) := fun c b => B4 m c b
/-- After the third host stretch: the propagation of the second new table. -/
abbrev B5 (c : Dev nD) : Valuation τ sig (Elt F) := StableHlo.after hostOps2 (B4 m c)
abbrev T5 : (c : Dev nD) → (b : Ref sig .tc) → Buf (Elt F) ((c : Thread nD τ).loc b) := fun c b => B5 m c b
/-- After the third combine kernel. -/
def B6 (c : Dev nD) : Valuation τ sig (Elt F) := Function.update (B5 m c) main_v103 ((dat2 (T5 m) c).arrAt 3 cfg2.N)
abbrev T6 : (c : Dev nD) → (b : Ref sig .tc) → Buf (Elt F) ((c : Thread nD τ).loc b) := fun c b => B6 m c b
/-- After the last kernel: the result array. -/
def B7 (c : Dev nD) : Valuation τ sig (Elt F) := Function.update (B6 m c) main_v104 ((dat3 (T6 m) c).arrAt 6 cfg3.N)
abbrev T7 : (c : Dev nD) → (b : Ref sig .tc) → Buf (Elt F) ((c : Thread nD τ).loc b) := fun c b => B7 m c b

/-! ## A kernel changes its output array and nothing else -/

theorem B2_of (c : Dev nD) (r : Ref sig .tc) (h : r ≠ main_v47) : B2 m c r = B1 m c r := by
  unfold B2; exact Function.update_of_ne (StableHlo.devRef_ne_of_ne h) _ _
theorem B2_at (c : Dev nD) : B2 m c main_v47 = (dat0 (T1 m) c).arrAt 3 cfg0.N := by
  unfold B2; exact Function.update_self _ _ _
theorem B4_of (c : Dev nD) (r : Ref sig .tc) (h : r ≠ main_v75) : B4 m c r = B3 m c r := by
  unfold B4; exact Function.update_of_ne (StableHlo.devRef_ne_of_ne h) _ _
theorem B4_at (c : Dev nD) : B4 m c main_v75 = (dat1 (T3 m) c).arrAt 3 cfg1.N := by
  unfold B4; exact Function.update_self _ _ _
theorem B6_of (c : Dev nD) (r : Ref sig .tc) (h : r ≠ main_v103) : B6 m c r = B5 m c r := by
  unfold B6; exact Function.update_of_ne (StableHlo.devRef_ne_of_ne h) _ _
theorem B6_at (c : Dev nD) : B6 m c main_v103 = (dat2 (T5 m) c).arrAt 3 cfg2.N := by
  unfold B6; exact Function.update_self _ _ _
theorem B7_of (c : Dev nD) (r : Ref sig .tc) (h : r ≠ main_v104) : B7 m c r = B6 m c r := by
  unfold B7; exact Function.update_of_ne (StableHlo.devRef_ne_of_ne h) _ _
theorem B7_at (c : Dev nD) : B7 m c main_v104 = (dat3 (T6 m) c).arrAt 6 cfg3.N := by
  unfold B7; exact Function.update_self _ _ _

/-- A host stretch leaves every buffer it does not write. -/
theorem B1_of (c : Dev nD) (r : Ref sig .tc) (h : r ∉ hostOps0_W) : B1 m c r = B0 m c r :=
  StableHlo.after_of_writes_sub hostOps0 _ hostOps0_writes h
theorem B3_of (c : Dev nD) (r : Ref sig .tc) (h : r ∉ hostOps1_W) : B3 m c r = B2 m c r :=
  StableHlo.after_of_writes_sub hostOps1 _ hostOps1_writes h
theorem B5_of (c : Dev nD) (r : Ref sig .tc) (h : r ∉ hostOps2_W) : B5 m c r = B4 m c r :=
  StableHlo.after_of_writes_sub hostOps2 _ hostOps2_writes h

/-- An argument array reaches the end as launched: no host operation writes it and no kernel has it as an output. -/
theorem B7_arg (c : Dev nD) (r : Ref sig .tc) (h7 : r ≠ main_v104) (h6 : r ≠ main_v103) (h5 : r ∉ hostOps2_W) (h4 : r ≠ main_v75)
    (h3 : r ∉ hostOps1_W) (h2 : r ≠ main_v47) (h1 : r ∉ hostOps0_W) : B7 m c r = m ((c : Thread nD τ).loc r) :=
  (B7_of m c r h7).trans <| (B6_of m c r h6).trans <| (B5_of m c r h5).trans <| (B4_of m c r h4).trans <|
    (B3_of m c r h3).trans <| (B2_of m c r h2).trans <| (B1_of m c r h1).trans rfl

/-! ## What a kernel with distinct arrays leaves: its arrays at the exit contents, every other buffer as entered -/

theorem left_arrays1 (c : Dev nD) (w : Fin cfg1.W) : (dat1 (T3 m) c).arrAt w cfg1.N = T4 m c (Pipeline.arrRef spec1 w) :=
  match w with
  | ⟨0, _⟩ => ((dat1 (T3 m) c).arrAt_in 0 rfl _).trans ((dat1_A (T3 m) c 0).trans (B4_of m c main_v47 (by decide)).symm)
  | ⟨1, _⟩ => ((dat1 (T3 m) c).arrAt_in 1 rfl _).trans ((dat1_A (T3 m) c 1).trans (B4_of m c main_v74 (by decide)).symm)
  | ⟨2, _⟩ => ((dat1 (T3 m) c).arrAt_in 2 rfl _).trans ((dat1_A (T3 m) c 2).trans (B4_of m c main_arg0 (by decide)).symm)
  | ⟨3, _⟩ => (B4_at m c).symm
theorem left_rest1 (c : Dev nD) : ∀ b, b ∉ Finset.univ.image (Pipeline.arrRef spec1) → T4 m c b = T3 m c b :=
  fun b hb => B4_of m c b fun e => hb (Finset.mem_image.mpr ⟨3, Finset.mem_univ _, e.symm⟩)

theorem left_arrays2 (c : Dev nD) (w : Fin cfg2.W) : (dat2 (T5 m) c).arrAt w cfg2.N = T6 m c (Pipeline.arrRef spec2 w) :=
  match w with
  | ⟨0, _⟩ => ((dat2 (T5 m) c).arrAt_in 0 rfl _).trans ((dat2_A (T5 m) c 0).trans (B6_of m c main_v75 (by decide)).symm)
  | ⟨1, _⟩ => ((dat2 (T5 m) c).arrAt_in 1 rfl _).trans ((dat2_A (T5 m) c 1).trans (B6_of m c main_v102 (by decide)).symm)
  | ⟨2, _⟩ => ((dat2 (T5 m) c).arrAt_in 2 rfl _).trans ((dat2_A (T5 m) c 2).trans (B6_of m c main_v47 (by decide)).symm)
  | ⟨3, _⟩ => (B6_at m c).symm
theorem left_rest2 (c : Dev nD) : ∀ b, b ∉ Finset.univ.image (Pipeline.arrRef spec2) → T6 m c b = T5 m c b :=
  fun b hb => B6_of m c b fun e => hb (Finset.mem_image.mpr ⟨3, Finset.mem_univ _, e.symm⟩)

theorem left_arrays3 (c : Dev nD) (w : Fin cfg3.W) : (dat3 (T6 m) c).arrAt w cfg3.N = T7 m c (Pipeline.arrRef spec3 w) :=
  match w with
  | ⟨0, _⟩ => ((dat3 (T6 m) c).arrAt_in 0 rfl _).trans ((dat3_A (T6 m) c 0).trans (B7_of m c main_arg0 (by decide)).symm)
  | ⟨1, _⟩ => ((dat3 (T6 m) c).arrAt_in 1 rfl _).trans ((dat3_A (T6 m) c 1).trans (B7_of m c main_v47 (by decide)).symm)
  | ⟨2, _⟩ => ((dat3 (T6 m) c).arrAt_in 2 rfl _).trans ((dat3_A (T6 m) c 2).trans (B7_of m c main_v75 (by decide)).symm)
  | ⟨3, _⟩ => ((dat3 (T6 m) c).arrAt_in 3 rfl _).trans ((dat3_A (T6 m) c 3).trans (B7_of m c main_v103 (by decide)).symm)
  | ⟨4, _⟩ => ((dat3 (T6 m) c).arrAt_in 4 rfl _).trans ((dat3_A (T6 m) c 4).trans (B7_of m c main_arg3 (by decide)).symm)
  | ⟨5, _⟩ => ((dat3 (T6 m) c).arrAt_in 5 rfl _).trans ((dat3_A (T6 m) c 5).trans (B7_of m c main_arg4 (by decide)).symm)
  | ⟨6, _⟩ => (B7_at m c).symm
theorem left_rest3 (c : Dev nD) : ∀ b, b ∉ Finset.univ.image (Pipeline.arrRef spec3) → T7 m c b = T6 m c b :=
  fun b hb => B7_of m c b fun e => hb (Finset.mem_image.mpr ⟨6, Finset.mem_univ _, e.symm⟩)

/-! ## The proof data family and what rides along -/

/-- Every pipeline's proof data, each at the contents its region is entered from. -/
def pdats : (p : Fin 4) → (c : Dev nD) → Dat τ (Elt F) Unit ℕ (UR sig nD τ) ℕ (Pipeline.pin (pcfgs (F := F)) adm p) c
  | ⟨0, _⟩ => fun c => dat0 (T1 m) c
  | ⟨1, _⟩ => fun c => dat1 (T3 m) c
  | ⟨2, _⟩ => fun c => dat2 (T5 m) c
  | ⟨3, _⟩ => fun c => dat3 (T6 m) c
abbrev 𝒱₀ : Variants := Variants.none
/-- No core owes another anything. -/
abbrev L : GSem nD τ sig → Finset Unit := fun _ => ∅
abbrev lv : GSem nD τ sig → Unit → ℕ := fun _ _ => 0
/-- Beside the buffers, through every item: the core's generator register at some state, and nothing owed. -/
abbrev R (c : Dev nD) : sProp 𝕄 := iprop((∃ r, prngReg c r) ∗ ∃ W, owes (c : Thread nD τ) (0 : CellTallies nD τ sig Unit) W)
/-- A host stretch as an item, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last state, the `owes` apart. -/
abbrev Tₙ (c : Dev nD) : sProp 𝕄 := iprop(StableHlo.held (c : Thread nD τ) (Pipeline.ucRefs τ sig) (B7 m c) ∗ ∃ r, prngReg c r)

/-! ## Region 0, whose windows share the features' array -/

/-- Entry: the core's unscoped buffers are region 0's arrays — the features' buffer in two halves — and the rest. -/
theorem enter0 (c : Dev nD) : (StableHlo.held (c : Thread nD τ) (Pipeline.ucRefs τ sig) (B1 m c) : sProp 𝕄)
    ⊢ iprop((dat0 (T1 m) c).arrays ((dat0 (T1 m) c).arrAt · 0) ∗ Pipeline.unscopedRest spec0 c (T1 m c)) := by
  rw [← Pipeline.unscopedBufs_held c (B1 m c), Pipeline.unscopedBufs_split₀ cfgs 0 (by decide) c (T1 m c)]
  exact sep_mono (arrays0_iff (T1 m) c (T1 m c) _ (dat0_A (T1 m) c 0) (dat0_A (T1 m) c 1) (dat0_A (T1 m) c 2) (dat0_A (T1 m) c 3)).1 .rfl

/-- Exit: the arrays, the output's at what the write-backs left, and the rest are the core's unscoped buffers again. -/
theorem exit0 (c : Dev nD) : iprop((dat0 (T1 m) c).arrays ((dat0 (T1 m) c).arrAt · cfg0.N) ∗ Pipeline.unscopedRest spec0 c (T1 m c))
    ⊢ (StableHlo.held (c : Thread nD τ) (Pipeline.ucRefs τ sig) (B2 m c) : sProp 𝕄) := by
  rw [← Pipeline.unscopedBufs_held c (B2 m c), Pipeline.unscopedBufs_split₀ cfgs 0 (by decide) c (T2 m c)]
  refine sep_mono (arrays0_iff (T1 m) c (T2 m c) _
    (((dat0 (T1 m) c).arrAt_in 0 rfl _).trans ((dat0_A (T1 m) c 0).trans (B2_of m c main_arg0 (by decide)).symm))
    (((dat0 (T1 m) c).arrAt_in 1 rfl _).trans ((dat0_A (T1 m) c 1).trans (B2_of m c main_v46 (by decide)).symm))
    (((dat0 (T1 m) c).arrAt_in 2 rfl _).trans ((dat0_A (T1 m) c 2).trans (B2_of m c main_arg0 (by decide)).symm))
    (B2_at m c).symm).2 (Entails.of_eq ?_)
  unfold Pipeline.unscopedRest
  exact bigSep_congr fun b hb => by
    rw [show T2 m c b = T1 m c b from B2_of m c b fun e => (Finset.mem_sdiff.mp hb).2 (Finset.mem_image.mpr ⟨3, Finset.mem_univ _, e.symm⟩)]

set_option backward.isDefEq.respectTransparency.types false in
/-- Region 0: entered from the buffers at `B1`, left at `B2`. -/
def reg0 : Pipeline.RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := (obligation0 (T1 m) c).loose
  hwaits := Pipeline.hwaits_of_owed_zero _ _ _ _ L lv 0 fun _ _ => rfl
  pre c := iprop(StableHlo.held (c : Thread nD τ) (Pipeline.ucRefs τ sig) (B1 m c) ∗ R c)
  post c := iprop(StableHlo.held (c : Thread nD τ) (Pipeline.ucRefs τ sig) (B2 m c) ∗ R c)
  X c := iprop(∃ r, prngReg c r)
  Y c := iprop(∃ r, prngReg c r)
  Z c := Pipeline.unscopedRest (Ix := Unit) (Name := ℕ) (U := UR sig nD τ) (Lvl := ℕ) spec0 c (T1 m c)
  hentry c := by
    rw [Pipeline.ownSems0_none]
    have hsplit := enter0 m c
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin : iprop((pdats m 0 c).arrays ((pdats m 0 c).arrAt · cfg0.N)
          ∗ Pipeline.unscopedRest (Ix := Unit) (Name := ℕ) (U := UR sig nD τ) (Lvl := ℕ) spec0 c (T1 m c))
        ⊢ (StableHlo.held (c : Thread nD τ) (Pipeline.ucRefs τ sig) (B2 m c) : sProp 𝕄) := exit0 m c
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

/-! ## Regions 1, 2, 3: distinct arrays -/

set_option backward.isDefEq.respectTransparency.types false in
/-- Region 1: entered from the buffers at `B3`, left at `B4`. Its arrays are taken out of the core's unscoped buffers at
    entry and put back at exit, the output's at what the write-backs leave; the generator register goes into the
    kernel's invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (obligation1 (T3 m) c).loose
  hwaits := Pipeline.hwaits_of_owed_zero _ _ _ _ L lv 1 fun _ _ => rfl
  pre c := iprop(StableHlo.held (c : Thread nD τ) (Pipeline.ucRefs τ sig) (B3 m c) ∗ R c)
  post c := iprop(StableHlo.held (c : Thread nD τ) (Pipeline.ucRefs τ sig) (B4 m c) ∗ R c)
  X c := iprop(∃ r, prngReg c r)
  Y c := iprop(∃ r, prngReg c r)
  Z c := Pipeline.unscopedRest (Ix := Unit) (Name := ℕ) (U := UR sig nD τ) (Lvl := ℕ) spec1 c (T3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (T3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (T3 m c) (T4 m c) ((pdats m 1 c).arrAt · cfg1.N) (left_arrays1 m c) (left_rest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2: entered from the buffers at `B5`, left at `B6`. Its arrays are taken out of the core's unscoped buffers at
    entry and put back at exit, the output's at what the write-backs leave; the generator register goes into the
    kernel's invariant and comes back; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (obligation2 (T5 m) c).loose
  hwaits := Pipeline.hwaits_of_owed_zero _ _ _ _ L lv 2 fun _ _ => rfl
  pre c := iprop(StableHlo.held (c : Thread nD τ) (Pipeline.ucRefs τ sig) (B5 m c) ∗ R c)
  post c := iprop(StableHlo.held (c : Thread nD τ) (Pipeline.ucRefs τ sig) (B6 m c) ∗ R c)
  X c := iprop(∃ r, prngReg c r)
  Y c := iprop(∃ r, prngReg c r)
  Z c := Pipeline.unscopedRest (Ix := Unit) (Name := ℕ) (U := UR sig nD τ) (Lvl := ℕ) spec2 c (T5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (T5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (T5 m c) (T6 m c) ((pdats m 2 c).arrAt · cfg2.N) (left_arrays2 m c) (left_rest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3: entered from the buffers at `B6`, left at `B7`. Its arrays are taken out of the core's unscoped buffers at
    entry and put back at exit, the output's at what the write-backs leave; the generator register goes into the
    kernel's invariant and comes back; nothing is owed; the kernel has no semaphore of its own. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (obligation3 (T6 m) c).loose
  hwaits := Pipeline.hwaits_of_owed_zero _ _ _ _ L lv 3 fun _ _ => rfl
  pre c := iprop(StableHlo.held (c : Thread nD τ) (Pipeline.ucRefs τ sig) (B6 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (T6 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (T6 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (T6 m c) (T7 m c) ((pdats m 3 c).arrAt · cfg3.N) (left_arrays3 m c) (left_rest3 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as items, and the run -/

/-- The program's seven items in order. -/
abbrev segs : List (Pipeline.Seg (pcfgs (F := F)) adm (pdats m) () defs₀ 𝒱₀ L lv) :=
  [ .host (hseg hostOps0 hostOps0_sub hostOps0_fresh (B0 m)),
    .region (reg0 m),
    .host (hseg hostOps1 hostOps1_sub hostOps1_fresh (B2 m)),
    .region (reg1 m),
    .host (hseg hostOps2 hostOps2_sub hostOps2_fresh (B4 m)),
    .region (reg2 m),
    .region (reg3 m) ]

/-- The printed program IS the run of the items. -/
theorem main_run (c : Dev nD) : main (F := F) c = Pipeline.Seg.run (segs m) := by
  rw [main_chain c, Pipeline.Seg.run_eq_chain]; rfl

set_option backward.isDefEq.respectTransparency.types false in
/-- THE RUN: from any memory with zero counters every weakly fair execution ends, nothing faulting, with the result array at
    what the last kernel's write-backs leave and the five argument arrays as launched. -/
theorem run_main : θ_run defs (onTc (τ := τ) (main (F := F))) ⟨m, fun _ => 0, ρ⟩ (fun r => ∀ c : Dev nD,
      r.2.mem ((c.tc : Thread nD τ).loc main_v104) = (dat3 (T6 m) c).arrAt 6 cfg3.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m c) ∗ R c)) (Tₙ := Tₙ m)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B7 m c b)
    (hfin := fun c s' => by
      iintro ⟨⟨Hh, -⟩, HSI⟩
      unfold StableHlo.held
      imodintro
      iapply (pointsTo_read_all (Pipeline.ucRefs τ sig) (fun b => (((c : Thread nD τ)).1, b)) (B7 m c) s')
      isplitl [Hh] <;> iassumption)
    (hQ := fun s h c =>
      ⟨(h c _ (mem_uc main_v104 (by decide))).trans (B7_at m c),
       (h c _ (mem_uc main_arg0 (by decide))).trans (B7_arg m c main_arg0 (by decide) (by decide) (by decide) (by decide) (by decide) (by decide) (by decide)),
       (h c _ (mem_uc main_arg1 (by decide))).trans (B7_arg m c main_arg1 (by decide) (by decide) (by decide) (by decide) (by decide) (by decide) (by decide)),
       (h c _ (mem_uc main_arg2 (by decide))).trans (B7_arg m c main_arg2 (by decide) (by decide) (by decide) (by decide) (by decide) (by decide) (by decide)),
       (h c _ (mem_uc main_arg3 (by decide))).trans (B7_arg m c main_arg3 (by decide) (by decide) (by decide) (by decide) (by decide) (by decide) (by decide)),
       (h c _ (mem_uc main_arg4 (by decide))).trans (B7_arg m c main_arg4 (by decide) (by decide) (by decide) (by decide) (by decide) (by decide) (by decide))⟩)

end Cert.KernelIdeal.Frm

end
-- ==== Proof.Spec.lean ====
/-
  The two entrywise functions the whole computation is made of, on the extended reals.

  The network keeps four node tables of 100000 rows and 64 features. A COMBINE step makes a new table out of three:
  entry by entry, α·(a + p) + β·r, the two coefficients float words read as the reals they denote. The last step
  multiplies the four tables, laid side by side, with a 256×64 weight table — that is, sums four 64-term products, one
  per table, against the matching 64 rows of the weights —, adds a bias row and keeps the positive part.
-/
import Idealize.ShloMosaic.PureOps.Ideal
import Idealize.ShloMosaic.Lib.ValueIdx

noncomputable section

namespace Cert.Spec

open Idealize.ShloMosaic Idealize.ShloMosaic.ValueIdx
open scoped BigOperators

/-- A node table: 100000 rows of 64 features. -/
abbrev Rows : Shape := ⟨2, ![100000, 64]⟩
/-- The weights: 256 rows (four groups of 64) of 64 output features. -/
abbrev Wt : Shape := ⟨2, ![256, 64]⟩
/-- The bias: one number per output feature. -/
abbrev Bs : Shape := ⟨1, ![64]⟩

/-- The combine step, entry by entry: α·(a + p) + β·r. -/
def comb (α β : BitVec 32) (a p r : FVec Ideal Rows .f32) : FVec Ideal Rows .f32 :=
  fun i => Ideal.ofBits .f32 α * (a i + p i) + Ideal.ofBits .f32 β * r i

/-- Row `n` of a table against column `o` of the weights' group starting at row `off`: a sum of 64 products. -/
def part (t : FVec Ideal Rows .f32) (w : FVec Ideal Wt .f32) (off : Nat) (hoff : off + 64 ≤ 256) (n : Fin 100000) (o : Fin 64) : EReal :=
  ∑ d : Fin 64, t (ix2 n d) * w (ix2 (⟨off + d.val, by omega⟩ : Fin 256) o)

/-- The four partial products added up in order from zero, as the last step accumulates them. -/
def dot4 (t0 t1 t2 t3 : FVec Ideal Rows .f32) (w : FVec Ideal Wt .f32) (n : Fin 100000) (o : Fin 64) : EReal :=
  (((Ideal.ofBits .f32 0x00000000#32 + part t0 w 0 (by omega) n o) + part t1 w 64 (by omega) n o)
      + part t2 w 128 (by omega) n o) + part t3 w 192 (by omega) n o

/-- The last step: the accumulated products plus the bias, the positive part kept. -/
def mm (t0 t1 t2 t3 : FVec Ideal Rows .f32) (w : FVec Ideal Wt .f32) (b : FVec Ideal Bs .f32) : FVec Ideal Rows .f32 :=
  fun i => max (dot4 t0 t1 t2 t3 w (i 0) (i 1) + b (ix1 (i 1))) (Ideal.ofBits .f32 0x00000000#32)

end Cert.Spec

end
-- ==== Proof.IValue0.lean ====
/-
  Region 0, from row blocks to the whole table.

  The grid's point t works on rows 2000·t … 2000·t + 1999 of every table: it reads those rows of the three input
  tables, combines them entry by entry as α·(a + p) + β·r, and writes the result back over the same rows of the output
  table. Every row r of the 100000 lies in exactly the block of point r / 2000, so after the 50 points the output table
  is the combine of the three whole input tables, entry by entry.
-/
import proofs.«123016_j5669356834169_1_alg».proof.Proof.IRegion0
import proofs.«123016_j5669356834169_1_alg».proof.Proof.Spec
import Idealize.ShloMosaic.Lib.Pipeline.Value
import Idealize.ShloMosaic.Lib.ValueIdx

noncomputable section

namespace Cert.KernelIdeal.Val

open Cert.KernelIdeal.Gen Cert.KernelIdeal.Frm
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The two zero offsets of a whole-block rectangle, as the constant function. -/
theorem origin0 : (![0, 0] : Fin 2 → Nat) = fun _ => 0 := funext fun a => by fin_cases a <;> rfl

/-- The body's arithmetic at row p and feature q of a block: α·(a + p) + β·r on the three blocks' entries there. -/
theorem pay0_apply (x0 x1 x2 : Vec Ideal S2000x64 .f32) (p : Fin 2000) (q : Fin 64) :
    k0_pay1 x0 x1 x2 (ix2 p q)
      = Ideal.ofBits .f32 0x3F800000#32 * (x0 (ix2 p q) + x1 (ix2 p q)) + Ideal.ofBits .f32 0x00000000#32 * x2 (ix2 p q) := by
  unfold k0_pay1
  simp only [shapeCast_self]
  rfl

/-- At point t every window's block index is (t, 0): block t along the rows, the one block along the features. -/
theorem at_point0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- Entry (p, q) of input window 0's block at point t is entry (2000·t + p, q) of its table. -/
theorem blk0_0_apply (c : Dev nD) (t : Fin cfg0.N) (p : Fin 2000) (q : Fin 64) (k : S100000x64.Idx)
    (hk0 : (k 0).val = 2000 * t.val + p.val) (hk1 : (k 1).val = q.val) :
    (blk0 V c 0 t : Vec Ideal S2000x64 .f32) (ix2 p q) = (V c main_arg0 : S100000x64.Idx → Elt Ideal .f32) k := by
  obtain ⟨e00, e01, e10, e11, e20, e21, e30, e31⟩ := at_point0 t
  unfold blk0
  rw [View.read_apply]
  show V c main_arg0 _ = V c main_arg0 _
  congr 1
  funext a
  apply Fin.ext
  match a with
  | ⟨0, _⟩ => show win0_0.index t (0 : Fin 2) * 2000 + 1 * p.val = (k 0).val; rw [e00, hk0]; omega
  | ⟨1, _⟩ => show win0_0.index t (1 : Fin 2) * 64 + 1 * q.val = (k 1).val; rw [e01, hk1]; omega

/-- Entry (p, q) of input window 1's block at point t is entry (2000·t + p, q) of its table. -/
theorem blk0_1_apply (c : Dev nD) (t : Fin cfg0.N) (p : Fin 2000) (q : Fin 64) (k : S100000x64.Idx)
    (hk0 : (k 0).val = 2000 * t.val + p.val) (hk1 : (k 1).val = q.val) :
    (blk0 V c 1 t : Vec Ideal S2000x64 .f32) (ix2 p q) = (V c main_v46 : S100000x64.Idx → Elt Ideal .f32) k := by
  obtain ⟨e00, e01, e10, e11, e20, e21, e30, e31⟩ := at_point0 t
  unfold blk0
  rw [View.read_apply]
  show V c main_v46 _ = V c main_v46 _
  congr 1
  funext a
  apply Fin.ext
  match a with
  | ⟨0, _⟩ => show win0_1.index t (0 : Fin 2) * 2000 + 1 * p.val = (k 0).val; rw [e10, hk0]; omega
  | ⟨1, _⟩ => show win0_1.index t (1 : Fin 2) * 64 + 1 * q.val = (k 1).val; rw [e11, hk1]; omega

/-- Entry (p, q) of input window 2's block at point t is entry (2000·t + p, q) of its table. -/
theorem blk0_2_apply (c : Dev nD) (t : Fin cfg0.N) (p : Fin 2000) (q : Fin 64) (k : S100000x64.Idx)
    (hk0 : (k 0).val = 2000 * t.val + p.val) (hk1 : (k 1).val = q.val) :
    (blk0 V c 2 t : Vec Ideal S2000x64 .f32) (ix2 p q) = (V c main_arg0 : S100000x64.Idx → Elt Ideal .f32) k := by
  obtain ⟨e00, e01, e10, e11, e20, e21, e30, e31⟩ := at_point0 t
  unfold blk0
  rw [View.read_apply]
  show V c main_arg0 _ = V c main_arg0 _
  congr 1
  funext a
  apply Fin.ext
  match a with
  | ⟨0, _⟩ => show win0_2.index t (0 : Fin 2) * 2000 + 1 * p.val = (k 0).val; rw [e20, hk0]; omega
  | ⟨1, _⟩ => show win0_2.index t (1 : Fin 2) * 64 + 1 * q.val = (k 1).val; rw [e21, hk1]; omega

/-- The output table as one function of the three input tables as the region finds them. -/
abbrev table0 (c : Dev nD) : FVec Ideal Cert.Spec.Rows .f32 :=
  Cert.Spec.comb 0x3F800000#32 0x00000000#32 (V c main_arg0) (V c main_v46) (V c main_arg0)

/-- What point t writes back is rows 2000·t … 2000·t + 1999 of that function. -/
theorem wrote0 (c : Dev nD) (t : Fin cfg0.N) :
    (dat0 (F := Ideal) V c).flushed 3 t = ((cfg0.win 3).blk t).view.read (Elt Ideal) (table0 V c) := by
  show (cfg0.win 3).cut (grid0.coords t) ((dat0 V c).after 3 t) = _
  rw [dat0_after3]
  unfold res0
  rw [View.canon_unit_zero origin0]
  simp only [View.ld_unit_zero (S := S2000x64) origin0]
  obtain ⟨e00, e01, e10, e11, e20, e21, e30, e31⟩ := at_point0 t
  funext j
  obtain ⟨p, q, rfl⟩ : ∃ (p : Fin 2000) (q : Fin 64), j = ix2 p q := ⟨j 0, j 1, eq_ix2 j⟩
  show k0_pay1 (blk0 V c 0 t) (blk0 V c 1 t) (blk0 V c 2 t) (ix2 p q)
    = Cert.Spec.comb 0x3F800000#32 0x00000000#32 (V c main_arg0) (V c main_v46) (V c main_arg0) (((cfg0.win 3).blk t).view.emb (ix2 p q))
  refine (pay0_apply _ _ _ p q).trans ?_
  have hk0 : ((((cfg0.win 3).blk t).view.emb (ix2 p q) : S100000x64.Idx) 0).val = 2000 * t.val + p.val := by
    show win0_3.index t (0 : Fin 2) * 2000 + 1 * p.val = _
    rw [e30]; omega
  have hk1 : ((((cfg0.win 3).blk t).view.emb (ix2 p q) : S100000x64.Idx) 1).val = q.val := by
    show win0_3.index t (1 : Fin 2) * 64 + 1 * q.val = _
    rw [e31]; omega
  rw [blk0_0_apply V c t p q _ hk0 hk1, blk0_1_apply V c t p q _ hk0 hk1, blk0_2_apply V c t p q _ hk0 hk1]
  rfl

/-- A table entry is in point t's block iff each coordinate is in the block's range on its axis. -/
theorem in_block0 (t : Fin cfg0.N) (i : S100000x64.Idx) :
    i ∈ ((cfg0.win 3).blk t).view.set
      ↔ ∀ a : Fin 2, win0_3.index t a * S2000x64.size a ≤ (i a).val ∧ (i a).val < win0_3.index t a * S2000x64.size a + S2000x64.size a := by
  show i ∈ ((View.whole main_v47).slice (win0_3.rect t)).set ↔ _
  rw [View.set_slice_whole, Rect.mem_set_unit]
  exact Iff.rfl

/-- Row r of the table is written by point r / 2000. -/
theorem covered0 (i : S100000x64.Idx) :
    ∃ t : Fin cfg0.N, (cfg0.win 3).flush t = true ∧ i ∈ ((cfg0.win 3).blk t).view.set := by
  have hi0 : (i 0).val < 100000 := (i 0).isLt
  have hi1 : (i 1).val < 64 := (i 1).isLt
  have hN : cfg0.N = 50 := N_0
  have ht : (i 0).val / 2000 < cfg0.N := by rw [hN]; omega
  obtain ⟨e00, e01, e10, e11, e20, e21, e30, e31⟩ := at_point0 ⟨(i 0).val / 2000, ht⟩
  refine ⟨⟨(i 0).val / 2000, ht⟩, flush0_3 _, ?_⟩
  rw [in_block0]
  intro a
  match a with
  | ⟨0, _⟩ =>
    show win0_3.index ⟨(i 0).val / 2000, ht⟩ (0 : Fin 2) * 2000 ≤ (i 0).val
      ∧ (i 0).val < win0_3.index ⟨(i 0).val / 2000, ht⟩ (0 : Fin 2) * 2000 + 2000
    rw [e30]
    show (i 0).val / 2000 * 2000 ≤ (i 0).val ∧ (i 0).val < (i 0).val / 2000 * 2000 + 2000
    omega
  | ⟨1, _⟩ =>
    show win0_3.index ⟨(i 0).val / 2000, ht⟩ (1 : Fin 2) * 64 ≤ (i 1).val
      ∧ (i 1).val < win0_3.index ⟨(i 0).val / 2000, ht⟩ (1 : Fin 2) * 64 + 64
    rw [e31]
    omega

/-- After the region the output table is the combine 1·(a + p) + 0·r of the three input tables, entry by entry. -/
theorem arr0 (c : Dev nD) :
    (dat0 (F := Ideal) V c).arrAt 3 cfg0.N
      = Cert.Spec.comb 0x3F800000#32 0x00000000#32 (V c main_arg0) (V c main_v46) (V c main_arg0) :=
  (dat0 V c).arrAt_eq_of_cover 3 (table0 V c) (fun t _ => wrote0 V c t) covered0

end Cert.KernelIdeal.Val

end
-- ==== Proof.IValue1.lean ====
/-
  Region 1, from row blocks to the whole table.

  The grid's point t works on rows 2000·t … 2000·t + 1999 of every table: it reads those rows of the three input
  tables, combines them entry by entry as α·(a + p) + β·r, and writes the result back over the same rows of the output
  table. Every row r of the 100000 lies in exactly the block of point r / 2000, so after the 50 points the output table
  is the combine of the three whole input tables, entry by entry.
-/
import proofs.«123016_j5669356834169_1_alg».proof.Proof.IRegion1
import proofs.«123016_j5669356834169_1_alg».proof.Proof.Spec
import Idealize.ShloMosaic.Lib.Pipeline.Value
import Idealize.ShloMosaic.Lib.ValueIdx

noncomputable section

namespace Cert.KernelIdeal.Val

open Cert.KernelIdeal.Gen Cert.KernelIdeal.Frm
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The two zero offsets of a whole-block rectangle, as the constant function. -/
theorem origin1 : (![0, 0] : Fin 2 → Nat) = fun _ => 0 := funext fun a => by fin_cases a <;> rfl

/-- The body's arithmetic at row p and feature q of a block: α·(a + p) + β·r on the three blocks' entries there. -/
theorem pay1_apply (x0 x1 x2 : Vec Ideal S2000x64 .f32) (p : Fin 2000) (q : Fin 64) :
    k1_pay1 x0 x1 x2 (ix2 p q)
      = Ideal.ofBits .f32 0x40000000#32 * (x0 (ix2 p q) + x1 (ix2 p q)) + Ideal.ofBits .f32 0xBF800000#32 * x2 (ix2 p q) := by
  unfold k1_pay1
  simp only [shapeCast_self]
  rfl

/-- At point t every window's block index is (t, 0): block t along the rows, the one block along the features. -/
theorem at_point1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0 :=
  (by decide +kernel : ∀ t : Fin grid1.N, _)

/-- Entry (p, q) of input window 0's block at point t is entry (2000·t + p, q) of its table. -/
theorem blk1_0_apply (c : Dev nD) (t : Fin cfg1.N) (p : Fin 2000) (q : Fin 64) (k : S100000x64.Idx)
    (hk0 : (k 0).val = 2000 * t.val + p.val) (hk1 : (k 1).val = q.val) :
    (blk1 V c 0 t : Vec Ideal S2000x64 .f32) (ix2 p q) = (V c main_v47 : S100000x64.Idx → Elt Ideal .f32) k := by
  obtain ⟨e00, e01, e10, e11, e20, e21, e30, e31⟩ := at_point1 t
  unfold blk1
  rw [View.read_apply]
  show V c main_v47 _ = V c main_v47 _
  congr 1
  funext a
  apply Fin.ext
  match a with
  | ⟨0, _⟩ => show win1_0.index t (0 : Fin 2) * 2000 + 1 * p.val = (k 0).val; rw [e00, hk0]; omega
  | ⟨1, _⟩ => show win1_0.index t (1 : Fin 2) * 64 + 1 * q.val = (k 1).val; rw [e01, hk1]; omega

/-- Entry (p, q) of input window 1's block at point t is entry (2000·t + p, q) of its table. -/
theorem blk1_1_apply (c : Dev nD) (t : Fin cfg1.N) (p : Fin 2000) (q : Fin 64) (k : S100000x64.Idx)
    (hk0 : (k 0).val = 2000 * t.val + p.val) (hk1 : (k 1).val = q.val) :
    (blk1 V c 1 t : Vec Ideal S2000x64 .f32) (ix2 p q) = (V c main_v74 : S100000x64.Idx → Elt Ideal .f32) k := by
  obtain ⟨e00, e01, e10, e11, e20, e21, e30, e31⟩ := at_point1 t
  unfold blk1
  rw [View.read_apply]
  show V c main_v74 _ = V c main_v74 _
  congr 1
  funext a
  apply Fin.ext
  match a with
  | ⟨0, _⟩ => show win1_1.index t (0 : Fin 2) * 2000 + 1 * p.val = (k 0).val; rw [e10, hk0]; omega
  | ⟨1, _⟩ => show win1_1.index t (1 : Fin 2) * 64 + 1 * q.val = (k 1).val; rw [e11, hk1]; omega

/-- Entry (p, q) of input window 2's block at point t is entry (2000·t + p, q) of its table. -/
theorem blk1_2_apply (c : Dev nD) (t : Fin cfg1.N) (p : Fin 2000) (q : Fin 64) (k : S100000x64.Idx)
    (hk0 : (k 0).val = 2000 * t.val + p.val) (hk1 : (k 1).val = q.val) :
    (blk1 V c 2 t : Vec Ideal S2000x64 .f32) (ix2 p q) = (V c main_arg0 : S100000x64.Idx → Elt Ideal .f32) k := by
  obtain ⟨e00, e01, e10, e11, e20, e21, e30, e31⟩ := at_point1 t
  unfold blk1
  rw [View.read_apply]
  show V c main_arg0 _ = V c main_arg0 _
  congr 1
  funext a
  apply Fin.ext
  match a with
  | ⟨0, _⟩ => show win1_2.index t (0 : Fin 2) * 2000 + 1 * p.val = (k 0).val; rw [e20, hk0]; omega
  | ⟨1, _⟩ => show win1_2.index t (1 : Fin 2) * 64 + 1 * q.val = (k 1).val; rw [e21, hk1]; omega

/-- The output table as one function of the three input tables as the region finds them. -/
abbrev table1 (c : Dev nD) : FVec Ideal Cert.Spec.Rows .f32 :=
  Cert.Spec.comb 0x40000000#32 0xBF800000#32 (V c main_v47) (V c main_v74) (V c main_arg0)

/-- What point t writes back is rows 2000·t … 2000·t + 1999 of that function. -/
theorem wrote1 (c : Dev nD) (t : Fin cfg1.N) :
    (dat1 (F := Ideal) V c).flushed 3 t = ((cfg1.win 3).blk t).view.read (Elt Ideal) (table1 V c) := by
  show (cfg1.win 3).cut (grid1.coords t) ((dat1 V c).after 3 t) = _
  rw [dat1_after3]
  unfold res1
  rw [View.canon_unit_zero origin1]
  simp only [View.ld_unit_zero (S := S2000x64) origin1]
  obtain ⟨e00, e01, e10, e11, e20, e21, e30, e31⟩ := at_point1 t
  funext j
  obtain ⟨p, q, rfl⟩ : ∃ (p : Fin 2000) (q : Fin 64), j = ix2 p q := ⟨j 0, j 1, eq_ix2 j⟩
  show k1_pay1 (blk1 V c 0 t) (blk1 V c 1 t) (blk1 V c 2 t) (ix2 p q)
    = Cert.Spec.comb 0x40000000#32 0xBF800000#32 (V c main_v47) (V c main_v74) (V c main_arg0) (((cfg1.win 3).blk t).view.emb (ix2 p q))
  refine (pay1_apply _ _ _ p q).trans ?_
  have hk0 : ((((cfg1.win 3).blk t).view.emb (ix2 p q) : S100000x64.Idx) 0).val = 2000 * t.val + p.val := by
    show win1_3.index t (0 : Fin 2) * 2000 + 1 * p.val = _
    rw [e30]; omega
  have hk1 : ((((cfg1.win 3).blk t).view.emb (ix2 p q) : S100000x64.Idx) 1).val = q.val := by
    show win1_3.index t (1 : Fin 2) * 64 + 1 * q.val = _
    rw [e31]; omega
  rw [blk1_0_apply V c t p q _ hk0 hk1, blk1_1_apply V c t p q _ hk0 hk1, blk1_2_apply V c t p q _ hk0 hk1]
  rfl

/-- A table entry is in point t's block iff each coordinate is in the block's range on its axis. -/
theorem in_block1 (t : Fin cfg1.N) (i : S100000x64.Idx) :
    i ∈ ((cfg1.win 3).blk t).view.set
      ↔ ∀ a : Fin 2, win1_3.index t a * S2000x64.size a ≤ (i a).val ∧ (i a).val < win1_3.index t a * S2000x64.size a + S2000x64.size a := by
  show i ∈ ((View.whole main_v75).slice (win1_3.rect t)).set ↔ _
  rw [View.set_slice_whole, Rect.mem_set_unit]
  exact Iff.rfl

/-- Row r of the table is written by point r / 2000. -/
theorem covered1 (i : S100000x64.Idx) :
    ∃ t : Fin cfg1.N, (cfg1.win 3).flush t = true ∧ i ∈ ((cfg1.win 3).blk t).view.set := by
  have hi0 : (i 0).val < 100000 := (i 0).isLt
  have hi1 : (i 1).val < 64 := (i 1).isLt
  have hN : cfg1.N = 50 := N_1
  have ht : (i 0).val / 2000 < cfg1.N := by rw [hN]; omega
  obtain ⟨e00, e01, e10, e11, e20, e21, e30, e31⟩ := at_point1 ⟨(i 0).val / 2000, ht⟩
  refine ⟨⟨(i 0).val / 2000, ht⟩, flush1_3 _, ?_⟩
  rw [in_block1]
  intro a
  match a with
  | ⟨0, _⟩ =>
    show win1_3.index ⟨(i 0).val / 2000, ht⟩ (0 : Fin 2) * 2000 ≤ (i 0).val
      ∧ (i 0).val < win1_3.index ⟨(i 0).val / 2000, ht⟩ (0 : Fin 2) * 2000 + 2000
    rw [e30]
    show (i 0).val / 2000 * 2000 ≤ (i 0).val ∧ (i 0).val < (i 0).val / 2000 * 2000 + 2000
    omega
  | ⟨1, _⟩ =>
    show win1_3.index ⟨(i 0).val / 2000, ht⟩ (1 : Fin 2) * 64 ≤ (i 1).val
      ∧ (i 1).val < win1_3.index ⟨(i 0).val / 2000, ht⟩ (1 : Fin 2) * 64 + 64
    rw [e31]
    omega

/-- After the region the output table is the combine 2·(a + p) + (−1)·r of the three input tables, entry by entry. -/
theorem arr1 (c : Dev nD) :
    (dat1 (F := Ideal) V c).arrAt 3 cfg1.N
      = Cert.Spec.comb 0x40000000#32 0xBF800000#32 (V c main_v47) (V c main_v74) (V c main_arg0) :=
  (dat1 V c).arrAt_eq_of_cover 3 (table1 V c) (fun t _ => wrote1 V c t) covered1

end Cert.KernelIdeal.Val

end
-- ==== Proof.IValue2.lean ====
/-
  Region 2, from row blocks to the whole table.

  The grid's point t works on rows 2000·t … 2000·t + 1999 of every table: it reads those rows of the three input
  tables, combines them entry by entry as α·(a + p) + β·r, and writes the result back over the same rows of the output
  table. Every row r of the 100000 lies in exactly the block of point r / 2000, so after the 50 points the output table
  is the combine of the three whole input tables, entry by entry.
-/
import proofs.«123016_j5669356834169_1_alg».proof.Proof.IRegion2
import proofs.«123016_j5669356834169_1_alg».proof.Proof.Spec
import Idealize.ShloMosaic.Lib.Pipeline.Value
import Idealize.ShloMosaic.Lib.ValueIdx

noncomputable section

namespace Cert.KernelIdeal.Val

open Cert.KernelIdeal.Gen Cert.KernelIdeal.Frm
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The two zero offsets of a whole-block rectangle, as the constant function. -/
theorem origin2 : (![0, 0] : Fin 2 → Nat) = fun _ => 0 := funext fun a => by fin_cases a <;> rfl

/-- The body's arithmetic at row p and feature q of a block: α·(a + p) + β·r on the three blocks' entries there. -/
theorem pay2_apply (x0 x1 x2 : Vec Ideal S2000x64 .f32) (p : Fin 2000) (q : Fin 64) :
    k2_pay1 x0 x1 x2 (ix2 p q)
      = Ideal.ofBits .f32 0x40000000#32 * (x0 (ix2 p q) + x1 (ix2 p q)) + Ideal.ofBits .f32 0xBF800000#32 * x2 (ix2 p q) := by
  unfold k2_pay1
  simp only [shapeCast_self]
  rfl

/-- At point t every window's block index is (t, 0): block t along the rows, the one block along the features. -/
theorem at_point2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0 :=
  (by decide +kernel : ∀ t : Fin grid2.N, _)

/-- Entry (p, q) of input window 0's block at point t is entry (2000·t + p, q) of its table. -/
theorem blk2_0_apply (c : Dev nD) (t : Fin cfg2.N) (p : Fin 2000) (q : Fin 64) (k : S100000x64.Idx)
    (hk0 : (k 0).val = 2000 * t.val + p.val) (hk1 : (k 1).val = q.val) :
    (blk2 V c 0 t : Vec Ideal S2000x64 .f32) (ix2 p q) = (V c main_v75 : S100000x64.Idx → Elt Ideal .f32) k := by
  obtain ⟨e00, e01, e10, e11, e20, e21, e30, e31⟩ := at_point2 t
  unfold blk2
  rw [View.read_apply]
  show V c main_v75 _ = V c main_v75 _
  congr 1
  funext a
  apply Fin.ext
  match a with
  | ⟨0, _⟩ => show win2_0.index t (0 : Fin 2) * 2000 + 1 * p.val = (k 0).val; rw [e00, hk0]; omega
  | ⟨1, _⟩ => show win2_0.index t (1 : Fin 2) * 64 + 1 * q.val = (k 1).val; rw [e01, hk1]; omega

/-- Entry (p, q) of input window 1's block at point t is entry (2000·t + p, q) of its table. -/
theorem blk2_1_apply (c : Dev nD) (t : Fin cfg2.N) (p : Fin 2000) (q : Fin 64) (k : S100000x64.Idx)
    (hk0 : (k 0).val = 2000 * t.val + p.val) (hk1 : (k 1).val = q.val) :
    (blk2 V c 1 t : Vec Ideal S2000x64 .f32) (ix2 p q) = (V c main_v102 : S100000x64.Idx → Elt Ideal .f32) k := by
  obtain ⟨e00, e01, e10, e11, e20, e21, e30, e31⟩ := at_point2 t
  unfold blk2
  rw [View.read_apply]
  show V c main_v102 _ = V c main_v102 _
  congr 1
  funext a
  apply Fin.ext
  match a with
  | ⟨0, _⟩ => show win2_1.index t (0 : Fin 2) * 2000 + 1 * p.val = (k 0).val; rw [e10, hk0]; omega
  | ⟨1, _⟩ => show win2_1.index t (1 : Fin 2) * 64 + 1 * q.val = (k 1).val; rw [e11, hk1]; omega

/-- Entry (p, q) of input window 2's block at point t is entry (2000·t + p, q) of its table. -/
theorem blk2_2_apply (c : Dev nD) (t : Fin cfg2.N) (p : Fin 2000) (q : Fin 64) (k : S100000x64.Idx)
    (hk0 : (k 0).val = 2000 * t.val + p.val) (hk1 : (k 1).val = q.val) :
    (blk2 V c 2 t : Vec Ideal S2000x64 .f32) (ix2 p q) = (V c main_v47 : S100000x64.Idx → Elt Ideal .f32) k := by
  obtain ⟨e00, e01, e10, e11, e20, e21, e30, e31⟩ := at_point2 t
  unfold blk2
  rw [View.read_apply]
  show V c main_v47 _ = V c main_v47 _
  congr 1
  funext a
  apply Fin.ext
  match a with
  | ⟨0, _⟩ => show win2_2.index t (0 : Fin 2) * 2000 + 1 * p.val = (k 0).val; rw [e20, hk0]; omega
  | ⟨1, _⟩ => show win2_2.index t (1 : Fin 2) * 64 + 1 * q.val = (k 1).val; rw [e21, hk1]; omega

/-- The output table as one function of the three input tables as the region finds them. -/
abbrev table2 (c : Dev nD) : FVec Ideal Cert.Spec.Rows .f32 :=
  Cert.Spec.comb 0x40000000#32 0xBF800000#32 (V c main_v75) (V c main_v102) (V c main_v47)

/-- What point t writes back is rows 2000·t … 2000·t + 1999 of that function. -/
theorem wrote2 (c : Dev nD) (t : Fin cfg2.N) :
    (dat2 (F := Ideal) V c).flushed 3 t = ((cfg2.win 3).blk t).view.read (Elt Ideal) (table2 V c) := by
  show (cfg2.win 3).cut (grid2.coords t) ((dat2 V c).after 3 t) = _
  rw [dat2_after3]
  unfold res2
  rw [View.canon_unit_zero origin2]
  simp only [View.ld_unit_zero (S := S2000x64) origin2]
  obtain ⟨e00, e01, e10, e11, e20, e21, e30, e31⟩ := at_point2 t
  funext j
  obtain ⟨p, q, rfl⟩ : ∃ (p : Fin 2000) (q : Fin 64), j = ix2 p q := ⟨j 0, j 1, eq_ix2 j⟩
  show k2_pay1 (blk2 V c 0 t) (blk2 V c 1 t) (blk2 V c 2 t) (ix2 p q)
    = Cert.Spec.comb 0x40000000#32 0xBF800000#32 (V c main_v75) (V c main_v102) (V c main_v47) (((cfg2.win 3).blk t).view.emb (ix2 p q))
  refine (pay2_apply _ _ _ p q).trans ?_
  have hk0 : ((((cfg2.win 3).blk t).view.emb (ix2 p q) : S100000x64.Idx) 0).val = 2000 * t.val + p.val := by
    show win2_3.index t (0 : Fin 2) * 2000 + 1 * p.val = _
    rw [e30]; omega
  have hk1 : ((((cfg2.win 3).blk t).view.emb (ix2 p q) : S100000x64.Idx) 1).val = q.val := by
    show win2_3.index t (1 : Fin 2) * 64 + 1 * q.val = _
    rw [e31]; omega
  rw [blk2_0_apply V c t p q _ hk0 hk1, blk2_1_apply V c t p q _ hk0 hk1, blk2_2_apply V c t p q _ hk0 hk1]
  rfl

/-- A table entry is in point t's block iff each coordinate is in the block's range on its axis. -/
theorem in_block2 (t : Fin cfg2.N) (i : S100000x64.Idx) :
    i ∈ ((cfg2.win 3).blk t).view.set
      ↔ ∀ a : Fin 2, win2_3.index t a * S2000x64.size a ≤ (i a).val ∧ (i a).val < win2_3.index t a * S2000x64.size a + S2000x64.size a := by
  show i ∈ ((View.whole main_v103).slice (win2_3.rect t)).set ↔ _
  rw [View.set_slice_whole, Rect.mem_set_unit]
  exact Iff.rfl

/-- Row r of the table is written by point r / 2000. -/
theorem covered2 (i : S100000x64.Idx) :
    ∃ t : Fin cfg2.N, (cfg2.win 3).flush t = true ∧ i ∈ ((cfg2.win 3).blk t).view.set := by
  have hi0 : (i 0).val < 100000 := (i 0).isLt
  have hi1 : (i 1).val < 64 := (i 1).isLt
  have hN : cfg2.N = 50 := N_2
  have ht : (i 0).val / 2000 < cfg2.N := by rw [hN]; omega
  obtain ⟨e00, e01, e10, e11, e20, e21, e30, e31⟩ := at_point2 ⟨(i 0).val / 2000, ht⟩
  refine ⟨⟨(i 0).val / 2000, ht⟩, flush2_3 _, ?_⟩
  rw [in_block2]
  intro a
  match a with
  | ⟨0, _⟩ =>
    show win2_3.index ⟨(i 0).val / 2000, ht⟩ (0 : Fin 2) * 2000 ≤ (i 0).val
      ∧ (i 0).val < win2_3.index ⟨(i 0).val / 2000, ht⟩ (0 : Fin 2) * 2000 + 2000
    rw [e30]
    show (i 0).val / 2000 * 2000 ≤ (i 0).val ∧ (i 0).val < (i 0).val / 2000 * 2000 + 2000
    omega
  | ⟨1, _⟩ =>
    show win2_3.index ⟨(i 0).val / 2000, ht⟩ (1 : Fin 2) * 64 ≤ (i 1).val
      ∧ (i 1).val < win2_3.index ⟨(i 0).val / 2000, ht⟩ (1 : Fin 2) * 64 + 64
    rw [e31]
    omega

/-- After the region the output table is the combine 2·(a + p) + (−1)·r of the three input tables, entry by entry. -/
theorem arr2 (c : Dev nD) :
    (dat2 (F := Ideal) V c).arrAt 3 cfg2.N
      = Cert.Spec.comb 0x40000000#32 0xBF800000#32 (V c main_v75) (V c main_v102) (V c main_v47) :=
  (dat2 V c).arrAt_eq_of_cover 3 (table2 V c) (fun t _ => wrote2 V c t) covered2

end Cert.KernelIdeal.Val

end
-- ==== Proof.LibPlainMatmul.lean ====
/-
  A plain matrix product read at an index, at the ideal values.

  For the dimension numbers of an ordinary product — an [A, K] matrix times a [K, B] matrix, contracting the left
  operand's columns with the right operand's rows, no batch axis — a `tpu.matmul` into the zero accumulator is, at
  (p, e), the sum over k of L(p, k) · R(k, e): a sum indexed by `Fin K`, with both operands read at indices written by
  coordinates. The contraction index of the library's general statement is re-indexed through its one coordinate, and
  the operand indices it names are computed axis by axis.
-/
import Idealize.ShloMosaic.PureOps.Ideal.Laws
import Idealize.ShloMosaic.Lib.ValueIdx

noncomputable section

namespace Idealize.ShloMosaic.ValueIdx

open Idealize.ShloMosaic

/-- The left operand's index at result index (p, e) and contraction coordinate k is (p, k). -/
theorem plain_lhsIdx (A K B : Nat) (p : Fin A) (e : Fin B) (k : Fin K) :
    (DotDims.plain A K B).lhsIdx (ix2 p e) ((contrEquiv1 (DotDims.plain A K B) K rfl rfl).symm k) = ix2 p k :=
  funext fun a => Fin.ext (by
    match a with
    | ⟨0, _⟩ => rfl
    | ⟨1, _⟩ =>
      exact ((DotDims.plain A K B).lhsIdx_val_of_single (cl := 1) rfl _ _).trans
        (contrEquiv1_symm_val (DotDims.plain A K B) K rfl rfl k))

/-- The right operand's index there is (k, e). -/
theorem plain_rhsIdx (A K B : Nat) (p : Fin A) (e : Fin B) (k : Fin K) :
    (DotDims.plain A K B).rhsIdx (ix2 p e) ((contrEquiv1 (DotDims.plain A K B) K rfl rfl).symm k) = ix2 k e :=
  funext fun a => Fin.ext (by
    match a with
    | ⟨0, _⟩ =>
      exact ((DotDims.plain A K B).rhsIdx_val_of_single (cr := 0) rfl _ _).trans
        (contrEquiv1_symm_val (DotDims.plain A K B) K rfl rfl k)
    | ⟨1, _⟩ => rfl)

/-- A plain [A, K] × [K, B] `tpu.matmul` into the zero accumulator, read at (p, e): Σ_k L(p, k) · R(k, e). -/
theorem matmul_plain_zero_apply (A K B : Nat) {φ₁ φ₂ : FTy} (prec : Option ContractPrecision)
    (lhs : FVec Ideal ⟨2, ![A, K]⟩ φ₁) (rhs : FVec Ideal ⟨2, ![K, B]⟩ φ₂) (p : Fin A) (e : Fin B) :
    FloatOps.matmul (DotDims.plain A K B) prec lhs rhs (constant ⟨2, ![A, B]⟩ .f32 0x00000000#32) (ix2 p e)
      = ∑ k : Fin K, lhs (ix2 p k) * rhs (ix2 k e) := by
  rw [Ideal.matmul_constant_zero_apply, ← Equiv.sum_comp (contrEquiv1 (DotDims.plain A K B) K rfl rfl).symm]
  refine Finset.sum_congr rfl fun k _ => ?_
  rw [plain_lhsIdx, plain_rhsIdx]

end Idealize.ShloMosaic.ValueIdx

end
-- ==== Proof.IPay3.lean ====
/-
  The last step's arithmetic at one entry of a block.

  The body multiplies each of the four 2000×64 table blocks with its own 64 rows of the 256×64 weights (rows 0–63,
  64–127, 128–191, 192–255), adds the four products up from zero, adds the bias row to every row, and keeps the
  positive part. At row p and output feature q this is a sum of four 64-term sums, plus the bias at q, against zero.
  On the extended reals the narrowing of the operands before each product is the identity.
-/
import proofs.«123016_j5669356834169_1_alg».proof.Proof.Gen.KernelIdeal.Skeleton
import proofs.«123016_j5669356834169_1_alg».proof.Proof.LibPlainMatmul
import Idealize.ShloMosaic.Lib.Pipeline.Value
import Idealize.ShloMosaic.Lib.ValueLayout

noncomputable section

namespace Cert.KernelIdeal.Val

open Cert.KernelIdeal.Gen
open Idealize.ShloMosaic Idealize.ShloMosaic.ValueIdx
open scoped BigOperators

/-- The body's dimension numbers are those of an ordinary matrix product: [2000, 64] times [64, 64]. -/
theorem dims_plain : dot_S2000x64_S64x64_S2000x64_1_0_0_1_n_n = DotDims.plain 2000 64 64 := rfl

/-- One partial product at (p, q): the block's row p against column q of the 64 weight rows starting at row off. -/
theorem part_apply {φ₁ φ₂ : FTy} (x : FVec Ideal S2000x64 φ₁) (w : FVec Ideal S256x64 φ₂) (off : Nat) (hoff : off + 64 ≤ 256)
    (h : S256x64.Slices ![off, 0] S64x64) (p : Fin 2000) (q : Fin 64) :
    matmul dot_S2000x64_S64x64_S2000x64_1_0_0_1_n_n none x (extractStridedSlice S64x64 ![off, 0] w h)
        (constant S2000x64 .f32 0x00000000#32) (ix2 p q)
      = ∑ d : Fin 64, x (ix2 p d) * w (ix2 (⟨off + d.val, by omega⟩ : Fin 256) q) := by
  rw [dims_plain]
  refine (matmul_plain_zero_apply 2000 64 64 none x _ p q).trans ?_
  refine Finset.sum_congr rfl fun d _ => ?_
  rw [slice2_axis0_apply off w h d q ⟨off + d.val, by omega⟩ rfl]

/-- The bias row [64], laid as [1, 64] and spread over the 2000 rows, reads the bias of feature q at (p, q). -/
theorem bias_apply {α : Type} (b : S64.Idx → α) (h1 : S64.ShapeCasts S1x64) (h2 : S1x64.Broadcasts S2000x64)
    (p : Fin 2000) (q : Fin 64) : broadcastTo S2000x64 (shapeCast S1x64 b h1) h2 (ix2 p q) = b (ix1 q) :=
  (broadcastTo_1b_ab_apply _ h2 p q).trans (shapeCast_a_1a_apply b h1 0 q)

/-- The body's arithmetic at row p and output feature q: the four partial products added up from zero, plus the bias,
    the positive part kept. -/
theorem pay3_apply (w : Vec Ideal S256x64 .f32) (x0 x1 x2 x3 : Vec Ideal S2000x64 .f32) (b : Vec Ideal S64 .f32)
    (p : Fin 2000) (q : Fin 64) :
    k3_pay1 w x0 x1 x2 x3 b (ix2 p q)
      = max (((((Ideal.ofBits .f32 0x00000000#32
            + ∑ d : Fin 64, x0 (ix2 p d) * w (ix2 (⟨0 + d.val, by omega⟩ : Fin 256) q))
            + ∑ d : Fin 64, x1 (ix2 p d) * w (ix2 (⟨64 + d.val, by omega⟩ : Fin 256) q))
            + ∑ d : Fin 64, x2 (ix2 p d) * w (ix2 (⟨128 + d.val, by omega⟩ : Fin 256) q))
            + ∑ d : Fin 64, x3 (ix2 p d) * w (ix2 (⟨192 + d.val, by omega⟩ : Fin 256) q))
          + b (ix1 q)) (Ideal.ofBits .f32 0x00000000#32) := by
  unfold k3_pay1
  simp only [shapeCast_self]
  refine congrArg₂ max (congrArg₂ (· + ·) (congrArg₂ (· + ·) (congrArg₂ (· + ·) (congrArg₂ (· + ·) (congrArg₂ (· + ·) rfl ?_) ?_) ?_) ?_) ?_) rfl
  · exact part_apply _ _ 0 (by omega) _ p q
  · exact part_apply _ _ 64 (by omega) _ p q
  · exact part_apply _ _ 128 (by omega) _ p q
  · exact part_apply _ _ 192 (by omega) _ p q
  · exact bias_apply _ _ _ p q

end Cert.KernelIdeal.Val

end
-- ==== Proof.IValue3.lean ====
/-
  Region 3, from row blocks to the whole table.

  The grid's point t works on rows 2000·t … 2000·t + 1999: it reads those rows of the four node tables, all of the
  256×64 weights and all of the bias, and writes back, over the same rows of the output table, the four partial products
  added up from zero, plus the bias, positive part kept. Row 2000·t + p of a table is row p of its block; the weights
  and the bias are their one block at every point. Every row r of the 100000 lies in the block of point r / 2000, so
  after the 50 points the output table is that function of the six whole arrays, entry by entry.
-/
import proofs.«123016_j5669356834169_1_alg».proof.Proof.IRegion3
import proofs.«123016_j5669356834169_1_alg».proof.Proof.IPay3
import proofs.«123016_j5669356834169_1_alg».proof.Proof.Spec
import Idealize.ShloMosaic.Lib.Pipeline.Value
import Idealize.ShloMosaic.Lib.ValueIdx

noncomputable section

namespace Cert.KernelIdeal.Val

open Cert.KernelIdeal.Gen Cert.KernelIdeal.Frm
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

open scoped BigOperators

/-- The two zero offsets of a whole-block rectangle, as the constant function. -/
theorem origin3 : (![0, 0] : Fin 2 → Nat) = fun _ => 0 := funext fun a => by fin_cases a <;> rfl
/-- The same for the bias's one axis. -/
theorem origin3b : (![0] : Fin 1 → Nat) = fun _ => 0 := funext fun a => by fin_cases a; rfl

/-- At point t the tables' and the output's block index is (t, 0); the weights' is (0, 0) and the bias's is 0. -/
theorem at_point3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = t.val ∧ win3_3.index t (1 : Fin 2) = 0
    ∧ win3_4.index t (0 : Fin 2) = 0 ∧ win3_4.index t (1 : Fin 2) = 0
    ∧ win3_5.index t (0 : Fin 1) = 0
    ∧ win3_6.index t (0 : Fin 2) = t.val ∧ win3_6.index t (1 : Fin 2) = 0 :=
  (by decide +kernel : ∀ t : Fin grid3.N, _)

/-- Entry (p, q) of table window 0's block at point t is entry (2000·t + p, q) of its table. -/
theorem blk3_0_apply (c : Dev nD) (t : Fin cfg3.N) (p : Fin 2000) (q : Fin 64) (n : Fin 100000)
    (hn : n.val = 2000 * t.val + p.val) :
    (blk3 V c 0 t : Vec Ideal S2000x64 .f32) (ix2 p q) = (V c main_arg0 : S100000x64.Idx → Elt Ideal .f32) (ix2 n q) := by
  obtain ⟨e00, e01, e10, e11, e20, e21, e30, e31, e40, e41, e50, e60, e61⟩ := at_point3 t
  unfold blk3
  rw [View.read_apply]
  show V c main_arg0 _ = V c main_arg0 _
  congr 1
  funext a
  apply Fin.ext
  match a with
  | ⟨0, _⟩ => show win3_0.index t (0 : Fin 2) * 2000 + 1 * p.val = n.val; rw [e00, hn]; omega
  | ⟨1, _⟩ => show win3_0.index t (1 : Fin 2) * 64 + 1 * q.val = q.val; rw [e01]; omega

/-- Entry (p, q) of table window 1's block at point t is entry (2000·t + p, q) of its table. -/
theorem blk3_1_apply (c : Dev nD) (t : Fin cfg3.N) (p : Fin 2000) (q : Fin 64) (n : Fin 100000)
    (hn : n.val = 2000 * t.val + p.val) :
    (blk3 V c 1 t : Vec Ideal S2000x64 .f32) (ix2 p q) = (V c main_v47 : S100000x64.Idx → Elt Ideal .f32) (ix2 n q) := by
  obtain ⟨e00, e01, e10, e11, e20, e21, e30, e31, e40, e41, e50, e60, e61⟩ := at_point3 t
  unfold blk3
  rw [View.read_apply]
  show V c main_v47 _ = V c main_v47 _
  congr 1
  funext a
  apply Fin.ext
  match a with
  | ⟨0, _⟩ => show win3_1.index t (0 : Fin 2) * 2000 + 1 * p.val = n.val; rw [e10, hn]; omega
  | ⟨1, _⟩ => show win3_1.index t (1 : Fin 2) * 64 + 1 * q.val = q.val; rw [e11]; omega

/-- Entry (p, q) of table window 2's block at point t is entry (2000·t + p, q) of its table. -/
theorem blk3_2_apply (c : Dev nD) (t : Fin cfg3.N) (p : Fin 2000) (q : Fin 64) (n : Fin 100000)
    (hn : n.val = 2000 * t.val + p.val) :
    (blk3 V c 2 t : Vec Ideal S2000x64 .f32) (ix2 p q) = (V c main_v75 : S100000x64.Idx → Elt Ideal .f32) (ix2 n q) := by
  obtain ⟨e00, e01, e10, e11, e20, e21, e30, e31, e40, e41, e50, e60, e61⟩ := at_point3 t
  unfold blk3
  rw [View.read_apply]
  show V c main_v75 _ = V c main_v75 _
  congr 1
  funext a
  apply Fin.ext
  match a with
  | ⟨0, _⟩ => show win3_2.index t (0 : Fin 2) * 2000 + 1 * p.val = n.val; rw [e20, hn]; omega
  | ⟨1, _⟩ => show win3_2.index t (1 : Fin 2) * 64 + 1 * q.val = q.val; rw [e21]; omega

/-- Entry (p, q) of table window 3's block at point t is entry (2000·t + p, q) of its table. -/
theorem blk3_3_apply (c : Dev nD) (t : Fin cfg3.N) (p : Fin 2000) (q : Fin 64) (n : Fin 100000)
    (hn : n.val = 2000 * t.val + p.val) :
    (blk3 V c 3 t : Vec Ideal S2000x64 .f32) (ix2 p q) = (V c main_v103 : S100000x64.Idx → Elt Ideal .f32) (ix2 n q) := by
  obtain ⟨e00, e01, e10, e11, e20, e21, e30, e31, e40, e41, e50, e60, e61⟩ := at_point3 t
  unfold blk3
  rw [View.read_apply]
  show V c main_v103 _ = V c main_v103 _
  congr 1
  funext a
  apply Fin.ext
  match a with
  | ⟨0, _⟩ => show win3_3.index t (0 : Fin 2) * 2000 + 1 * p.val = n.val; rw [e30, hn]; omega
  | ⟨1, _⟩ => show win3_3.index t (1 : Fin 2) * 64 + 1 * q.val = q.val; rw [e31]; omega

/-- The weights' block at any point is the whole weight table. -/
theorem blk3_4_apply (c : Dev nD) (t : Fin cfg3.N) (r : Fin 256) (q : Fin 64) :
    (blk3 V c 4 t : Vec Ideal S256x64 .f32) (ix2 r q) = (V c main_arg3 : S256x64.Idx → Elt Ideal .f32) (ix2 r q) := by
  obtain ⟨e00, e01, e10, e11, e20, e21, e30, e31, e40, e41, e50, e60, e61⟩ := at_point3 t
  unfold blk3
  rw [View.read_apply]
  show V c main_arg3 _ = V c main_arg3 _
  congr 1
  funext a
  apply Fin.ext
  match a with
  | ⟨0, _⟩ => show win3_4.index t (0 : Fin 2) * 256 + 1 * r.val = r.val; rw [e40]; omega
  | ⟨1, _⟩ => show win3_4.index t (1 : Fin 2) * 64 + 1 * q.val = q.val; rw [e41]; omega

/-- The bias's block at any point is the whole bias. -/
theorem blk3_5_apply (c : Dev nD) (t : Fin cfg3.N) (q : Fin 64) :
    (blk3 V c 5 t : Vec Ideal S64 .f32) (ix1 q) = (V c main_arg4 : S64.Idx → Elt Ideal .f32) (ix1 q) := by
  obtain ⟨e00, e01, e10, e11, e20, e21, e30, e31, e40, e41, e50, e60, e61⟩ := at_point3 t
  unfold blk3
  rw [View.read_apply]
  show V c main_arg4 _ = V c main_arg4 _
  congr 1
  funext a
  apply Fin.ext
  match a with
  | ⟨0, _⟩ => show win3_5.index t (0 : Fin 1) * 64 + 1 * q.val = q.val; rw [e50]; omega

/-- One partial product read off the blocks is the same product read off the whole arrays. -/
theorem part3_eq (c : Dev nD) (t : Fin cfg3.N) (p : Fin 2000) (q : Fin 64) (n : Fin 100000) (hn : n.val = 2000 * t.val + p.val)
    (off : Nat) (hoff : off + 64 ≤ 256) (x : Vec Ideal S2000x64 .f32) (T : S100000x64.Idx → Elt Ideal .f32)
    (hx : ∀ d : Fin 64, x (ix2 p d) = T (ix2 n d)) :
    (∑ d : Fin 64, x (ix2 p d) * (blk3 V c 4 t : Vec Ideal S256x64 .f32) (ix2 (⟨off + d.val, by omega⟩ : Fin 256) q))
      = Cert.Spec.part T (V c main_arg3) off hoff n q := by
  unfold Cert.Spec.part
  refine Finset.sum_congr rfl fun d _ => ?_
  rw [hx d, blk3_4_apply V c t _ q]

/-- The output table as one function of the four tables, the weights and the bias as the region finds them. -/
abbrev table3 (c : Dev nD) : FVec Ideal Cert.Spec.Rows .f32 :=
  Cert.Spec.mm (V c main_arg0) (V c main_v47) (V c main_v75) (V c main_v103) (V c main_arg3) (V c main_arg4)

/-- What point t writes back is rows 2000·t … 2000·t + 1999 of that function. -/
theorem wrote3 (c : Dev nD) (t : Fin cfg3.N) :
    (dat3 (F := Ideal) V c).flushed 6 t = ((cfg3.win 6).blk t).view.read (Elt Ideal) (table3 V c) := by
  show (cfg3.win 6).cut (grid3.coords t) ((dat3 V c).after 6 t) = _
  rw [dat3_after6]
  unfold res3
  rw [View.canon_unit_zero origin3]
  simp only [View.ld_unit_zero (S := S2000x64) origin3, View.ld_unit_zero (S := S256x64) origin3,
    View.ld_unit_zero (S := S64) origin3b]
  obtain ⟨e00, e01, e10, e11, e20, e21, e30, e31, e40, e41, e50, e60, e61⟩ := at_point3 t
  have hN : cfg3.N = 50 := N_3
  have ht : t.val < 50 := by have := t.isLt; omega
  funext j
  obtain ⟨p, q, rfl⟩ : ∃ (p : Fin 2000) (q : Fin 64), j = ix2 p q := ⟨j 0, j 1, eq_ix2 j⟩
  have hemb : (((cfg3.win 6).blk t).view.emb (ix2 p q) : S100000x64.Idx)
      = ix2 (⟨2000 * t.val + p.val, by omega⟩ : Fin 100000) q := by
    funext a
    apply Fin.ext
    match a with
    | ⟨0, _⟩ => show win3_6.index t (0 : Fin 2) * 2000 + 1 * p.val = 2000 * t.val + p.val; rw [e60]; omega
    | ⟨1, _⟩ => show win3_6.index t (1 : Fin 2) * 64 + 1 * q.val = q.val; rw [e61]; omega
  show k3_pay1 (blk3 V c 4 t) (blk3 V c 0 t) (blk3 V c 1 t) (blk3 V c 2 t) (blk3 V c 3 t) (blk3 V c 5 t) (ix2 p q)
    = Cert.Spec.mm (V c main_arg0) (V c main_v47) (V c main_v75) (V c main_v103) (V c main_arg3) (V c main_arg4)
        (((cfg3.win 6).blk t).view.emb (ix2 p q))
  rw [hemb]
  refine (pay3_apply _ _ _ _ _ _ p q).trans ?_
  unfold Cert.Spec.mm Cert.Spec.dot4
  refine congrArg₂ max (congrArg₂ (· + ·) (congrArg₂ (· + ·) (congrArg₂ (· + ·) (congrArg₂ (· + ·) (congrArg₂ (· + ·) rfl ?_) ?_) ?_) ?_) ?_) rfl
  · exact part3_eq V c t p q _ rfl 0 (by omega) _ _ fun d => blk3_0_apply V c t p d _ rfl
  · exact part3_eq V c t p q _ rfl 64 (by omega) _ _ fun d => blk3_1_apply V c t p d _ rfl
  · exact part3_eq V c t p q _ rfl 128 (by omega) _ _ fun d => blk3_2_apply V c t p d _ rfl
  · exact part3_eq V c t p q _ rfl 192 (by omega) _ _ fun d => blk3_3_apply V c t p d _ rfl
  · exact blk3_5_apply V c t q

/-- A table entry is in point t's block iff each coordinate is in the block's range on its axis. -/
theorem in_block3 (t : Fin cfg3.N) (i : S100000x64.Idx) :
    i ∈ ((cfg3.win 6).blk t).view.set
      ↔ ∀ a : Fin 2, win3_6.index t a * S2000x64.size a ≤ (i a).val ∧ (i a).val < win3_6.index t a * S2000x64.size a + S2000x64.size a := by
  show i ∈ ((View.whole main_v104).slice (win3_6.rect t)).set ↔ _
  rw [View.set_slice_whole, Rect.mem_set_unit]
  exact Iff.rfl

/-- Row r of the table is written by point r / 2000. -/
theorem covered3 (i : S100000x64.Idx) :
    ∃ t : Fin cfg3.N, (cfg3.win 6).flush t = true ∧ i ∈ ((cfg3.win 6).blk t).view.set := by
  have hi0 : (i 0).val < 100000 := (i 0).isLt
  have hi1 : (i 1).val < 64 := (i 1).isLt
  have hN : cfg3.N = 50 := N_3
  have ht : (i 0).val / 2000 < cfg3.N := by rw [hN]; omega
  obtain ⟨e00, e01, e10, e11, e20, e21, e30, e31, e40, e41, e50, e60, e61⟩ := at_point3 ⟨(i 0).val / 2000, ht⟩
  refine ⟨⟨(i 0).val / 2000, ht⟩, flush3_6 _, ?_⟩
  rw [in_block3]
  intro a
  match a with
  | ⟨0, _⟩ =>
    show win3_6.index ⟨(i 0).val / 2000, ht⟩ (0 : Fin 2) * 2000 ≤ (i 0).val
      ∧ (i 0).val < win3_6.index ⟨(i 0).val / 2000, ht⟩ (0 : Fin 2) * 2000 + 2000
    rw [e60]
    show (i 0).val / 2000 * 2000 ≤ (i 0).val ∧ (i 0).val < (i 0).val / 2000 * 2000 + 2000
    omega
  | ⟨1, _⟩ =>
    show win3_6.index ⟨(i 0).val / 2000, ht⟩ (1 : Fin 2) * 64 ≤ (i 1).val
      ∧ (i 1).val < win3_6.index ⟨(i 0).val / 2000, ht⟩ (1 : Fin 2) * 64 + 64
    rw [e61]
    omega

/-- After the region the output table is, entry by entry, the four partial products of the tables against the weights'
    row groups added up from zero, plus the bias, positive part kept. -/
theorem arr3 (c : Dev nD) :
    (dat3 (F := Ideal) V c).arrAt 6 cfg3.N
      = Cert.Spec.mm (V c main_arg0) (V c main_v47) (V c main_v75) (V c main_v103) (V c main_arg3) (V c main_arg4) :=
  (dat3 V c).arrAt_eq_of_cover 6 (table3 V c) (fun t _ => wrote3 V c t) covered3

end Cert.KernelIdeal.Val

end
-- ==== Proof.RefProp.lean ====
/-
  The graph propagation, named once.

  The reference applies one and the same chain of host operations three times: gather the rows of a node table by
  the edges' source nodes, scale each gathered row by the source's normalisation and by the edge weight, add the
  rows up by the edges' destination nodes, negate, and scale each row by the destination's normalisation. Only the
  node table changes from one application to the next: first the input table, then the first combined table, then
  the second. The chain is kept as ONE function P of the table (the edges and their weights fixed); the second and
  third applications are P of the table before them, by the names of the stages alone.
-/
import proofs.«123016_j5669356834169_1_alg».proof.Proof.Gen.ReferenceIdeal.Read

noncomputable section

namespace Cert.ReferenceIdeal.RefValue

open Cert.ReferenceIdeal Cert.ReferenceIdeal.Gen Idealize.ShloMosaic

/-- A node table: 100000 rows of 64 features, entries extended reals. -/
abbrev Tab : Type := FVec Ideal S100000x64 .f32
/-- The edge list: 1250000 pairs (source, destination). -/
abbrev Edges : Type := (⟨S1250000x2, .i32⟩ : BufTy).Contents (Elt Ideal)
/-- The edge weights. -/
abbrev EdgeWts : Type := FVec Ideal S1250000 .f32

/-- The propagation of a node table along the weighted edges. -/
abbrev P (ei : Edges) (ew : EdgeWts) (h : Tab) : Tab := Read.val_main_v46 (F := Ideal) h ei ew

/-- The second propagation is P of the first combined table. -/
theorem prop1 (x : Tab) (ei : Edges) (ew : EdgeWts) :
    Read.val_main_v74 (F := Ideal) x ei ew = P ei ew (Read.val_main_v47 (F := Ideal) x ei ew) := rfl

/-- The third propagation is P of the second combined table. -/
theorem prop2 (x : Tab) (ei : Edges) (ew : EdgeWts) :
    Read.val_main_v105 (F := Ideal) x ei ew = P ei ew (Read.val_main_v78 (F := Ideal) x ei ew) := rfl

end Cert.ReferenceIdeal.RefValue

end
-- ==== Proof.IStretch01.lean ====
/-
  The kernel program's host stretches compute the graph propagation.

  Between its four kernels the program runs the same chain of host operations three times: from the edge list, the
  sources (column 0) and destinations (column 1); from the edge weights added up by source and by destination, the
  two inverse-root degree vectors; then gather the rows of a node table by source, scale by the source's
  inverse-root degree and by the edge weight, add up by destination, negate, scale by the destination's inverse-root
  degree. The first stretch does all of it for the input table; the second reuses the sources, destinations and
  degree vectors the first one left in their buffers and applies the chain to whatever table the first kernel left.
  Both are the propagation P of the reference, operation by operation.
-/
import proofs.«123016_j5669356834169_1_alg».proof.Proof.Gen.KernelIdeal.Launch
import Idealize.ShloMosaic.Lib.StableHlo.Run
import proofs.«123016_j5669356834169_1_alg».proof.Proof.RefProp

set_option maxRecDepth 8192

noncomputable section

namespace Cert.KernelIdeal.Val

open Cert.KernelIdeal Cert.KernelIdeal.Gen Idealize.ShloMosaic Idealize.ShloMosaic.TcCoe Idealize.ShloMosaic.StableHlo

/-- After the first stretch the sources buffer holds column 0 of the edge list. -/
theorem stretch0_src (W0 : Valuation τ sig (Elt Ideal)) :
    StableHlo.after (hostOps0 (F := Ideal)) W0 main_v1 = Cert.ReferenceIdeal.Read.val_main_v1 (F := Ideal) (W0 main_arg1) := by
  after_results_simp <;> rfl

/-- After the first stretch the destinations buffer holds column 1 of the edge list. -/
theorem stretch0_dst (W0 : Valuation τ sig (Elt Ideal)) :
    StableHlo.after (hostOps0 (F := Ideal)) W0 main_v3 = Cert.ReferenceIdeal.Read.val_main_v3 (F := Ideal) (W0 main_arg1) := by
  after_results_simp <;> rfl

/-- After the first stretch: the inverse-root degrees by source. -/
theorem stretch0_dsrc (W0 : Valuation τ sig (Elt Ideal)) :
    StableHlo.after (hostOps0 (F := Ideal)) W0 main_v14
      = Cert.ReferenceIdeal.Read.val_main_v14 (F := Ideal) (W0 main_arg1) (W0 main_arg2) := by
  after_results_simp <;> rfl

/-- After the first stretch: the inverse-root degrees by destination. -/
theorem stretch0_ddst (W0 : Valuation τ sig (Elt Ideal)) :
    StableHlo.after (hostOps0 (F := Ideal)) W0 main_v19
      = Cert.ReferenceIdeal.Read.val_main_v19 (F := Ideal) (W0 main_arg1) (W0 main_arg2) := by
  after_results_simp <;> rfl

/-- The first stretch leaves the edge weights as they were. -/
theorem stretch0_wts (W0 : Valuation τ sig (Elt Ideal)) :
    StableHlo.after (hostOps0 (F := Ideal)) W0 main_arg2 = W0 main_arg2 := by
  after_results_simp <;> rfl

set_option maxHeartbeats 4000000 in
/-- The first stretch leaves the propagation of the input table. -/
theorem stretch0 (W0 : Valuation τ sig (Elt Ideal)) :
    StableHlo.after (hostOps0 (F := Ideal)) W0 main_v46
      = Cert.ReferenceIdeal.RefValue.P (W0 main_arg1) (W0 main_arg2) (W0 main_arg0) := by
  after_results_simp <;> rfl

/-- The second stretch's chain over any buffer contents that hold a table in the buffer the first kernel writes and
    the sources, destinations, degree vectors and edge weights where the first stretch leaves them: it leaves the
    propagation of that table. -/
theorem stretch1_of (W : Valuation τ sig (Elt Ideal)) (ei : Cert.ReferenceIdeal.RefValue.Edges)
    (ew : Cert.ReferenceIdeal.RefValue.EdgeWts) (h : Cert.ReferenceIdeal.RefValue.Tab)
    (h47 : W main_v47 = h) (h1 : W main_v1 = Cert.ReferenceIdeal.Read.val_main_v1 (F := Ideal) ei)
    (h3 : W main_v3 = Cert.ReferenceIdeal.Read.val_main_v3 (F := Ideal) ei)
    (h14 : W main_v14 = Cert.ReferenceIdeal.Read.val_main_v14 (F := Ideal) ei ew)
    (h19 : W main_v19 = Cert.ReferenceIdeal.Read.val_main_v19 (F := Ideal) ei ew) (h2 : W main_arg2 = ew) :
    StableHlo.after (hostOps1 (F := Ideal)) W main_v74 = Cert.ReferenceIdeal.RefValue.P ei ew h := by
  after_results_simp
  rw [h47, h1, h3, h14, h19, h2]
  rfl

/-- The second stretch, run from what the first stretch left with the first kernel's table written over its output
    buffer, leaves the propagation of that table. -/
theorem stretch1 (W0 : Valuation τ sig (Elt Ideal)) (X : (main_v47 : DevRef τ sig).ty.Contents (Elt Ideal)) :
    StableHlo.after (hostOps1 (F := Ideal))
        (Function.update (StableHlo.after (hostOps0 (F := Ideal)) W0) main_v47 X) main_v74
      = Cert.ReferenceIdeal.RefValue.P (W0 main_arg1) (W0 main_arg2) X :=
  stretch1_of _ (W0 main_arg1) (W0 main_arg2) X (Function.update_self _ _ _)
    ((Function.update_of_ne (StableHlo.devRef_ne_of_ne (by decide)) _ _).trans (stretch0_src W0))
    ((Function.update_of_ne (StableHlo.devRef_ne_of_ne (by decide)) _ _).trans (stretch0_dst W0))
    ((Function.update_of_ne (StableHlo.devRef_ne_of_ne (by decide)) _ _).trans (stretch0_dsrc W0))
    ((Function.update_of_ne (StableHlo.devRef_ne_of_ne (by decide)) _ _).trans (stretch0_ddst W0))
    ((Function.update_of_ne (StableHlo.devRef_ne_of_ne (by decide)) _ _).trans (stretch0_wts W0))

end Cert.KernelIdeal.Val

end
-- ==== Proof.IStretch2.lean ====
/-
  The third stretch of host operations is the graph propagation of the second combined table.

  Between the second and the third combine the program propagates the table the second combine left: it gathers the
  table's rows by the edges' source nodes, scales each gathered row by the source's normalisation and by the edge
  weight, adds the rows up by the edges' destination nodes, negates, and scales each row by the destination's
  normalisation. The edges' endpoints and the two normalisations were computed once, by the first stretch, from the
  edge list and the edge weights, and nothing since has written them: the two stretches in between write other
  buffers, and each combine overwrites one table only. So the stretch's result is the propagation — the same chain of
  operations the reference applies — of that table along the launch's edges and weights.
-/
import proofs.«123016_j5669356834169_1_alg».proof.Proof.Gen.KernelIdeal.Regions
import proofs.«123016_j5669356834169_1_alg».proof.Proof.RefProp
import Idealize.ShloMosaic.Lib.StableHlo.Run

noncomputable section

namespace Cert.KernelIdeal.Val

open Cert.KernelIdeal.Gen
open Idealize.ShloMosaic Idealize.ShloMosaic.TcCoe Idealize.ShloMosaic.StableHlo
open Cert.ReferenceIdeal.RefValue (P Tab Edges EdgeWts)

/-- After the first stretch the edges' source nodes are the first column of the edge list. -/
theorem first_src (W0 : Valuation τ sig (Elt Ideal)) :
    StableHlo.after hostOps0 W0 main_v1 = Cert.ReferenceIdeal.Read.val_main_v1 (F := Ideal) (W0 main_arg1) := by
  after_results_simp <;> rfl

/-- After the first stretch the edges' destination nodes are the second column of the edge list. -/
theorem first_dst (W0 : Valuation τ sig (Elt Ideal)) :
    StableHlo.after hostOps0 W0 main_v3 = Cert.ReferenceIdeal.Read.val_main_v3 (F := Ideal) (W0 main_arg1) := by
  after_results_simp <;> rfl

/-- After the first stretch the sources' normalisation is the reference's, of the edge list and the weights. -/
theorem first_nsrc (W0 : Valuation τ sig (Elt Ideal)) :
    StableHlo.after hostOps0 W0 main_v14 = Cert.ReferenceIdeal.Read.val_main_v14 (F := Ideal) (W0 main_arg1) (W0 main_arg2) := by
  after_results_simp <;> rfl

/-- After the first stretch the destinations' normalisation is the reference's, of the edge list and the weights. -/
theorem first_ndst (W0 : Valuation τ sig (Elt Ideal)) :
    StableHlo.after hostOps0 W0 main_v19 = Cert.ReferenceIdeal.Read.val_main_v19 (F := Ideal) (W0 main_arg1) (W0 main_arg2) := by
  after_results_simp <;> rfl

/-- A buffer that neither the first two combines' outputs nor the second stretch writes holds, when the third stretch
    starts, what the first stretch left in it. -/
theorem kept_to_third (W0 : Valuation τ sig (Elt Ideal)) (X1 : (main_v47 : DevRef τ sig).ty.Contents (Elt Ideal))
    (X2 : (main_v75 : DevRef τ sig).ty.Contents (Elt Ideal)) (r : Ref sig .tc)
    (h75 : r ≠ main_v75) (hW : r ∉ hostOps1_W) (h47 : r ≠ main_v47) :
    Function.update (StableHlo.after hostOps1 (Function.update (StableHlo.after hostOps0 W0) main_v47 X1)) main_v75 X2 r
      = StableHlo.after hostOps0 W0 r := by
  rw [Function.update_of_ne (StableHlo.devRef_ne_of_ne h75), StableHlo.after_of_writes_sub hostOps1 _ hostOps1_writes hW,
    Function.update_of_ne (StableHlo.devRef_ne_of_ne h47)]

/-- The third stretch from any contents: its result is the propagation of the table it finds, when the endpoints, the
    normalisations and the weights it finds are the reference's. -/
theorem third_prop (W : Valuation τ sig (Elt Ideal)) (h : Tab) (ei : Edges) (ew : EdgeWts)
    (h75 : W main_v75 = h) (h1 : W main_v1 = Cert.ReferenceIdeal.Read.val_main_v1 (F := Ideal) ei)
    (h3 : W main_v3 = Cert.ReferenceIdeal.Read.val_main_v3 (F := Ideal) ei) (h14 : W main_v14 = Cert.ReferenceIdeal.Read.val_main_v14 (F := Ideal) ei ew)
    (h19 : W main_v19 = Cert.ReferenceIdeal.Read.val_main_v19 (F := Ideal) ei ew) (h2 : W main_arg2 = ew) :
    StableHlo.after hostOps2 W main_v102 = P ei ew h := by
  after_results_simp
  rw [h75, h1, h3, h14, h19, h2]
  rfl

/-- The third stretch's result, with the first two combines' outputs anything: the propagation of the second
    combined table along the launch's edges and weights. -/
theorem stretch2 (W0 : Valuation τ sig (Elt Ideal)) (X1 : (main_v47 : DevRef τ sig).ty.Contents (Elt Ideal))
    (X2 : (main_v75 : DevRef τ sig).ty.Contents (Elt Ideal)) :
    StableHlo.after hostOps2
        (Function.update (StableHlo.after hostOps1 (Function.update (StableHlo.after hostOps0 W0) main_v47 X1)) main_v75 X2)
        main_v102
      = P (W0 main_arg1) (W0 main_arg2) X2 :=
  third_prop _ X2 (W0 main_arg1) (W0 main_arg2) (Function.update_self _ _ _)
    ((kept_to_third W0 X1 X2 main_v1 (by decide) (by decide) (by decide)).trans (first_src W0))
    ((kept_to_third W0 X1 X2 main_v3 (by decide) (by decide) (by decide)).trans (first_dst W0))
    ((kept_to_third W0 X1 X2 main_v14 (by decide) (by decide) (by decide)).trans (first_nsrc W0))
    ((kept_to_third W0 X1 X2 main_v19 (by decide) (by decide) (by decide)).trans (first_ndst W0))
    ((kept_to_third W0 X1 X2 main_arg2 (by decide) (by decide) (by decide)).trans
      (StableHlo.after_of_writes_sub hostOps0 _ hostOps0_writes (by decide)))

end Cert.KernelIdeal.Val

end
-- ==== Proof.LibLogistic.lean ====
/-
  A sigmoid spelt out on the host — negate, exponential, add one, divide into one, both ones the float 1.0 — is the
  logistic function on the extended reals.

  The pattern 0x3F800000 has sign 0, exponent field 127 and fraction field 0, so it denotes
  (2^23 + 0) · 2^(127 − 127 − 23) = 1. The logistic function is by definition the quotient 1 / (1 + e^(−x)) taken
  with the extended reals' division (at −∞ the denominator is +∞ and the value 0; at +∞ the denominator is 1 and the
  value 1), so once both literals read as 1 the spelt expression IS the logistic function, with no case split.
-/
import Idealize.ShloMosaic.PureOps.Ideal
import Idealize.ShloMosaic.PureOps.Ideal.Laws

noncomputable section

namespace Cert.LibLogistic

open Idealize.ShloMosaic

/-- The float pattern of 1.0 denotes the extended real 1: (2^23 + 0) · 2^(127 − 127 − 23). -/
theorem one_f32 : Ideal.ofBits .f32 0x3F800000#32 = 1 := by
  simp [Ideal.ofBits, Ideal.ieee]
  rw [← EReal.coe_mul]
  norm_num

/-- 1 / (1 + e^(−x)), both ones spelt by the pattern of 1.0, is the logistic function of x. -/
theorem sigmoid_spelt (x : EReal) :
    Ideal.div (Ideal.ofBits .f32 0x3F800000#32) (Ideal.ofBits .f32 0x3F800000#32 + Ideal.exp (-x)) = Ideal.logistic x := by
  rw [one_f32]; rfl

end Cert.LibLogistic

end
-- ==== Proof.RefTabs.lean ====
/-
  The three combined tables of the reference are the combine step applied three times.

  With P the propagation, the reference forms  h1 = x + P x,  h2 = 2·(h1 + P h1) − x,  h3 = 2·(h2 + P h2) − h1.
  The combine step α·(a + p) + β·r gives the same tables from the coefficient pairs (1, 0), (2, −1), (2, −1):
    1·(x + P x) + 0·x = x + P x, because 1·y = y and 0·y = 0 on the extended reals (0·(±∞) = 0 there);
    2·(h + P h) + (−1)·r = 2·(h + P h) − r, because (−1)·r = −r and a − r = a + (−r) hold for every extended real.
  The float word of 2.0 is the same word on both sides and is never evaluated; the word of 1.0 reads as 1, the
  word of 0.0 as 0, the word of −1.0 (sign 1, exponent field 127, fraction 0) as −(2^23)·2^(−23) = −1.
-/
import proofs.«123016_j5669356834169_1_alg».proof.Proof.RefProp
import proofs.«123016_j5669356834169_1_alg».proof.Proof.Spec
import proofs.«123016_j5669356834169_1_alg».proof.Proof.LibLogistic

noncomputable section

namespace Cert.ReferenceIdeal.RefValue

open Cert.ReferenceIdeal Cert.ReferenceIdeal.Gen Idealize.ShloMosaic

/-- The float word of −1.0 denotes the real −1. -/
theorem word_neg_one_real : Ideal.ofBits .f32 0xBF800000#32 = ((-1 : ℝ) : EReal) := by
  simp [Ideal.ofBits, Ideal.ieee, -EReal.coe_mul, -EReal.coe_neg]; norm_num

/-- The float word of −1.0 denotes −1. -/
theorem word_neg_one : Ideal.ofBits .f32 0xBF800000#32 = -1 := by
  rw [word_neg_one_real]; simp

/-- The first combined table: 1·(x + P x) + 0·x. -/
def tab1 (x : Tab) (ei : Edges) (ew : EdgeWts) : Tab :=
  Cert.Spec.comb 0x3F800000#32 0x00000000#32 x (P ei ew x) x

/-- The second combined table: 2·(b1 + P b1) + (−1)·x. -/
def tab2 (x : Tab) (ei : Edges) (ew : EdgeWts) : Tab :=
  Cert.Spec.comb 0x40000000#32 0xBF800000#32 (tab1 x ei ew) (P ei ew (tab1 x ei ew)) x

/-- The third combined table: 2·(b2 + P b2) + (−1)·b1. -/
def tab3 (x : Tab) (ei : Edges) (ew : EdgeWts) : Tab :=
  Cert.Spec.comb 0x40000000#32 0xBF800000#32 (tab2 x ei ew) (P ei ew (tab2 x ei ew)) (tab1 x ei ew)

/-- The combine step with coefficients (1, 0) adds the propagated table: 1·(a + p) + 0·r = a + p. -/
theorem comb_one_zero (a p r : Tab) : Cert.Spec.comb 0x3F800000#32 0x00000000#32 a p r = fun i => a i + p i := by
  funext i
  unfold Cert.Spec.comb
  rw [Cert.LibLogistic.one_f32, Ideal.ofBits_zero_f32, one_mul, zero_mul, add_zero]

/-- The combine step with coefficients (2, −1): 2·(a + p) + (−1)·r = 2·(a + p) − r. -/
theorem comb_two_neg_one (a p r : Tab) :
    Cert.Spec.comb 0x40000000#32 0xBF800000#32 a p r = fun i => Ideal.ofBits .f32 0x40000000#32 * (a i + p i) - r i := by
  funext i
  unfold Cert.Spec.comb
  rw [word_neg_one, neg_one_mul, sub_eq_add_neg]

/-- The first combined table is the reference's h1 = x + P x. -/
theorem tab1_eq (x : Tab) (ei : Edges) (ew : EdgeWts) : tab1 x ei ew = Read.val_main_v47 (F := Ideal) x ei ew := by
  unfold tab1
  rw [comb_one_zero]
  rfl

/-- The second combined table is the reference's h2 = 2·(h1 + P h1) − x. -/
theorem tab2_eq (x : Tab) (ei : Edges) (ew : EdgeWts) : tab2 x ei ew = Read.val_main_v78 (F := Ideal) x ei ew := by
  unfold tab2
  rw [tab1_eq, comb_two_neg_one]
  funext i
  rw [Read.val_main_v78_apply, Read.val_main_v77_apply, Read.val_main_v76_apply, Read.val_main_cst_14_apply,
    Read.val_main_v75_apply, prop1] <;> rfl

/-- The third combined table is the reference's h3 = 2·(h2 + P h2) − h1. -/
theorem tab3_eq (x : Tab) (ei : Edges) (ew : EdgeWts) : tab3 x ei ew = Read.val_main_v109 (F := Ideal) x ei ew := by
  unfold tab3
  rw [tab2_eq, tab1_eq, comb_two_neg_one]
  funext i
  rw [Read.val_main_v109_apply, Read.val_main_v108_apply, Read.val_main_v107_apply, Read.val_main_cst_20_apply,
    Read.val_main_v106_apply, prop2] <;> rfl

end Cert.ReferenceIdeal.RefValue

end
-- ==== Proof.LibPaddedSum.lean ====
/-
  Sums over a zero-padded axis. An axis of extent `m` padded with `n` trailing entries splits as the first `m`
  indices and the last `n`; where both factors of a product are padded with zero the padding contributes
  `0 · 0 = 0`, so the sum of products over the padded axis is the sum over the original one. Stated over any
  commutative additive monoid with a multiplication in which `0 · 0 = 0` (the extended reals are one: no distributivity is used).
-/
import Mathlib.Algebra.BigOperators.Fin

namespace PaddedSum

open Finset

variable {M : Type*} [AddCommMonoid M]

/-- A sum over `Fin R`, `R = m + n`, is the sum over the first `m` indices plus the sum over the last `n`. -/
theorem sum_split {R m n : ℕ} (h : m + n = R) (f : Fin R → M) :
    ∑ j, f j = ∑ i : Fin m, f ⟨i.val, by omega⟩ + ∑ i : Fin n, f ⟨m + i.val, by omega⟩ := by
  subst h
  rw [Fin.sum_univ_add]
  rfl

/-- `x` extended by a constant `z` past its extent. -/
def pad {m : ℕ} {α : Type*} (R : ℕ) (z : α) (x : Fin m → α) (j : Fin R) : α :=
  if hj : j.val < m then x ⟨j.val, hj⟩ else z

/-- The sum of products of two zero-padded rows over the padded axis is the sum over the original axis. -/
theorem sum_mul_pad [Mul M] (hz : (0 : M) * 0 = 0) {R m n : ℕ} (h : m + n = R) (a b : Fin m → M) (A B : Fin R → M)
    (hA : ∀ j, A j = pad R 0 a j) (hB : ∀ j, B j = pad R 0 b j) :
    ∑ j, A j * B j = ∑ i, a i * b i := by
  rw [sum_split h]
  have h2 : ∑ i : Fin n, A ⟨m + i.val, by omega⟩ * B ⟨m + i.val, by omega⟩ = 0 := by
    apply sum_eq_zero
    intro i _
    rw [hA, hB, pad, pad, dif_neg (by simp), dif_neg (by simp), hz]
  rw [h2, add_zero]
  apply sum_congr rfl
  intro i _
  rw [hA, hB, pad, pad, dif_pos (by simp), dif_pos (by simp)]

end PaddedSum
-- ==== Proof.RefBlocks.lean ====
/-
  Four tables side by side, and a sum over their 256 columns.

  Four tables of 64 columns set side by side make one table of 256 columns: column off + d of the joined table, for
  off = 0, 64, 128, 192 and d < 64, is column d of the table that starts at off. A sum over the 256 columns is
  therefore the sum of four sums over 64 columns, one per table, added in the order the tables stand.
-/
import Idealize.ShloMosaic.Lib.Pipeline.Value
import Idealize.ShloMosaic.Lib.ValueIdx
import proofs.«123016_j5669356834169_1_alg».proof.Proof.LibPaddedSum

noncomputable section

namespace Cert.ReferenceIdeal.RefValue

open Idealize.ShloMosaic Idealize.ShloMosaic.ValueIdx
open scoped BigOperators

/-- A sum over 256 indices is the sum over the four blocks of 64, added in order. -/
theorem sum_four_blocks {M : Type*} [AddCommMonoid M] (f : Fin 256 → M) :
    ∑ k, f k = (((∑ d : Fin 64, f ⟨0 + d.val, by omega⟩) + ∑ d : Fin 64, f ⟨64 + d.val, by omega⟩)
      + ∑ d : Fin 64, f ⟨128 + d.val, by omega⟩) + ∑ d : Fin 64, f ⟨192 + d.val, by omega⟩ := by
  rw [PaddedSum.sum_split (show 192 + 64 = 256 from rfl) f,
    PaddedSum.sum_split (show 128 + 64 = 192 from rfl) (fun i : Fin 192 => f ⟨i.val, by omega⟩),
    PaddedSum.sum_split (show 64 + 64 = 128 from rfl) (fun i : Fin 128 => f ⟨i.val, by omega⟩)]
  refine congrArg (· + _) (congrArg (· + _) (congrArg (· + _) ?_))
  exact Finset.sum_congr rfl fun d _ => congrArg f (Fin.ext (Nat.zero_add _).symm)

variable {α : Type}

/-- The four 64-column tables as the list a concatenation takes. -/
abbrev four (t0 t1 t2 t3 : (⟨2, ![100000, 64]⟩ : Shape).Idx → α) : List ((s : Shape) × (s.Idx → α)) :=
  [⟨⟨2, ![100000, 64]⟩, t0⟩, ⟨⟨2, ![100000, 64]⟩, t1⟩, ⟨⟨2, ![100000, 64]⟩, t2⟩, ⟨⟨2, ![100000, 64]⟩, t3⟩]

/-- Column d of the first block of the joined table is column d of the first table. -/
theorem beside_0 (t0 t1 t2 t3 : (⟨2, ![100000, 64]⟩ : Shape).Idx → α)
    (h : Shape.Concatenates ((four t0 t1 t2 t3).map (·.1)) ⟨2, ![100000, 256]⟩ 1) (p : Fin 100000) (d : Fin 64) :
    concatenate ⟨2, ![100000, 256]⟩ 1 (four t0 t1 t2 t3) h (ix2 p (⟨0 + d.val, by omega⟩ : Fin 256)) = t0 (ix2 p d) :=
  concatenate_apply_piece 1 (four t0 t1 t2 t3) h _ 0 (show 0 < 4 by omega) _ t0 rfl rfl 0 rfl (ix2 p d)
    (fun b hb => by
      match b with
      | ⟨0, _⟩ => rfl
      | ⟨1, _⟩ => exact absurd rfl hb) rfl

/-- Column 64 + d of the joined table is column d of the second table. -/
theorem beside_1 (t0 t1 t2 t3 : (⟨2, ![100000, 64]⟩ : Shape).Idx → α)
    (h : Shape.Concatenates ((four t0 t1 t2 t3).map (·.1)) ⟨2, ![100000, 256]⟩ 1) (p : Fin 100000) (d : Fin 64) :
    concatenate ⟨2, ![100000, 256]⟩ 1 (four t0 t1 t2 t3) h (ix2 p (⟨64 + d.val, by omega⟩ : Fin 256)) = t1 (ix2 p d) :=
  concatenate_apply_piece 1 (four t0 t1 t2 t3) h _ 1 (show 1 < 4 by omega) _ t1 rfl rfl 64 rfl (ix2 p d)
    (fun b hb => by
      match b with
      | ⟨0, _⟩ => rfl
      | ⟨1, _⟩ => exact absurd rfl hb) rfl

/-- Column 128 + d of the joined table is column d of the third table. -/
theorem beside_2 (t0 t1 t2 t3 : (⟨2, ![100000, 64]⟩ : Shape).Idx → α)
    (h : Shape.Concatenates ((four t0 t1 t2 t3).map (·.1)) ⟨2, ![100000, 256]⟩ 1) (p : Fin 100000) (d : Fin 64) :
    concatenate ⟨2, ![100000, 256]⟩ 1 (four t0 t1 t2 t3) h (ix2 p (⟨128 + d.val, by omega⟩ : Fin 256)) = t2 (ix2 p d) :=
  concatenate_apply_piece 1 (four t0 t1 t2 t3) h _ 2 (show 2 < 4 by omega) _ t2 rfl rfl 128 rfl (ix2 p d)
    (fun b hb => by
      match b with
      | ⟨0, _⟩ => rfl
      | ⟨1, _⟩ => exact absurd rfl hb) rfl

/-- Column 192 + d of the joined table is column d of the fourth table. -/
theorem beside_3 (t0 t1 t2 t3 : (⟨2, ![100000, 64]⟩ : Shape).Idx → α)
    (h : Shape.Concatenates ((four t0 t1 t2 t3).map (·.1)) ⟨2, ![100000, 256]⟩ 1) (p : Fin 100000) (d : Fin 64) :
    concatenate ⟨2, ![100000, 256]⟩ 1 (four t0 t1 t2 t3) h (ix2 p (⟨192 + d.val, by omega⟩ : Fin 256)) = t3 (ix2 p d) :=
  concatenate_apply_piece 1 (four t0 t1 t2 t3) h _ 3 (show 3 < 4 by omega) _ t3 rfl rfl 192 rfl (ix2 p d)
    (fun b hb => by
      match b with
      | ⟨0, _⟩ => rfl
      | ⟨1, _⟩ => exact absurd rfl hb) rfl

end Cert.ReferenceIdeal.RefValue

end
-- ==== Proof.RefDot.lean ====
/-
  The reference's last step, read entry by entry: the joined table times the weights, plus the bias, positive part.

  The reference sets the four tables x, h1, h2, h3 side by side (256 columns), multiplies the joined table with the
  256×64 weights, adds the bias row to every row and keeps the positive part. Entry (n, o) of the product is the sum
  over the 256 joined columns of (joined table at (n, k))·(weights at (k, o)). Column off + d of the joined table is
  column d of the table standing at off, so the sum is the sum of four 64-term products, one per table, against
  rows off … off + 63 of the weights; added up in order from zero this is exactly the accumulated sum of the
  specification, since 0 + s = s.
-/
import proofs.«123016_j5669356834169_1_alg».proof.Proof.Gen.ReferenceIdeal.Read
import proofs.«123016_j5669356834169_1_alg».proof.Proof.Spec
import proofs.«123016_j5669356834169_1_alg».proof.Proof.RefBlocks

noncomputable section

namespace Cert.ReferenceIdeal.RefValue

open Cert.ReferenceIdeal Cert.ReferenceIdeal.Gen Idealize.ShloMosaic Idealize.ShloMosaic.ValueIdx
open scoped BigOperators

/-- The left operand of the product is read at row n, column k. -/
theorem lidx_eq (p : Fin 100000) (o : Fin 64) (k : Fin 256) : Read.lidx_main_v111 (ix2 p o) k = ix2 p k :=
  funext fun a => Fin.ext (by match a with | ⟨0, _⟩ => rfl | ⟨1, _⟩ => rfl)

/-- The weights are read at row k, column o. -/
theorem ridx_eq (p : Fin 100000) (o : Fin 64) (k : Fin 256) : Read.ridx_main_v111 (ix2 p o) k = ix2 k o :=
  funext fun a => Fin.ext (by match a with | ⟨0, _⟩ => rfl | ⟨1, _⟩ => rfl)

/-- The bias row spread over all rows is read at column o. -/
theorem bidx_eq (p : Fin 100000) (o : Fin 64) : Read.idx_main_v112 (Read.idx_main_v113 (ix2 p o)) = ix1 o :=
  funext fun a => Fin.ext (by match a with | ⟨0, _⟩ => rfl)

/-- One entry of the product of four tables set side by side with the weights: the four partial products, added
    in order from zero. -/
theorem joined_dot (t0 t1 t2 t3 : FVec Ideal S100000x64 .f32) (W : FVec Ideal S256x64 .f32)
    (h : Shape.Concatenates ((four t0 t1 t2 t3).map (·.1)) ⟨2, ![100000, 256]⟩ 1) (p : Fin 100000) (o : Fin 64) :
    ∑ k : Fin 256, concatenate ⟨2, ![100000, 256]⟩ 1 (four t0 t1 t2 t3) h (ix2 p k) * W (ix2 k o)
      = Cert.Spec.dot4 t0 t1 t2 t3 W p o := by
  refine (sum_four_blocks fun k : Fin 256 =>
    concatenate ⟨2, ![100000, 256]⟩ 1 (four t0 t1 t2 t3) h (ix2 p k) * W (ix2 k o)).trans ?_
  unfold Cert.Spec.dot4 Cert.Spec.part
  rw [Ideal.ofBits_zero_f32, zero_add]
  refine congrArg₂ (· + ·) (congrArg₂ (· + ·) (congrArg₂ (· + ·) ?_ ?_) ?_) ?_
  · exact Finset.sum_congr rfl fun d _ => congrArg (· * _) (beside_0 t0 t1 t2 t3 h p d)
  · exact Finset.sum_congr rfl fun d _ => congrArg (· * _) (beside_1 t0 t1 t2 t3 h p d)
  · exact Finset.sum_congr rfl fun d _ => congrArg (· * _) (beside_2 t0 t1 t2 t3 h p d)
  · exact Finset.sum_congr rfl fun d _ => congrArg (· * _) (beside_3 t0 t1 t2 t3 h p d)

/-- The reference's result is the specification's last step applied to x and the reference's three combined
    tables. -/
theorem out_eq (x : FVec Ideal S100000x64 .f32) (ei : (⟨S1250000x2, .i32⟩ : BufTy).Contents (Elt Ideal))
    (ew : FVec Ideal S1250000 .f32) (W : FVec Ideal S256x64 .f32) (b : FVec Ideal S64 .f32) :
    Read.val_main_v115 (F := Ideal) x ei ew W b
      = Cert.Spec.mm x (Read.val_main_v47 (F := Ideal) x ei ew) (Read.val_main_v78 (F := Ideal) x ei ew)
          (Read.val_main_v109 (F := Ideal) x ei ew) W b := by
  funext i
  obtain ⟨p, o, rfl⟩ : ∃ (p : Fin 100000) (o : Fin 64), i = ix2 p o := ⟨i 0, i 1, eq_ix2 i⟩
  rw [Read.val_main_v115_apply, Read.val_main_v114_apply, Read.val_main_v111_apply, Read.val_main_call0_v0_apply,
    Read.val_main_call0_cst_apply, Read.val_main_v113_apply, Read.val_main_v112_apply, bidx_eq]
  simp only [lidx_eq, ridx_eq]
  unfold Read.val_main_v110
  rw [joined_dot x _ _ _ W _ p o] <;> rfl

end Cert.ReferenceIdeal.RefValue

end
-- ==== Proof.RefValue.lean ====
/-
  The reference's result as the specification's function of the inputs.

  The reference computes relu(concat(x, h1, h2, h3) · W + b) with h1 = x + P x, h2 = 2·(h1 + P h1) − x,
  h3 = 2·(h2 + P h2) − h1 and P the graph propagation. The three tables are the combine step applied three times
  (coefficients (1, 0), (2, −1), (2, −1)), and the last step is the four accumulated 64-term products plus the bias,
  positive part kept: the result is the specification's last step applied to x and the three combined tables.
-/
import proofs.«123016_j5669356834169_1_alg».proof.Proof.RefTabs
import proofs.«123016_j5669356834169_1_alg».proof.Proof.RefDot

noncomputable section

namespace Cert.ReferenceIdeal.RefValue

open Cert.ReferenceIdeal Cert.ReferenceIdeal.Gen Idealize.ShloMosaic

/-- The reference's result is the last step of the specification applied to the input table and the three
    combined tables. Every identity used holds for all extended reals (0·y = 0 and (−1)·y = −y also at the
    infinities), so nothing is asked of the entries. -/
theorem result_eq (x : Tab) (ei : Edges) (ew : EdgeWts) (W : FVec Ideal S256x64 .f32) (b : FVec Ideal S64 .f32) :
    Read.val_main_v115 (F := Ideal) x ei ew W b
      = Cert.Spec.mm x (tab1 x ei ew) (tab2 x ei ew) (tab3 x ei ew) W b := by
  rw [tab1_eq, tab2_eq, tab3_eq]
  exact out_eq x ei ew W b

end Cert.ReferenceIdeal.RefValue

end
-- ==== Proof.IAssemble.lean ====
/-
  The kernel program's result, read through its run: each combine kernel's output array is the combine of the arrays it was
  given; the array it was given as "propagated table" is the propagation — the same host operations as the reference's — of
  the table before it; so the three new tables are the reference's three tables, and the last kernel's output, the four
  partial products plus the bias with the positive part kept, is the reference's result.
-/
import proofs.«123016_j5669356834169_1_alg».proof.Proof.IRun
import proofs.«123016_j5669356834169_1_alg».proof.Proof.IValue0
import proofs.«123016_j5669356834169_1_alg».proof.Proof.IValue1
import proofs.«123016_j5669356834169_1_alg».proof.Proof.IValue2
import proofs.«123016_j5669356834169_1_alg».proof.Proof.IValue3
import proofs.«123016_j5669356834169_1_alg».proof.Proof.IStretch01
import proofs.«123016_j5669356834169_1_alg».proof.Proof.IStretch2
import proofs.«123016_j5669356834169_1_alg».proof.Proof.RefValue

set_option maxRecDepth 16384

noncomputable section

namespace Cert.KernelIdeal.Val

open Cert.KernelIdeal.Gen Cert.KernelIdeal.Frm Cert.ReferenceIdeal.RefValue
open Idealize.ShloMosaic Idealize.ShloMosaic.TcCoe Idealize.SL.Sem

variable (m : (ℓ : Loc nD τ sig) → Buf (Elt Ideal) ℓ) (c : Dev nD)

/-- An argument array is as launched when the last kernel starts: no host operation writes it, no kernel has it as output. -/
theorem B6_arg (r : Ref sig .tc) (h6 : r ≠ main_v103) (h5 : r ∉ hostOps2_W) (h4 : r ≠ main_v75)
    (h3 : r ∉ hostOps1_W) (h2 : r ≠ main_v47) (h1 : r ∉ hostOps0_W) : B6 m c r = m ((c : Thread nD τ).loc r) :=
  (B6_of m c r h6).trans <| (B5_of m c r h5).trans <| (B4_of m c r h4).trans <|
    (B3_of m c r h3).trans <| (B2_of m c r h2).trans <| (B1_of m c r h1).trans rfl

/-- The first combine kernel's output is the first new table: the features plus their propagation. -/
theorem first_table : B2 m c main_v47 = tab1 (m ((c : Thread nD τ).loc main_arg0)) (m ((c : Thread nD τ).loc main_arg1)) (m ((c : Thread nD τ).loc main_arg2)) := by
  rw [B2_at, arr0 (T1 m) c,
    show T1 m c main_arg0 = (m ((c : Thread nD τ).loc main_arg0)) from B1_of m c main_arg0 (by decide),
    show T1 m c main_v46 = P (m ((c : Thread nD τ).loc main_arg1)) (m ((c : Thread nD τ).loc main_arg2)) (m ((c : Thread nD τ).loc main_arg0)) from stretch0 (B0 m c)]
  rfl

/-- The second stretch propagates the first new table. -/
theorem prop_of_table1 : B3 m c main_v74 = P (m ((c : Thread nD τ).loc main_arg1)) (m ((c : Thread nD τ).loc main_arg2)) (tab1 (m ((c : Thread nD τ).loc main_arg0)) (m ((c : Thread nD τ).loc main_arg1)) (m ((c : Thread nD τ).loc main_arg2))) := by
  show StableHlo.after hostOps1 (B2 m c) main_v74 = _
  unfold B2
  exact (stretch1 (B0 m c) _).trans (congrArg (P (m ((c : Thread nD τ).loc main_arg1)) (m ((c : Thread nD τ).loc main_arg2))) ((B2_at m c).symm.trans (first_table m c)))

/-- The second combine kernel's output is the second new table. -/
theorem second_table : B4 m c main_v75 = tab2 (m ((c : Thread nD τ).loc main_arg0)) (m ((c : Thread nD τ).loc main_arg1)) (m ((c : Thread nD τ).loc main_arg2)) := by
  rw [B4_at, arr1 (T3 m) c,
    show T3 m c main_v47 = tab1 (m ((c : Thread nD τ).loc main_arg0)) (m ((c : Thread nD τ).loc main_arg1)) (m ((c : Thread nD τ).loc main_arg2)) from (B3_of m c main_v47 (by decide)).trans (first_table m c),
    show T3 m c main_v74 = P (m ((c : Thread nD τ).loc main_arg1)) (m ((c : Thread nD τ).loc main_arg2)) (tab1 (m ((c : Thread nD τ).loc main_arg0)) (m ((c : Thread nD τ).loc main_arg1)) (m ((c : Thread nD τ).loc main_arg2))) from prop_of_table1 m c,
    show T3 m c main_arg0 = (m ((c : Thread nD τ).loc main_arg0)) from (B3_of m c main_arg0 (by decide)).trans ((B2_of m c main_arg0 (by decide)).trans (B1_of m c main_arg0 (by decide)))]
  rfl

/-- The third stretch propagates the second new table. -/
theorem prop_of_table2 : B5 m c main_v102 = P (m ((c : Thread nD τ).loc main_arg1)) (m ((c : Thread nD τ).loc main_arg2)) (tab2 (m ((c : Thread nD τ).loc main_arg0)) (m ((c : Thread nD τ).loc main_arg1)) (m ((c : Thread nD τ).loc main_arg2))) := by
  show StableHlo.after hostOps2 (B4 m c) main_v102 = _
  unfold B4
  show StableHlo.after hostOps2 (Function.update (StableHlo.after hostOps1 (B2 m c)) main_v75 _) main_v102 = _
  unfold B2
  exact (stretch2 (B0 m c) _ _).trans (congrArg (P (m ((c : Thread nD τ).loc main_arg1)) (m ((c : Thread nD τ).loc main_arg2))) ((B4_at m c).symm.trans (second_table m c)))

/-- The third combine kernel's output is the third new table. -/
theorem third_table : B6 m c main_v103 = tab3 (m ((c : Thread nD τ).loc main_arg0)) (m ((c : Thread nD τ).loc main_arg1)) (m ((c : Thread nD τ).loc main_arg2)) := by
  rw [B6_at, arr2 (T5 m) c,
    show T5 m c main_v75 = tab2 (m ((c : Thread nD τ).loc main_arg0)) (m ((c : Thread nD τ).loc main_arg1)) (m ((c : Thread nD τ).loc main_arg2)) from (B5_of m c main_v75 (by decide)).trans (second_table m c),
    show T5 m c main_v102 = P (m ((c : Thread nD τ).loc main_arg1)) (m ((c : Thread nD τ).loc main_arg2)) (tab2 (m ((c : Thread nD τ).loc main_arg0)) (m ((c : Thread nD τ).loc main_arg1)) (m ((c : Thread nD τ).loc main_arg2))) from prop_of_table2 m c,
    show T5 m c main_v47 = tab1 (m ((c : Thread nD τ).loc main_arg0)) (m ((c : Thread nD τ).loc main_arg1)) (m ((c : Thread nD τ).loc main_arg2)) from (B5_of m c main_v47 (by decide)).trans ((B4_of m c main_v47 (by decide)).trans ((B3_of m c main_v47 (by decide)).trans (first_table m c)))]
  rfl

/-- The result array after the run is the reference's last stage at the launch arguments. -/
theorem out_val : (dat3 (T6 m) c).arrAt 6 cfg3.N
    = Cert.ReferenceIdeal.Read.val_main_v115 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  rw [arr3 (T6 m) c,
    show T6 m c main_arg0 = (m ((c : Thread nD τ).loc main_arg0)) from B6_arg m c main_arg0 (by decide) (by decide) (by decide) (by decide) (by decide) (by decide),
    show T6 m c main_arg3 = (m ((c : Thread nD τ).loc main_arg3)) from B6_arg m c main_arg3 (by decide) (by decide) (by decide) (by decide) (by decide) (by decide),
    show T6 m c main_arg4 = (m ((c : Thread nD τ).loc main_arg4)) from B6_arg m c main_arg4 (by decide) (by decide) (by decide) (by decide) (by decide) (by decide),
    show T6 m c main_v47 = tab1 (m ((c : Thread nD τ).loc main_arg0)) (m ((c : Thread nD τ).loc main_arg1)) (m ((c : Thread nD τ).loc main_arg2)) from (B6_of m c main_v47 (by decide)).trans ((B5_of m c main_v47 (by decide)).trans ((B4_of m c main_v47 (by decide)).trans ((B3_of m c main_v47 (by decide)).trans (first_table m c)))),
    show T6 m c main_v75 = tab2 (m ((c : Thread nD τ).loc main_arg0)) (m ((c : Thread nD τ).loc main_arg1)) (m ((c : Thread nD τ).loc main_arg2)) from (B6_of m c main_v75 (by decide)).trans ((B5_of m c main_v75 (by decide)).trans (second_table m c)),
    show T6 m c main_v103 = tab3 (m ((c : Thread nD τ).loc main_arg0)) (m ((c : Thread nD τ).loc main_arg1)) (m ((c : Thread nD τ).loc main_arg2)) from third_table m c]
  exact (result_eq (m ((c : Thread nD τ).loc main_arg0)) (m ((c : Thread nD τ).loc main_arg1)) (m ((c : Thread nD τ).loc main_arg2)) (m ((c : Thread nD τ).loc main_arg3)) (m ((c : Thread nD τ).loc main_arg4))).symm

end Cert.KernelIdeal.Val

end
-- ==== Proof.lean ====
/-
  A Chebyshev graph convolution. With P the graph propagation of a node table (gather the rows at the edges' sources, scale by
  the inverse root in-degree and the edge weight, add up at the edges' destinations, negate, scale by the inverse root
  out-degree), the tables are b0 = x, b1 = 1·(b0 + P b0) + 0·b0, b2 = 2·(b1 + P b1) + (−1)·b0, b3 = 2·(b2 + P b2) + (−1)·b1, and
  the result is the positive part of b0·W₀ + b1·W₁ + b2·W₂ + b3·W₃ + bias, the Wₖ being the four 64-row groups of the weights.
  The kernel program computes each combination and the last step block of 2000 rows by block, the propagation on the host in
  between; the reference computes h1 = x + P x, h2 = 2·(h1 + P h1) − x, h3 = 2·(h2 + P h2) − h1 and the positive part of
  [x h1 h2 h3]·W + bias in one product of 256 terms.

  On the extended reals the two agree entry by entry: 1·y = y, 0·y = 0 and (−1)·y = −y for every y, a − b is a + (−b), the
  propagation is one function of the table on both sides, and a sum of 256 terms is the four sums of 64 added in order. No step
  needs the entries finite, so the precondition is never opened.

  The frames: each program runs to the end, faults nowhere and leaves its five arguments as launched — for the two kernel
  programs by the run of their seven items (three host stretches, four kernels), for the reference by its run of host operations.
-/
import proofs.«123016_j5669356834169_1_alg».proof.Defs
import proofs.«123016_j5669356834169_1_alg».proof.Proof.Gen.Kernel
import proofs.«123016_j5669356834169_1_alg».proof.Proof.Gen.KernelIdeal
import proofs.«123016_j5669356834169_1_alg».proof.Proof.Gen.ReferenceIdeal
import proofs.«123016_j5669356834169_1_alg».proof.Proof.Gen.Pre_finite_inputs
import proofs.«123016_j5669356834169_1_alg».proof.Proof.BRun
import proofs.«123016_j5669356834169_1_alg».proof.Proof.IAssemble

noncomputable section

namespace Cert.Proof

open Idealize.ShloMosaic Idealize.SL.Sem

/-- The word-level kernel program runs and leaves its arguments: its run, the result array dropped. -/
theorem frame_kernel : Cert.frame_Kernel (hKernel := Cert.Kernel.Gen.facts) (hPre_finite_inputs := Cert.Pre_finite_inputs.Gen.facts) :=
  fun m ρ _ => (θ_run Cert.Kernel.defs _ _).mono (fun _ h c => (h c).2) (Cert.Kernel.Frm.run_main (F := Bits) m ρ)

/-- The idealized kernel program runs and leaves its arguments. -/
theorem frame_kernelIdeal : Cert.frame_KernelIdeal (hKernelIdeal := Cert.KernelIdeal.Gen.facts) (hPre_finite_inputs := Cert.Pre_finite_inputs.Gen.facts) :=
  fun m ρ _ => (θ_run Cert.KernelIdeal.defs _ _).mono (fun _ h c => (h c).2) (Cert.KernelIdeal.Frm.run_main (F := Ideal) m ρ)

/-- The reference runs and leaves its arguments: its run of host operations, the result dropped. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments both programs end with the same result: the reference's last stage at the
    arguments — the kernel program's by its run read table by table, the reference's by its own run. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.ReferenceIdeal.Read.val_main_v115 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)), ?_, ?_⟩
  · exact (θ_run Cert.KernelIdeal.defs _ _).mono (fun _ h c => ⟨(h c).1.trans (Cert.KernelIdeal.Val.out_val m c), (h c).2⟩)
      (Cert.KernelIdeal.Frm.run_main (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v115_eq, (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
